-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v302)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v302) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S_ : Shape := ⟨0, ![]⟩
abbrev S8x1x1024x1024 : Shape := ⟨4, ![8, 1, 1024, 1024]⟩
abbrev S8x1024x1024 : Shape := ⟨3, ![8, 1024, 1024]⟩
abbrev S1x8x1024x1024 : Shape := ⟨4, ![1, 8, 1024, 1024]⟩
abbrev S8x1024x1024x1 : Shape := ⟨4, ![8, 1024, 1024, 1]⟩
abbrev S8x1024x1024x3 : Shape := ⟨4, ![8, 1024, 1024, 3]⟩
abbrev S3x8x1024x1024 : Shape := ⟨4, ![3, 8, 1024, 1024]⟩
abbrev S1x3x8x1024x1024 : Shape := ⟨5, ![1, 3, 8, 1024, 1024]⟩
abbrev S8x3x8x1024x1024 : Shape := ⟨5, ![8, 3, 8, 1024, 1024]⟩
abbrev S8x24x1024x1024 : Shape := ⟨4, ![8, 24, 1024, 1024]⟩
abbrev S24x1024x1024 : Shape := ⟨3, ![24, 1024, 1024]⟩
abbrev S8x8x64x1024 : Shape := ⟨4, ![8, 8, 64, 1024]⟩
abbrev S8x64x1024 : Shape := ⟨3, ![8, 64, 1024]⟩
abbrev S1x8x64x1024 : Shape := ⟨4, ![1, 8, 64, 1024]⟩

abbrev nBuf : Space → Nat
  | .hbm => 390
  | .vmem => 4
  | .smem => 0
  | _ => 0

abbrev hbmTy0_0 (i : Nat) : BufTy := match i % 128 with
  | 0 => ⟨S3x33x33x33, .f32⟩
  | 1 => ⟨S8x3x1024x1024, .f32⟩
  | 2 => ⟨S_, .f32⟩
  | 3 => ⟨S8x3x1024x1024, .f32⟩
  | 4 => ⟨S8x3x1024x1024, .f32⟩
  | 5 => ⟨S8x3x1024x1024, .f32⟩
  | 6 => ⟨S8x3x1024x1024, .i32⟩
  | 7 => ⟨S8x3x1024x1024, .f32⟩
  | 8 => ⟨S8x3x1024x1024, .f32⟩
  | 9 => ⟨S8x1x1024x1024, .i32⟩
  | 10 => ⟨S8x1024x1024, .i32⟩
  | 11 => ⟨S8x1x1024x1024, .i32⟩
  | 12 => ⟨S8x1024x1024, .i32⟩
  | 13 => ⟨S8x1x1024x1024, .i32⟩
  | 14 => ⟨S8x1024x1024, .i32⟩
  | 15 => ⟨S8x1x1024x1024, .f32⟩
  | 16 => ⟨S8x1024x1024, .f32⟩
  | 17 => ⟨S8x1x1024x1024, .f32⟩
  | 18 => ⟨S8x1024x1024, .f32⟩
  | 19 => ⟨S8x1x1024x1024, .f32⟩
  | 20 => ⟨S8x1024x1024, .f32⟩
  | 21 => ⟨S_, .f32⟩
  | 22 => ⟨S8x1024x1024, .f32⟩
  | 23 => ⟨S8x1024x1024, .f32⟩
  | 24 => ⟨S_, .f32⟩
  | 25 => ⟨S8x1024x1024, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S8x1024x1024, .f32⟩
  | 32 => ⟨S_, .f32⟩
  | 33 => ⟨S8x1024x1024, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S_, .f32⟩
  | 41 => ⟨S8x1024x1024, .f32⟩
  | 42 => ⟨S8x1024x1024, .f32⟩
  | 43 => ⟨S8x1024x1024, .f32⟩
  | 44 => ⟨S_, .f32⟩
  | 45 => ⟨S8x1024x1024, .f32⟩
  | 46 => ⟨S8x1024x1024, .f32⟩
  | 47 => ⟨S8x1024x1024, .f32⟩
  | 48 => ⟨S8x1024x1024, .f32⟩
  | 49 => ⟨S_, .f32⟩
  | 50 => ⟨S8x1024x1024, .f32⟩
  | 51 => ⟨S8x1024x1024, .f32⟩
  | 52 => ⟨S8x1024x1024, .f32⟩
  | 53 => ⟨S_, .f32⟩
  | 54 => ⟨S8x1024x1024, .f32⟩
  | 55 => ⟨S8x1024x1024, .f32⟩
  | 56 => ⟨S_, .f32⟩
  | 57 => ⟨S8x1024x1024, .f32⟩
  | 58 => ⟨S8x1024x1024, .f32⟩
  | 59 => ⟨S8x1024x1024, .f32⟩
  | 60 => ⟨S8x1024x1024, .f32⟩
  | 61 => ⟨S_, .f32⟩
  | 62 => ⟨S8x1024x1024, .f32⟩
  | 63 => ⟨S8x1024x1024, .f32⟩
  | 64 => ⟨S8x1024x1024, .f32⟩
  | 65 => ⟨S8x1024x1024, .f32⟩
  | 66 => ⟨S_, .f32⟩
  | 67 => ⟨S8x1024x1024, .f32⟩
  | 68 => ⟨S8x1024x1024, .f32⟩
  | 69 => ⟨S8x1024x1024, .f32⟩
  | 70 => ⟨S8x1024x1024, .f32⟩
  | 71 => ⟨S8x1024x1024, .f32⟩
  | 72 => ⟨S8x1024x1024, .f32⟩
  | 73 => ⟨S1x8x1024x1024, .f32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i1⟩
  | 93 => ⟨S_, .i32⟩
  | 94 => ⟨S8x1024x1024, .i32⟩
  | 95 => ⟨S8x1024x1024, .i32⟩
  | 96 => ⟨S8x1024x1024, .i32⟩
  | 97 => ⟨S_, .i32⟩
  | 98 => ⟨S8x1024x1024, .i32⟩
  | 99 => ⟨S8x1024x1024, .i1⟩
  | 100 => ⟨S_, .i32⟩
  | 101 => ⟨S8x1024x1024, .i32⟩
  | 102 => ⟨S8x1024x1024, .i32⟩
  | 103 => ⟨S8x1024x1024, .i32⟩
  | 104 => ⟨S8x1024x1024x1, .i32⟩
  | 105 => ⟨S8x1024x1024x1, .i32⟩
  | 106 => ⟨S8x1024x1024x1, .i32⟩
  | 107 => ⟨S8x1024x1024x3, .i32⟩
  | 108 => ⟨S3x8x1024x1024, .f32⟩
  | 109 => ⟨S3x8x1024x1024, .f32⟩
  | 110 => ⟨S3x8x1024x1024, .f32⟩
  | 111 => ⟨S1x8x1024x1024, .f32⟩
  | 112 => ⟨S_, .i32⟩
  | 113 => ⟨S8x1024x1024, .i32⟩
  | 114 => ⟨S8x1024x1024, .i32⟩
  | 115 => ⟨S_, .i32⟩
  | 116 => ⟨S8x1024x1024, .i32⟩
  | 117 => ⟨S8x1024x1024, .i32⟩
  | 118 => ⟨S_, .i32⟩
  | 119 => ⟨S8x1024x1024, .i32⟩
  | 120 => ⟨S8x1024x1024, .i32⟩
  | 121 => ⟨S_, .i32⟩
  | 122 => ⟨S8x1024x1024, .i32⟩
  | 123 => ⟨S8x1024x1024, .i1⟩
  | 124 => ⟨S_, .i32⟩
  | 125 => ⟨S8x1024x1024, .i32⟩
  | 126 => ⟨S8x1024x1024, .i32⟩
  | 127 => ⟨S8x1024x1024, .i32⟩
  | _ => ⟨S3x33x33x33, .f32⟩

abbrev hbmTy0_1 (i : Nat) : BufTy := match i % 128 with
  | 0 => ⟨S_, .i32⟩
  | 1 => ⟨S8x1024x1024, .i32⟩
  | 2 => ⟨S8x1024x1024, .i1⟩
  | 3 => ⟨S_, .i32⟩
  | 4 => ⟨S8x1024x1024, .i32⟩
  | 5 => ⟨S8x1024x1024, .i32⟩
  | 6 => ⟨S8x1024x1024, .i32⟩
  | 7 => ⟨S_, .i32⟩
  | 8 => ⟨S8x1024x1024, .i32⟩
  | 9 => ⟨S8x1024x1024, .i1⟩
  | 10 => ⟨S_, .i32⟩
  | 11 => ⟨S8x1024x1024, .i32⟩
  | 12 => ⟨S8x1024x1024, .i32⟩
  | 13 => ⟨S8x1024x1024, .i32⟩
  | 14 => ⟨S8x1024x1024x1, .i32⟩
  | 15 => ⟨S8x1024x1024x1, .i32⟩
  | 16 => ⟨S8x1024x1024x1, .i32⟩
  | 17 => ⟨S8x1024x1024x3, .i32⟩
  | 18 => ⟨S3x8x1024x1024, .f32⟩
  | 19 => ⟨S3x8x1024x1024, .f32⟩
  | 20 => ⟨S3x8x1024x1024, .f32⟩
  | 21 => ⟨S1x8x1024x1024, .f32⟩
  | 22 => ⟨S_, .i32⟩
  | 23 => ⟨S8x1024x1024, .i32⟩
  | 24 => ⟨S8x1024x1024, .i32⟩
  | 25 => ⟨S_, .i32⟩
  | 26 => ⟨S8x1024x1024, .i32⟩
  | 27 => ⟨S8x1024x1024, .i32⟩
  | 28 => ⟨S_, .i32⟩
  | 29 => ⟨S8x1024x1024, .i32⟩
  | 30 => ⟨S8x1024x1024, .i32⟩
  | 31 => ⟨S_, .i32⟩
  | 32 => ⟨S8x1024x1024, .i32⟩
  | 33 => ⟨S8x1024x1024, .i1⟩
  | 34 => ⟨S_, .i32⟩
  | 35 => ⟨S8x1024x1024, .i32⟩
  | 36 => ⟨S8x1024x1024, .i32⟩
  | 37 => ⟨S8x1024x1024, .i32⟩
  | 38 => ⟨S_, .i32⟩
  | 39 => ⟨S8x1024x1024, .i32⟩
  | 40 => ⟨S8x1024x1024, .i1⟩
  | 41 => ⟨S_, .i32⟩
  | 42 => ⟨S8x1024x1024, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i1⟩
  | 48 => ⟨S_, .i32⟩
  | 49 => ⟨S8x1024x1024, .i32⟩
  | 50 => ⟨S8x1024x1024, .i32⟩
  | 51 => ⟨S8x1024x1024, .i32⟩
  | 52 => ⟨S8x1024x1024x1, .i32⟩
  | 53 => ⟨S8x1024x1024x1, .i32⟩
  | 54 => ⟨S8x1024x1024x1, .i32⟩
  | 55 => ⟨S8x1024x1024x3, .i32⟩
  | 56 => ⟨S3x8x1024x1024, .f32⟩
  | 57 => ⟨S3x8x1024x1024, .f32⟩
  | 58 => ⟨S3x8x1024x1024, .f32⟩
  | 59 => ⟨S1x8x1024x1024, .f32⟩
  | 60 => ⟨S_, .i32⟩
  | 61 => ⟨S8x1024x1024, .i32⟩
  | 62 => ⟨S8x1024x1024, .i32⟩
  | 63 => ⟨S_, .i32⟩
  | 64 => ⟨S8x1024x1024, .i32⟩
  | 65 => ⟨S8x1024x1024, .i32⟩
  | 66 => ⟨S_, .i32⟩
  | 67 => ⟨S8x1024x1024, .i32⟩
  | 68 => ⟨S8x1024x1024, .i32⟩
  | 69 => ⟨S_, .i32⟩
  | 70 => ⟨S8x1024x1024, .i32⟩
  | 71 => ⟨S8x1024x1024, .i1⟩
  | 72 => ⟨S_, .i32⟩
  | 73 => ⟨S8x1024x1024, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i1⟩
  | 79 => ⟨S_, .i32⟩
  | 80 => ⟨S8x1024x1024, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S8x1024x1024x1, .i32⟩
  | 91 => ⟨S8x1024x1024x1, .i32⟩
  | 92 => ⟨S8x1024x1024x1, .i32⟩
  | 93 => ⟨S8x1024x1024x3, .i32⟩
  | 94 => ⟨S3x8x1024x1024, .f32⟩
  | 95 => ⟨S3x8x1024x1024, .f32⟩
  | 96 => ⟨S3x8x1024x1024, .f32⟩
  | 97 => ⟨S1x8x1024x1024, .f32⟩
  | 98 => ⟨S_, .i32⟩
  | 99 => ⟨S8x1024x1024, .i32⟩
  | 100 => ⟨S8x1024x1024, .i32⟩
  | 101 => ⟨S_, .i32⟩
  | 102 => ⟨S8x1024x1024, .i32⟩
  | 103 => ⟨S8x1024x1024, .i32⟩
  | 104 => ⟨S_, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i1⟩
  | 110 => ⟨S_, .i32⟩
  | 111 => ⟨S8x1024x1024, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i1⟩
  | 117 => ⟨S_, .i32⟩
  | 118 => ⟨S8x1024x1024, .i32⟩
  | 119 => ⟨S8x1024x1024, .i32⟩
  | 120 => ⟨S8x1024x1024, .i32⟩
  | 121 => ⟨S_, .i32⟩
  | 122 => ⟨S8x1024x1024, .i32⟩
  | 123 => ⟨S8x1024x1024, .i1⟩
  | 124 => ⟨S_, .i32⟩
  | 125 => ⟨S8x1024x1024, .i32⟩
  | 126 => ⟨S8x1024x1024, .i32⟩
  | 127 => ⟨S8x1024x1024, .i32⟩
  | _ => ⟨S3x33x33x33, .f32⟩

abbrev hbmTy0_2 (i : Nat) : BufTy := match i % 128 with
  | 0 => ⟨S8x1024x1024x1, .i32⟩
  | 1 => ⟨S8x1024x1024x1, .i32⟩
  | 2 => ⟨S8x1024x1024x1, .i32⟩
  | 3 => ⟨S8x1024x1024x3, .i32⟩
  | 4 => ⟨S3x8x1024x1024, .f32⟩
  | 5 => ⟨S3x8x1024x1024, .f32⟩
  | 6 => ⟨S3x8x1024x1024, .f32⟩
  | 7 => ⟨S1x8x1024x1024, .f32⟩
  | 8 => ⟨S_, .i32⟩
  | 9 => ⟨S8x1024x1024, .i32⟩
  | 10 => ⟨S8x1024x1024, .i32⟩
  | 11 => ⟨S_, .i32⟩
  | 12 => ⟨S8x1024x1024, .i32⟩
  | 13 => ⟨S8x1024x1024, .i32⟩
  | 14 => ⟨S_, .i32⟩
  | 15 => ⟨S8x1024x1024, .i32⟩
  | 16 => ⟨S8x1024x1024, .i32⟩
  | 17 => ⟨S_, .i32⟩
  | 18 => ⟨S8x1024x1024, .i32⟩
  | 19 => ⟨S8x1024x1024, .i1⟩
  | 20 => ⟨S_, .i32⟩
  | 21 => ⟨S8x1024x1024, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i1⟩
  | 27 => ⟨S_, .i32⟩
  | 28 => ⟨S8x1024x1024, .i32⟩
  | 29 => ⟨S8x1024x1024, .i32⟩
  | 30 => ⟨S8x1024x1024, .i32⟩
  | 31 => ⟨S_, .i32⟩
  | 32 => ⟨S8x1024x1024, .i32⟩
  | 33 => ⟨S8x1024x1024, .i1⟩
  | 34 => ⟨S_, .i32⟩
  | 35 => ⟨S8x1024x1024, .i32⟩
  | 36 => ⟨S8x1024x1024, .i32⟩
  | 37 => ⟨S8x1024x1024, .i32⟩
  | 38 => ⟨S8x1024x1024x1, .i32⟩
  | 39 => ⟨S8x1024x1024x1, .i32⟩
  | 40 => ⟨S8x1024x1024x1, .i32⟩
  | 41 => ⟨S8x1024x1024x3, .i32⟩
  | 42 => ⟨S3x8x1024x1024, .f32⟩
  | 43 => ⟨S3x8x1024x1024, .f32⟩
  | 44 => ⟨S3x8x1024x1024, .f32⟩
  | 45 => ⟨S1x8x1024x1024, .f32⟩
  | 46 => ⟨S_, .i32⟩
  | 47 => ⟨S8x1024x1024, .i32⟩
  | 48 => ⟨S8x1024x1024, .i32⟩
  | 49 => ⟨S_, .i32⟩
  | 50 => ⟨S8x1024x1024, .i32⟩
  | 51 => ⟨S8x1024x1024, .i32⟩
  | 52 => ⟨S_, .i32⟩
  | 53 => ⟨S8x1024x1024, .i32⟩
  | 54 => ⟨S8x1024x1024, .i32⟩
  | 55 => ⟨S_, .i32⟩
  | 56 => ⟨S8x1024x1024, .i32⟩
  | 57 => ⟨S8x1024x1024, .i1⟩
  | 58 => ⟨S_, .i32⟩
  | 59 => ⟨S8x1024x1024, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S_, .i32⟩
  | 70 => ⟨S8x1024x1024, .i32⟩
  | 71 => ⟨S8x1024x1024, .i1⟩
  | 72 => ⟨S_, .i32⟩
  | 73 => ⟨S8x1024x1024, .i32⟩
  | 74 => ⟨S8x1024x1024, .i32⟩
  | 75 => ⟨S8x1024x1024, .i32⟩
  | 76 => ⟨S8x1024x1024x1, .i32⟩
  | 77 => ⟨S8x1024x1024x1, .i32⟩
  | 78 => ⟨S8x1024x1024x1, .i32⟩
  | 79 => ⟨S8x1024x1024x3, .i32⟩
  | 80 => ⟨S3x8x1024x1024, .f32⟩
  | 81 => ⟨S3x8x1024x1024, .f32⟩
  | 82 => ⟨S3x8x1024x1024, .f32⟩
  | 83 => ⟨S1x8x1024x1024, .f32⟩
  | 84 => ⟨S_, .i32⟩
  | 85 => ⟨S8x1024x1024, .i32⟩
  | 86 => ⟨S8x1024x1024, .i32⟩
  | 87 => ⟨S_, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i32⟩
  | 93 => ⟨S_, .i32⟩
  | 94 => ⟨S8x1024x1024, .i32⟩
  | 95 => ⟨S8x1024x1024, .i1⟩
  | 96 => ⟨S_, .i32⟩
  | 97 => ⟨S8x1024x1024, .i32⟩
  | 98 => ⟨S8x1024x1024, .i32⟩
  | 99 => ⟨S8x1024x1024, .i32⟩
  | 100 => ⟨S_, .i32⟩
  | 101 => ⟨S8x1024x1024, .i32⟩
  | 102 => ⟨S8x1024x1024, .i1⟩
  | 103 => ⟨S_, .i32⟩
  | 104 => ⟨S8x1024x1024, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i1⟩
  | 110 => ⟨S_, .i32⟩
  | 111 => ⟨S8x1024x1024, .i32⟩
  | 112 => ⟨S8x1024x1024, .i32⟩
  | 113 => ⟨S8x1024x1024, .i32⟩
  | 114 => ⟨S8x1024x1024x1, .i32⟩
  | 115 => ⟨S8x1024x1024x1, .i32⟩
  | 116 => ⟨S8x1024x1024x1, .i32⟩
  | 117 => ⟨S8x1024x1024x3, .i32⟩
  | 118 => ⟨S3x8x1024x1024, .f32⟩
  | 119 => ⟨S3x8x1024x1024, .f32⟩
  | 120 => ⟨S3x8x1024x1024, .f32⟩
  | 121 => ⟨S1x3x8x1024x1024, .f32⟩
  | 122 => ⟨S1x3x8x1024x1024, .f32⟩
  | 123 => ⟨S1x3x8x1024x1024, .f32⟩
  | 124 => ⟨S1x3x8x1024x1024, .f32⟩
  | 125 => ⟨S1x3x8x1024x1024, .f32⟩
  | 126 => ⟨S1x3x8x1024x1024, .f32⟩
  | 127 => ⟨S1x3x8x1024x1024, .f32⟩
  | _ => ⟨S3x33x33x33, .f32⟩

abbrev hbmTy0_3 (i : Nat) : BufTy := match i % 128 with
  | 0 => ⟨S1x3x8x1024x1024, .f32⟩
  | 1 => ⟨S8x3x8x1024x1024, .f32⟩
  | 2 => ⟨S8x24x1024x1024, .f32⟩
  | 3 => ⟨S24x1024x1024, .f32⟩
  | 4 => ⟨S3x8x1024x1024, .f32⟩
  | 5 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | _ => ⟨S3x33x33x33, .f32⟩

abbrev bufTy : (tb : Table) → Fin (tcTables nBuf tb) → BufTy
  | .hbm, ⟨i, _⟩ => hbmTy i
  | .local _ .vmem, ⟨0, _⟩ => ⟨S8x8x64x1024, .f32⟩
  | .local _ .vmem, ⟨1, _⟩ => ⟨S8x8x64x1024, .f32⟩
  | .local _ .vmem, ⟨2, _⟩ => ⟨S8x64x1024, .f32⟩
  | .local _ .vmem, ⟨3, _⟩ => ⟨S8x64x1024, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c : Ref sig .tc := ⟨.hbm, 74, rfl⟩
abbrev main_v59 : Ref sig .tc := ⟨.hbm, 75, rfl⟩
abbrev main_v60 : Ref sig .tc := ⟨.hbm, 76, rfl⟩
abbrev main_c_12 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_c_14 : Ref sig .tc := ⟨.hbm, 83, rfl⟩
abbrev main_v65 : Ref sig .tc := ⟨.hbm, 84, rfl⟩
abbrev main_v66 : Ref sig .tc := ⟨.hbm, 85, rfl⟩
abbrev main_c_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_16 : Ref sig .tc := ⟨.hbm, 90, rfl⟩
abbrev main_v70 : Ref sig .tc := ⟨.hbm, 91, rfl⟩
abbrev main_v71 : Ref sig .tc := ⟨.hbm, 92, rfl⟩
abbrev main_c_17 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_18 : Ref sig .tc := ⟨.hbm, 97, rfl⟩
abbrev main_v75 : Ref sig .tc := ⟨.hbm, 98, rfl⟩
abbrev main_v76 : Ref sig .tc := ⟨.hbm, 99, rfl⟩
abbrev main_c_19 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_20 : Ref sig .tc := ⟨.hbm, 112, rfl⟩
abbrev main_v88 : Ref sig .tc := ⟨.hbm, 113, rfl⟩
abbrev main_v89 : Ref sig .tc := ⟨.hbm, 114, rfl⟩
abbrev main_c_21 : Ref sig .tc := ⟨.hbm, 115, rfl⟩
abbrev main_v90 : Ref sig .tc := ⟨.hbm, 116, rfl⟩
abbrev main_v91 : Ref sig .tc := ⟨.hbm, 117, rfl⟩
abbrev main_c_22 : Ref sig .tc := ⟨.hbm, 118, rfl⟩
abbrev main_v92 : Ref sig .tc := ⟨.hbm, 119, rfl⟩
abbrev main_v93 : Ref sig .tc := ⟨.hbm, 120, rfl⟩
abbrev main_c_23 : Ref sig .tc := ⟨.hbm, 121, rfl⟩
abbrev main_v94 : Ref sig .tc := ⟨.hbm, 122, rfl⟩
abbrev main_v95 : Ref sig .tc := ⟨.hbm, 123, rfl⟩
abbrev main_c_24 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_25 : Ref sig .tc := ⟨.hbm, 128, rfl⟩
abbrev main_v99 : Ref sig .tc := ⟨.hbm, 129, rfl⟩
abbrev main_v100 : Ref sig .tc := ⟨.hbm, 130, rfl⟩
abbrev main_c_26 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_27 : Ref sig .tc := ⟨.hbm, 135, rfl⟩
abbrev main_v104 : Ref sig .tc := ⟨.hbm, 136, rfl⟩
abbrev main_v105 : Ref sig .tc := ⟨.hbm, 137, rfl⟩
abbrev main_c_28 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_29 : Ref sig .tc := ⟨.hbm, 150, rfl⟩
abbrev main_v117 : Ref sig .tc := ⟨.hbm, 151, rfl⟩
abbrev main_v118 : Ref sig .tc := ⟨.hbm, 152, rfl⟩
abbrev main_c_30 : Ref sig .tc := ⟨.hbm, 153, rfl⟩
abbrev main_v119 : Ref sig .tc := ⟨.hbm, 154, rfl⟩
abbrev main_v120 : Ref sig .tc := ⟨.hbm, 155, rfl⟩
abbrev main_c_31 : Ref sig .tc := ⟨.hbm, 156, rfl⟩
abbrev main_v121 : Ref sig .tc := ⟨.hbm, 157, rfl⟩
abbrev main_v122 : Ref sig .tc := ⟨.hbm, 158, rfl⟩
abbrev main_c_32 : Ref sig .tc := ⟨.hbm, 159, rfl⟩
abbrev main_v123 : Ref sig .tc := ⟨.hbm, 160, rfl⟩
abbrev main_v124 : Ref sig .tc := ⟨.hbm, 161, rfl⟩
abbrev main_c_33 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_34 : Ref sig .tc := ⟨.hbm, 166, rfl⟩
abbrev main_v128 : Ref sig .tc := ⟨.hbm, 167, rfl⟩
abbrev main_v129 : Ref sig .tc := ⟨.hbm, 168, rfl⟩
abbrev main_c_35 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_36 : Ref sig .tc := ⟨.hbm, 173, rfl⟩
abbrev main_v133 : Ref sig .tc := ⟨.hbm, 174, rfl⟩
abbrev main_v134 : Ref sig .tc := ⟨.hbm, 175, rfl⟩
abbrev main_c_37 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_38 : Ref sig .tc := ⟨.hbm, 188, rfl⟩
abbrev main_v146 : Ref sig .tc := ⟨.hbm, 189, rfl⟩
abbrev main_v147 : Ref sig .tc := ⟨.hbm, 190, rfl⟩
abbrev main_c_39 : Ref sig .tc := ⟨.hbm, 191, rfl⟩
abbrev main_v148 : Ref sig .tc := ⟨.hbm, 192, rfl⟩
abbrev main_v149 : Ref sig .tc := ⟨.hbm, 193, rfl⟩
abbrev main_c_40 : Ref sig .tc := ⟨.hbm, 194, rfl⟩
abbrev main_v150 : Ref sig .tc := ⟨.hbm, 195, rfl⟩
abbrev main_v151 : Ref sig .tc := ⟨.hbm, 196, rfl⟩
abbrev main_c_41 : Ref sig .tc := ⟨.hbm, 197, rfl⟩
abbrev main_v152 : Ref sig .tc := ⟨.hbm, 198, rfl⟩
abbrev main_v153 : Ref sig .tc := ⟨.hbm, 199, rfl⟩
abbrev main_c_42 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_c_43 : Ref sig .tc := ⟨.hbm, 204, rfl⟩
abbrev main_v157 : Ref sig .tc := ⟨.hbm, 205, rfl⟩
abbrev main_v158 : Ref sig .tc := ⟨.hbm, 206, rfl⟩
abbrev main_c_44 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_45 : Ref sig .tc := ⟨.hbm, 211, rfl⟩
abbrev main_v162 : Ref sig .tc := ⟨.hbm, 212, rfl⟩
abbrev main_v163 : Ref sig .tc := ⟨.hbm, 213, rfl⟩
abbrev main_c_46 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_c_47 : Ref sig .tc := ⟨.hbm, 226, rfl⟩
abbrev main_v175 : Ref sig .tc := ⟨.hbm, 227, rfl⟩
abbrev main_v176 : Ref sig .tc := ⟨.hbm, 228, rfl⟩
abbrev main_c_48 : Ref sig .tc := ⟨.hbm, 229, rfl⟩
abbrev main_v177 : Ref sig .tc := ⟨.hbm, 230, rfl⟩
abbrev main_v178 : Ref sig .tc := ⟨.hbm, 231, rfl⟩
abbrev main_c_49 : Ref sig .tc := ⟨.hbm, 232, rfl⟩
abbrev main_v179 : Ref sig .tc := ⟨.hbm, 233, rfl⟩
abbrev main_v180 : Ref sig .tc := ⟨.hbm, 234, rfl⟩
abbrev main_c_50 : Ref sig .tc := ⟨.hbm, 235, rfl⟩
abbrev main_v181 : Ref sig .tc := ⟨.hbm, 236, rfl⟩
abbrev main_v182 : Ref sig .tc := ⟨.hbm, 237, rfl⟩
abbrev main_c_51 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_c_52 : Ref sig .tc := ⟨.hbm, 242, rfl⟩
abbrev main_v186 : Ref sig .tc := ⟨.hbm, 243, rfl⟩
abbrev main_v187 : Ref sig .tc := ⟨.hbm, 244, rfl⟩
abbrev main_c_53 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_c_54 : Ref sig .tc := ⟨.hbm, 249, rfl⟩
abbrev main_v191 : Ref sig .tc := ⟨.hbm, 250, rfl⟩
abbrev main_v192 : Ref sig .tc := ⟨.hbm, 251, rfl⟩
abbrev main_c_55 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_c_56 : Ref sig .tc := ⟨.hbm, 264, rfl⟩
abbrev main_v204 : Ref sig .tc := ⟨.hbm, 265, rfl⟩
abbrev main_v205 : Ref sig .tc := ⟨.hbm, 266, rfl⟩
abbrev main_c_57 : Ref sig .tc := ⟨.hbm, 267, rfl⟩
abbrev main_v206 : Ref sig .tc := ⟨.hbm, 268, rfl⟩
abbrev main_v207 : Ref sig .tc := ⟨.hbm, 269, rfl⟩
abbrev main_c_58 : Ref sig .tc := ⟨.hbm, 270, rfl⟩
abbrev main_v208 : Ref sig .tc := ⟨.hbm, 271, rfl⟩
abbrev main_v209 : Ref sig .tc := ⟨.hbm, 272, rfl⟩
abbrev main_c_59 : Ref sig .tc := ⟨.hbm, 273, rfl⟩
abbrev main_v210 : Ref sig .tc := ⟨.hbm, 274, rfl⟩
abbrev main_v211 : Ref sig .tc := ⟨.hbm, 275, rfl⟩
abbrev main_c_60 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_c_61 : Ref sig .tc := ⟨.hbm, 280, rfl⟩
abbrev main_v215 : Ref sig .tc := ⟨.hbm, 281, rfl⟩
abbrev main_v216 : Ref sig .tc := ⟨.hbm, 282, rfl⟩
abbrev main_c_62 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_c_63 : Ref sig .tc := ⟨.hbm, 287, rfl⟩
abbrev main_v220 : Ref sig .tc := ⟨.hbm, 288, rfl⟩
abbrev main_v221 : Ref sig .tc := ⟨.hbm, 289, rfl⟩
abbrev main_c_64 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_c_65 : Ref sig .tc := ⟨.hbm, 302, rfl⟩
abbrev main_v233 : Ref sig .tc := ⟨.hbm, 303, rfl⟩
abbrev main_v234 : Ref sig .tc := ⟨.hbm, 304, rfl⟩
abbrev main_c_66 : Ref sig .tc := ⟨.hbm, 305, rfl⟩
abbrev main_v235 : Ref sig .tc := ⟨.hbm, 306, rfl⟩
abbrev main_v236 : Ref sig .tc := ⟨.hbm, 307, rfl⟩
abbrev main_c_67 : Ref sig .tc := ⟨.hbm, 308, rfl⟩
abbrev main_v237 : Ref sig .tc := ⟨.hbm, 309, rfl⟩
abbrev main_v238 : Ref sig .tc := ⟨.hbm, 310, rfl⟩
abbrev main_c_68 : Ref sig .tc := ⟨.hbm, 311, rfl⟩
abbrev main_v239 : Ref sig .tc := ⟨.hbm, 312, rfl⟩
abbrev main_v240 : Ref sig .tc := ⟨.hbm, 313, rfl⟩
abbrev main_c_69 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_c_70 : Ref sig .tc := ⟨.hbm, 318, rfl⟩
abbrev main_v244 : Ref sig .tc := ⟨.hbm, 319, rfl⟩
abbrev main_v245 : Ref sig .tc := ⟨.hbm, 320, rfl⟩
abbrev main_c_71 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_c_72 : Ref sig .tc := ⟨.hbm, 325, rfl⟩
abbrev main_v249 : Ref sig .tc := ⟨.hbm, 326, rfl⟩
abbrev main_v250 : Ref sig .tc := ⟨.hbm, 327, rfl⟩
abbrev main_c_73 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_c_74 : Ref sig .tc := ⟨.hbm, 340, rfl⟩
abbrev main_v262 : Ref sig .tc := ⟨.hbm, 341, rfl⟩
abbrev main_v263 : Ref sig .tc := ⟨.hbm, 342, rfl⟩
abbrev main_c_75 : Ref sig .tc := ⟨.hbm, 343, rfl⟩
abbrev main_v264 : Ref sig .tc := ⟨.hbm, 344, rfl⟩
abbrev main_v265 : Ref sig .tc := ⟨.hbm, 345, rfl⟩
abbrev main_c_76 : Ref sig .tc := ⟨.hbm, 346, rfl⟩
abbrev main_v266 : Ref sig .tc := ⟨.hbm, 347, rfl⟩
abbrev main_v267 : Ref sig .tc := ⟨.hbm, 348, rfl⟩
abbrev main_c_77 : Ref sig .tc := ⟨.hbm, 349, rfl⟩
abbrev main_v268 : Ref sig .tc := ⟨.hbm, 350, rfl⟩
abbrev main_v269 : Ref sig .tc := ⟨.hbm, 351, rfl⟩
abbrev main_c_78 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_c_79 : Ref sig .tc := ⟨.hbm, 356, rfl⟩
abbrev main_v273 : Ref sig .tc := ⟨.hbm, 357, rfl⟩
abbrev main_v274 : Ref sig .tc := ⟨.hbm, 358, rfl⟩
abbrev main_c_80 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_c_81 : Ref sig .tc := ⟨.hbm, 363, rfl⟩
abbrev main_v278 : Ref sig .tc := ⟨.hbm, 364, rfl⟩
abbrev main_v279 : Ref sig .tc := ⟨.hbm, 365, rfl⟩
abbrev main_c_82 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  bcast_S8x1024x1024_S1x8x1024x1024_1_2_3 : S8x1024x1024.BroadcastsInDim S1x8x1024x1024 (![1, 2, 3] : Fin 3 → Fin S1x8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x3_d3 : Shape.Concatenates [S8x1024x1024x1, S8x1024x1024x1, S8x1024x1024x1] S8x1024x1024x3 3
  bcast_S1x8x1024x1024_S3x8x1024x1024_0_1_2_3 : S1x8x1024x1024.BroadcastsInDim S3x8x1024x1024 (![0, 1, 2, 3] : Fin 4 → Fin S3x8x1024x1024.rank)
  bcast_S3x8x1024x1024_S1x3x8x1024x1024_1_2_3_4 : S3x8x1024x1024.BroadcastsInDim S1x3x8x1024x1024 (![1, 2, 3, 4] : Fin 4 → Fin S1x3x8x1024x1024.rank)
  concatenates_S1x3x8x1024x1024_S1x3x8x1024x1024_S1x3x8x1024x1024_S1x3x8x1024x1024_S1x3x8x1024x1024_S1x3x8x1024x1024_S1x3x8x1024x1024_S1x3x8x1024x1024_S8x3x8x1024x1024_d0 : Shape.Concatenates [S1x3x8x1024x1024, S1x3x8x1024x1024, S1x3x8x1024x1024, S1x3x8x1024x1024, S1x3x8x1024x1024, S1x3x8x1024x1024, S1x3x8x1024x1024, S1x3x8x1024x1024] S8x3x8x1024x1024 0
  shapeCasts_S8x3x8x1024x1024_S8x24x1024x1024 : S8x3x8x1024x1024.ShapeCasts S8x24x1024x1024
  inb_S8x8x64x1024_S1x8x64x1024_0_0_0_0 : ∀ a, (![0, 0, 0, 0] : Fin 4 → Nat) a + S1x8x64x1024.size a ≤ S8x8x64x1024.size a
  h_S1x8x64x1024 : 0 < S1x8x64x1024.numel
  shapeCasts_S1x8x64x1024_S8x64x1024 : S1x8x64x1024.ShapeCasts S8x64x1024
  inb_S8x8x64x1024_S1x8x64x1024_1_0_0_0 : ∀ a, (![1, 0, 0, 0] : Fin 4 → Nat) a + S1x8x64x1024.size a ≤ S8x8x64x1024.size a
  inb_S8x8x64x1024_S1x8x64x1024_2_0_0_0 : ∀ a, (![2, 0, 0, 0] : Fin 4 → Nat) a + S1x8x64x1024.size a ≤ S8x8x64x1024.size a
  inb_S8x8x64x1024_S1x8x64x1024_3_0_0_0 : ∀ a, (![3, 0, 0, 0] : Fin 4 → Nat) a + S1x8x64x1024.size a ≤ S8x8x64x1024.size a
  inb_S8x8x64x1024_S1x8x64x1024_4_0_0_0 : ∀ a, (![4, 0, 0, 0] : Fin 4 → Nat) a + S1x8x64x1024.size a ≤ S8x8x64x1024.size a
  inb_S8x8x64x1024_S1x8x64x1024_5_0_0_0 : ∀ a, (![5, 0, 0, 0] : Fin 4 → Nat) a + S1x8x64x1024.size a ≤ S8x8x64x1024.size a
  inb_S8x8x64x1024_S1x8x64x1024_6_0_0_0 : ∀ a, (![6, 0, 0, 0] : Fin 4 → Nat) a + S1x8x64x1024.size a ≤ S8x8x64x1024.size a
  inb_S8x8x64x1024_S1x8x64x1024_7_0_0_0 : ∀ a, (![7, 0, 0, 0] : Fin 4 → Nat) a + S1x8x64x1024.size a ≤ S8x8x64x1024.size a
  inb_S8x64x1024_S8x64x1024_0_0_0 : ∀ a, (![0, 0, 0] : Fin 3 → Nat) a + S8x64x1024.size a ≤ S8x64x1024.size a
  h_S8x64x1024 : 0 < S8x64x1024.numel
  shapeCasts_S24x1024x1024_S3x8x1024x1024 : S24x1024x1024.ShapeCasts S3x8x1024x1024
  transposes_S3x8x1024x1024_S8x3x1024x1024_1_0_2_3 : S3x8x1024x1024.Transposes [1, 0, 2, 3] S8x3x1024x1024
  gather_S3x33x33x33_S8x1024x1024x3_S3x8x1024x1024_0_123_n_n_123_3_3111_wf : GatherDims.WF S3x33x33x33 S8x1024x1024x3 S3x8x1024x1024 [0] [1, 2, 3] [] [1, 2, 3] [] 3 ![3, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x64x1024.size a ≤ S8x24x1024x1024.size a
  hwx0_0 : ∀ i : grid0.Coords, EltTy.bits .f32 = 32 ∨ (Rect.block (s := S8x24x1024x1024) S8x8x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x1024.size a ≤ S24x1024x1024.size a
  hwx0_1 : ∀ i : grid0.Coords, EltTy.bits .f32 = 32 ∨ (Rect.block (s := S24x1024x1024) S8x64x1024.size (cc0_transform_1 i) (hinb0_1 i)).WholeWords (EltTy.packing .f32)

variable [Facts₀]

def gather_S3x33x33x33_S8x1024x1024x3_S3x8x1024x1024_0_123_n_n_123_3_3111 : GatherDims S3x33x33x33 S8x1024x1024x3 S3x8x1024x1024 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S8x1024x1024x3_S3x8x1024x1024_0_123_n_n_123_3_3111_wf

abbrev win0_0 : Pipeline.Window sig grid0 :=
  Pipeline.Window.ofSpec (Memref.whole main_v299) S8x8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v300) S8x64x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S_ : Shape := ⟨0, ![]⟩
abbrev S8x1x1024x1024 : Shape := ⟨4, ![8, 1, 1024, 1024]⟩
abbrev S8x1024x1024 : Shape := ⟨3, ![8, 1024, 1024]⟩
abbrev S1x8x1024x1024 : Shape := ⟨4, ![1, 8, 1024, 1024]⟩
abbrev S8x1024x1024x1 : Shape := ⟨4, ![8, 1024, 1024, 1]⟩
abbrev S8x1024x1024x3 : Shape := ⟨4, ![8, 1024, 1024, 3]⟩
abbrev S3x8x1024x1024 : Shape := ⟨4, ![3, 8, 1024, 1024]⟩

abbrev nBuf : Space → Nat
  | .hbm => 385
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S_, .f32⟩
  | 3 => ⟨S8x3x1024x1024, .f32⟩
  | 4 => ⟨S8x3x1024x1024, .f32⟩
  | 5 => ⟨S8x3x1024x1024, .f32⟩
  | 6 => ⟨S8x3x1024x1024, .i32⟩
  | 7 => ⟨S8x3x1024x1024, .f32⟩
  | 8 => ⟨S8x3x1024x1024, .f32⟩
  | 9 => ⟨S8x1x1024x1024, .i32⟩
  | 10 => ⟨S8x1024x1024, .i32⟩
  | 11 => ⟨S8x1x1024x1024, .i32⟩
  | 12 => ⟨S8x1024x1024, .i32⟩
  | 13 => ⟨S8x1x1024x1024, .i32⟩
  | 14 => ⟨S8x1024x1024, .i32⟩
  | 15 => ⟨S8x1x1024x1024, .f32⟩
  | 16 => ⟨S8x1024x1024, .f32⟩
  | 17 => ⟨S8x1x1024x1024, .f32⟩
  | 18 => ⟨S8x1024x1024, .f32⟩
  | 19 => ⟨S8x1x1024x1024, .f32⟩
  | 20 => ⟨S8x1024x1024, .f32⟩
  | 21 => ⟨S_, .f32⟩
  | 22 => ⟨S8x1024x1024, .f32⟩
  | 23 => ⟨S8x1024x1024, .f32⟩
  | 24 => ⟨S_, .f32⟩
  | 25 => ⟨S8x1024x1024, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S8x1024x1024, .f32⟩
  | 32 => ⟨S1x8x1024x1024, .f32⟩
  | 33 => ⟨S_, .i32⟩
  | 34 => ⟨S8x1024x1024, .i32⟩
  | 35 => ⟨S8x1024x1024, .i32⟩
  | 36 => ⟨S_, .i32⟩
  | 37 => ⟨S8x1024x1024, .i32⟩
  | 38 => ⟨S8x1024x1024, .i32⟩
  | 39 => ⟨S_, .i32⟩
  | 40 => ⟨S8x1024x1024, .i32⟩
  | 41 => ⟨S8x1024x1024, .i32⟩
  | 42 => ⟨S_, .i32⟩
  | 43 => ⟨S8x1024x1024, .i32⟩
  | 44 => ⟨S8x1024x1024, .i1⟩
  | 45 => ⟨S_, .i32⟩
  | 46 => ⟨S8x1024x1024, .i32⟩
  | 47 => ⟨S8x1024x1024, .i32⟩
  | 48 => ⟨S8x1024x1024, .i32⟩
  | 49 => ⟨S_, .i32⟩
  | 50 => ⟨S8x1024x1024, .i32⟩
  | 51 => ⟨S8x1024x1024, .i1⟩
  | 52 => ⟨S_, .i32⟩
  | 53 => ⟨S8x1024x1024, .i32⟩
  | 54 => ⟨S8x1024x1024, .i32⟩
  | 55 => ⟨S8x1024x1024, .i32⟩
  | 56 => ⟨S_, .i32⟩
  | 57 => ⟨S8x1024x1024, .i32⟩
  | 58 => ⟨S8x1024x1024, .i1⟩
  | 59 => ⟨S_, .i32⟩
  | 60 => ⟨S8x1024x1024, .i32⟩
  | 61 => ⟨S8x1024x1024, .i32⟩
  | 62 => ⟨S8x1024x1024, .i32⟩
  | 63 => ⟨S8x1024x1024x1, .i32⟩
  | 64 => ⟨S8x1024x1024x1, .i32⟩
  | 65 => ⟨S8x1024x1024x1, .i32⟩
  | 66 => ⟨S8x1024x1024x3, .i32⟩
  | 67 => ⟨S3x8x1024x1024, .f32⟩
  | 68 => ⟨S3x8x1024x1024, .f32⟩
  | 69 => ⟨S3x8x1024x1024, .f32⟩
  | 70 => ⟨S_, .f32⟩
  | 71 => ⟨S8x1024x1024, .f32⟩
  | 72 => ⟨S8x1024x1024, .f32⟩
  | 73 => ⟨S8x1024x1024, .f32⟩
  | 74 => ⟨S_, .f32⟩
  | 75 => ⟨S8x1024x1024, .f32⟩
  | 76 => ⟨S8x1024x1024, .f32⟩
  | 77 => ⟨S8x1024x1024, .f32⟩
  | 78 => ⟨S1x8x1024x1024, .f32⟩
  | 79 => ⟨S_, .i32⟩
  | 80 => ⟨S8x1024x1024, .i32⟩
  | 81 => ⟨S8x1024x1024, .i32⟩
  | 82 => ⟨S_, .i32⟩
  | 83 => ⟨S8x1024x1024, .i32⟩
  | 84 => ⟨S8x1024x1024, .i32⟩
  | 85 => ⟨S_, .i32⟩
  | 86 => ⟨S8x1024x1024, .i32⟩
  | 87 => ⟨S8x1024x1024, .i32⟩
  | 88 => ⟨S_, .i32⟩
  | 89 => ⟨S8x1024x1024, .i32⟩
  | 90 => ⟨S8x1024x1024, .i1⟩
  | 91 => ⟨S_, .i32⟩
  | 92 => ⟨S8x1024x1024, .i32⟩
  | 93 => ⟨S8x1024x1024, .i32⟩
  | 94 => ⟨S8x1024x1024, .i32⟩
  | 95 => ⟨S_, .i32⟩
  | 96 => ⟨S8x1024x1024, .i32⟩
  | 97 => ⟨S8x1024x1024, .i1⟩
  | 98 => ⟨S_, .i32⟩
  | 99 => ⟨S8x1024x1024, .i32⟩
  | 100 => ⟨S8x1024x1024, .i32⟩
  | 101 => ⟨S8x1024x1024, .i32⟩
  | 102 => ⟨S_, .i32⟩
  | 103 => ⟨S8x1024x1024, .i32⟩
  | 104 => ⟨S8x1024x1024, .i1⟩
  | 105 => ⟨S_, .i32⟩
  | 106 => ⟨S8x1024x1024, .i32⟩
  | 107 => ⟨S8x1024x1024, .i32⟩
  | 108 => ⟨S8x1024x1024, .i32⟩
  | 109 => ⟨S8x1024x1024x1, .i32⟩
  | 110 => ⟨S8x1024x1024x1, .i32⟩
  | 111 => ⟨S8x1024x1024x1, .i32⟩
  | 112 => ⟨S8x1024x1024x3, .i32⟩
  | 113 => ⟨S3x8x1024x1024, .f32⟩
  | 114 => ⟨S3x8x1024x1024, .f32⟩
  | 115 => ⟨S3x8x1024x1024, .f32⟩
  | 116 => ⟨S3x8x1024x1024, .f32⟩
  | 117 => ⟨S_, .f32⟩
  | 118 => ⟨S8x1024x1024, .f32⟩
  | 119 => ⟨S8x1024x1024, .f32⟩
  | 120 => ⟨S8x1024x1024, .f32⟩
  | 121 => ⟨S_, .f32⟩
  | 122 => ⟨S8x1024x1024, .f32⟩
  | 123 => ⟨S8x1024x1024, .f32⟩
  | 124 => ⟨S8x1024x1024, .f32⟩
  | 125 => ⟨S1x8x1024x1024, .f32⟩
  | 126 => ⟨S_, .i32⟩
  | 127 => ⟨S8x1024x1024, .i32⟩
  | _ => ⟨S3x33x33x33, .f32⟩

abbrev hbmTy0_1 (i : Nat) : BufTy := match i % 128 with
  | 0 => ⟨S8x1024x1024, .i32⟩
  | 1 => ⟨S_, .i32⟩
  | 2 => ⟨S8x1024x1024, .i32⟩
  | 3 => ⟨S8x1024x1024, .i32⟩
  | 4 => ⟨S_, .i32⟩
  | 5 => ⟨S8x1024x1024, .i32⟩
  | 6 => ⟨S8x1024x1024, .i32⟩
  | 7 => ⟨S_, .i32⟩
  | 8 => ⟨S8x1024x1024, .i32⟩
  | 9 => ⟨S8x1024x1024, .i1⟩
  | 10 => ⟨S_, .i32⟩
  | 11 => ⟨S8x1024x1024, .i32⟩
  | 12 => ⟨S8x1024x1024, .i32⟩
  | 13 => ⟨S8x1024x1024, .i32⟩
  | 14 => ⟨S_, .i32⟩
  | 15 => ⟨S8x1024x1024, .i32⟩
  | 16 => ⟨S8x1024x1024, .i1⟩
  | 17 => ⟨S_, .i32⟩
  | 18 => ⟨S8x1024x1024, .i32⟩
  | 19 => ⟨S8x1024x1024, .i32⟩
  | 20 => ⟨S8x1024x1024, .i32⟩
  | 21 => ⟨S_, .i32⟩
  | 22 => ⟨S8x1024x1024, .i32⟩
  | 23 => ⟨S8x1024x1024, .i1⟩
  | 24 => ⟨S_, .i32⟩
  | 25 => ⟨S8x1024x1024, .i32⟩
  | 26 => ⟨S8x1024x1024, .i32⟩
  | 27 => ⟨S8x1024x1024, .i32⟩
  | 28 => ⟨S8x1024x1024x1, .i32⟩
  | 29 => ⟨S8x1024x1024x1, .i32⟩
  | 30 => ⟨S8x1024x1024x1, .i32⟩
  | 31 => ⟨S8x1024x1024x3, .i32⟩
  | 32 => ⟨S3x8x1024x1024, .f32⟩
  | 33 => ⟨S3x8x1024x1024, .f32⟩
  | 34 => ⟨S3x8x1024x1024, .f32⟩
  | 35 => ⟨S3x8x1024x1024, .f32⟩
  | 36 => ⟨S8x1024x1024, .f32⟩
  | 37 => ⟨S_, .f32⟩
  | 38 => ⟨S8x1024x1024, .f32⟩
  | 39 => ⟨S8x1024x1024, .f32⟩
  | 40 => ⟨S8x1024x1024, .f32⟩
  | 41 => ⟨S1x8x1024x1024, .f32⟩
  | 42 => ⟨S_, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i32⟩
  | 48 => ⟨S_, .i32⟩
  | 49 => ⟨S8x1024x1024, .i32⟩
  | 50 => ⟨S8x1024x1024, .i32⟩
  | 51 => ⟨S_, .i32⟩
  | 52 => ⟨S8x1024x1024, .i32⟩
  | 53 => ⟨S8x1024x1024, .i1⟩
  | 54 => ⟨S_, .i32⟩
  | 55 => ⟨S8x1024x1024, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i1⟩
  | 61 => ⟨S_, .i32⟩
  | 62 => ⟨S8x1024x1024, .i32⟩
  | 63 => ⟨S8x1024x1024, .i32⟩
  | 64 => ⟨S8x1024x1024, .i32⟩
  | 65 => ⟨S_, .i32⟩
  | 66 => ⟨S8x1024x1024, .i32⟩
  | 67 => ⟨S8x1024x1024, .i1⟩
  | 68 => ⟨S_, .i32⟩
  | 69 => ⟨S8x1024x1024, .i32⟩
  | 70 => ⟨S8x1024x1024, .i32⟩
  | 71 => ⟨S8x1024x1024, .i32⟩
  | 72 => ⟨S8x1024x1024x1, .i32⟩
  | 73 => ⟨S8x1024x1024x1, .i32⟩
  | 74 => ⟨S8x1024x1024x1, .i32⟩
  | 75 => ⟨S8x1024x1024x3, .i32⟩
  | 76 => ⟨S3x8x1024x1024, .f32⟩
  | 77 => ⟨S3x8x1024x1024, .f32⟩
  | 78 => ⟨S3x8x1024x1024, .f32⟩
  | 79 => ⟨S3x8x1024x1024, .f32⟩
  | 80 => ⟨S_, .f32⟩
  | 81 => ⟨S8x1024x1024, .f32⟩
  | 82 => ⟨S8x1024x1024, .f32⟩
  | 83 => ⟨S_, .f32⟩
  | 84 => ⟨S8x1024x1024, .f32⟩
  | 85 => ⟨S8x1024x1024, .f32⟩
  | 86 => ⟨S8x1024x1024, .f32⟩
  | 87 => ⟨S8x1024x1024, .f32⟩
  | 88 => ⟨S1x8x1024x1024, .f32⟩
  | 89 => ⟨S_, .i32⟩
  | 90 => ⟨S8x1024x1024, .i32⟩
  | 91 => ⟨S8x1024x1024, .i32⟩
  | 92 => ⟨S_, .i32⟩
  | 93 => ⟨S8x1024x1024, .i32⟩
  | 94 => ⟨S8x1024x1024, .i32⟩
  | 95 => ⟨S_, .i32⟩
  | 96 => ⟨S8x1024x1024, .i32⟩
  | 97 => ⟨S8x1024x1024, .i32⟩
  | 98 => ⟨S_, .i32⟩
  | 99 => ⟨S8x1024x1024, .i32⟩
  | 100 => ⟨S8x1024x1024, .i1⟩
  | 101 => ⟨S_, .i32⟩
  | 102 => ⟨S8x1024x1024, .i32⟩
  | 103 => ⟨S8x1024x1024, .i32⟩
  | 104 => ⟨S8x1024x1024, .i32⟩
  | 105 => ⟨S_, .i32⟩
  | 106 => ⟨S8x1024x1024, .i32⟩
  | 107 => ⟨S8x1024x1024, .i1⟩
  | 108 => ⟨S_, .i32⟩
  | 109 => ⟨S8x1024x1024, .i32⟩
  | 110 => ⟨S8x1024x1024, .i32⟩
  | 111 => ⟨S8x1024x1024, .i32⟩
  | 112 => ⟨S_, .i32⟩
  | 113 => ⟨S8x1024x1024, .i32⟩
  | 114 => ⟨S8x1024x1024, .i1⟩
  | 115 => ⟨S_, .i32⟩
  | 116 => ⟨S8x1024x1024, .i32⟩
  | 117 => ⟨S8x1024x1024, .i32⟩
  | 118 => ⟨S8x1024x1024, .i32⟩
  | 119 => ⟨S8x1024x1024x1, .i32⟩
  | 120 => ⟨S8x1024x1024x1, .i32⟩
  | 121 => ⟨S8x1024x1024x1, .i32⟩
  | 122 => ⟨S8x1024x1024x3, .i32⟩
  | 123 => ⟨S3x8x1024x1024, .f32⟩
  | 124 => ⟨S3x8x1024x1024, .f32⟩
  | 125 => ⟨S3x8x1024x1024, .f32⟩
  | 126 => ⟨S3x8x1024x1024, .f32⟩
  | 127 => ⟨S_, .f32⟩
  | _ => ⟨S3x33x33x33, .f32⟩

abbrev hbmTy0_2 (i : Nat) : BufTy := match i % 128 with
  | 0 => ⟨S8x1024x1024, .f32⟩
  | 1 => ⟨S8x1024x1024, .f32⟩
  | 2 => ⟨S8x1024x1024, .f32⟩
  | 3 => ⟨S8x1024x1024, .f32⟩
  | 4 => ⟨S1x8x1024x1024, .f32⟩
  | 5 => ⟨S_, .i32⟩
  | 6 => ⟨S8x1024x1024, .i32⟩
  | 7 => ⟨S8x1024x1024, .i32⟩
  | 8 => ⟨S_, .i32⟩
  | 9 => ⟨S8x1024x1024, .i32⟩
  | 10 => ⟨S8x1024x1024, .i32⟩
  | 11 => ⟨S_, .i32⟩
  | 12 => ⟨S8x1024x1024, .i32⟩
  | 13 => ⟨S8x1024x1024, .i32⟩
  | 14 => ⟨S_, .i32⟩
  | 15 => ⟨S8x1024x1024, .i32⟩
  | 16 => ⟨S8x1024x1024, .i1⟩
  | 17 => ⟨S_, .i32⟩
  | 18 => ⟨S8x1024x1024, .i32⟩
  | 19 => ⟨S8x1024x1024, .i32⟩
  | 20 => ⟨S8x1024x1024, .i32⟩
  | 21 => ⟨S_, .i32⟩
  | 22 => ⟨S8x1024x1024, .i32⟩
  | 23 => ⟨S8x1024x1024, .i1⟩
  | 24 => ⟨S_, .i32⟩
  | 25 => ⟨S8x1024x1024, .i32⟩
  | 26 => ⟨S8x1024x1024, .i32⟩
  | 27 => ⟨S8x1024x1024, .i32⟩
  | 28 => ⟨S_, .i32⟩
  | 29 => ⟨S8x1024x1024, .i32⟩
  | 30 => ⟨S8x1024x1024, .i1⟩
  | 31 => ⟨S_, .i32⟩
  | 32 => ⟨S8x1024x1024, .i32⟩
  | 33 => ⟨S8x1024x1024, .i32⟩
  | 34 => ⟨S8x1024x1024, .i32⟩
  | 35 => ⟨S8x1024x1024x1, .i32⟩
  | 36 => ⟨S8x1024x1024x1, .i32⟩
  | 37 => ⟨S8x1024x1024x1, .i32⟩
  | 38 => ⟨S8x1024x1024x3, .i32⟩
  | 39 => ⟨S3x8x1024x1024, .f32⟩
  | 40 => ⟨S3x8x1024x1024, .f32⟩
  | 41 => ⟨S3x8x1024x1024, .f32⟩
  | 42 => ⟨S3x8x1024x1024, .f32⟩
  | 43 => ⟨S_, .f32⟩
  | 44 => ⟨S8x1024x1024, .f32⟩
  | 45 => ⟨S8x1024x1024, .f32⟩
  | 46 => ⟨S8x1024x1024, .f32⟩
  | 47 => ⟨S8x1024x1024, .f32⟩
  | 48 => ⟨S1x8x1024x1024, .f32⟩
  | 49 => ⟨S_, .i32⟩
  | 50 => ⟨S8x1024x1024, .i32⟩
  | 51 => ⟨S8x1024x1024, .i32⟩
  | 52 => ⟨S_, .i32⟩
  | 53 => ⟨S8x1024x1024, .i32⟩
  | 54 => ⟨S8x1024x1024, .i32⟩
  | 55 => ⟨S_, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i1⟩
  | 61 => ⟨S_, .i32⟩
  | 62 => ⟨S8x1024x1024, .i32⟩
  | 63 => ⟨S8x1024x1024, .i32⟩
  | 64 => ⟨S8x1024x1024, .i32⟩
  | 65 => ⟨S_, .i32⟩
  | 66 => ⟨S8x1024x1024, .i32⟩
  | 67 => ⟨S8x1024x1024, .i1⟩
  | 68 => ⟨S_, .i32⟩
  | 69 => ⟨S8x1024x1024, .i32⟩
  | 70 => ⟨S8x1024x1024, .i32⟩
  | 71 => ⟨S8x1024x1024, .i32⟩
  | 72 => ⟨S_, .i32⟩
  | 73 => ⟨S8x1024x1024, .i32⟩
  | 74 => ⟨S8x1024x1024, .i1⟩
  | 75 => ⟨S_, .i32⟩
  | 76 => ⟨S8x1024x1024, .i32⟩
  | 77 => ⟨S8x1024x1024, .i32⟩
  | 78 => ⟨S8x1024x1024, .i32⟩
  | 79 => ⟨S8x1024x1024x1, .i32⟩
  | 80 => ⟨S8x1024x1024x1, .i32⟩
  | 81 => ⟨S8x1024x1024x1, .i32⟩
  | 82 => ⟨S8x1024x1024x3, .i32⟩
  | 83 => ⟨S3x8x1024x1024, .f32⟩
  | 84 => ⟨S3x8x1024x1024, .f32⟩
  | 85 => ⟨S3x8x1024x1024, .f32⟩
  | 86 => ⟨S3x8x1024x1024, .f32⟩
  | 87 => ⟨S8x1024x1024, .f32⟩
  | 88 => ⟨S8x1024x1024, .f32⟩
  | 89 => ⟨S1x8x1024x1024, .f32⟩
  | 90 => ⟨S_, .i32⟩
  | 91 => ⟨S8x1024x1024, .i32⟩
  | 92 => ⟨S8x1024x1024, .i32⟩
  | 93 => ⟨S_, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i32⟩
  | 99 => ⟨S_, .i32⟩
  | 100 => ⟨S8x1024x1024, .i32⟩
  | 101 => ⟨S8x1024x1024, .i1⟩
  | 102 => ⟨S_, .i32⟩
  | 103 => ⟨S8x1024x1024, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i1⟩
  | 109 => ⟨S_, .i32⟩
  | 110 => ⟨S8x1024x1024, .i32⟩
  | 111 => ⟨S8x1024x1024, .i32⟩
  | 112 => ⟨S8x1024x1024, .i32⟩
  | 113 => ⟨S_, .i32⟩
  | 114 => ⟨S8x1024x1024, .i32⟩
  | 115 => ⟨S8x1024x1024, .i1⟩
  | 116 => ⟨S_, .i32⟩
  | 117 => ⟨S8x1024x1024, .i32⟩
  | 118 => ⟨S8x1024x1024, .i32⟩
  | 119 => ⟨S8x1024x1024, .i32⟩
  | 120 => ⟨S8x1024x1024x1, .i32⟩
  | 121 => ⟨S8x1024x1024x1, .i32⟩
  | 122 => ⟨S8x1024x1024x1, .i32⟩
  | 123 => ⟨S8x1024x1024x3, .i32⟩
  | 124 => ⟨S3x8x1024x1024, .f32⟩
  | 125 => ⟨S3x8x1024x1024, .f32⟩
  | 126 => ⟨S3x8x1024x1024, .f32⟩
  | 127 => ⟨S3x8x1024x1024, .f32⟩
  | _ => ⟨S3x33x33x33, .f32⟩

abbrev hbmTy0_3 (i : Nat) : BufTy := match i % 128 with
  | 0 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_7 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_9 : Ref sig .tc := ⟨.hbm, 56, rfl⟩
abbrev main_v43 : Ref sig .tc := ⟨.hbm, 57, rfl⟩
abbrev main_v44 : Ref sig .tc := ⟨.hbm, 58, rfl⟩
abbrev main_c_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_13 : Ref sig .tc := ⟨.hbm, 79, rfl⟩
abbrev main_v62 : Ref sig .tc := ⟨.hbm, 80, rfl⟩
abbrev main_v63 : Ref sig .tc := ⟨.hbm, 81, rfl⟩
abbrev main_c_14 : Ref sig .tc := ⟨.hbm, 82, rfl⟩
abbrev main_v64 : Ref sig .tc := ⟨.hbm, 83, rfl⟩
abbrev main_v65 : Ref sig .tc := ⟨.hbm, 84, rfl⟩
abbrev main_c_15 : Ref sig .tc := ⟨.hbm, 85, rfl⟩
abbrev main_v66 : Ref sig .tc := ⟨.hbm, 86, rfl⟩
abbrev main_v67 : Ref sig .tc := ⟨.hbm, 87, rfl⟩
abbrev main_c_16 : Ref sig .tc := ⟨.hbm, 88, rfl⟩
abbrev main_v68 : Ref sig .tc := ⟨.hbm, 89, rfl⟩
abbrev main_v69 : Ref sig .tc := ⟨.hbm, 90, rfl⟩
abbrev main_c_17 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_18 : Ref sig .tc := ⟨.hbm, 95, rfl⟩
abbrev main_v73 : Ref sig .tc := ⟨.hbm, 96, rfl⟩
abbrev main_v74 : Ref sig .tc := ⟨.hbm, 97, rfl⟩
abbrev main_c_19 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_20 : Ref sig .tc := ⟨.hbm, 102, rfl⟩
abbrev main_v78 : Ref sig .tc := ⟨.hbm, 103, rfl⟩
abbrev main_v79 : Ref sig .tc := ⟨.hbm, 104, rfl⟩
abbrev main_c_21 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_22 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_23 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_24 : Ref sig .tc := ⟨.hbm, 126, rfl⟩
abbrev main_v98 : Ref sig .tc := ⟨.hbm, 127, rfl⟩
abbrev main_v99 : Ref sig .tc := ⟨.hbm, 128, rfl⟩
abbrev main_c_25 : Ref sig .tc := ⟨.hbm, 129, rfl⟩
abbrev main_v100 : Ref sig .tc := ⟨.hbm, 130, rfl⟩
abbrev main_v101 : Ref sig .tc := ⟨.hbm, 131, rfl⟩
abbrev main_c_26 : Ref sig .tc := ⟨.hbm, 132, rfl⟩
abbrev main_v102 : Ref sig .tc := ⟨.hbm, 133, rfl⟩
abbrev main_v103 : Ref sig .tc := ⟨.hbm, 134, rfl⟩
abbrev main_c_27 : Ref sig .tc := ⟨.hbm, 135, rfl⟩
abbrev main_v104 : Ref sig .tc := ⟨.hbm, 136, rfl⟩
abbrev main_v105 : Ref sig .tc := ⟨.hbm, 137, rfl⟩
abbrev main_c_28 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_29 : Ref sig .tc := ⟨.hbm, 142, rfl⟩
abbrev main_v109 : Ref sig .tc := ⟨.hbm, 143, rfl⟩
abbrev main_v110 : Ref sig .tc := ⟨.hbm, 144, rfl⟩
abbrev main_c_30 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_31 : Ref sig .tc := ⟨.hbm, 149, rfl⟩
abbrev main_v114 : Ref sig .tc := ⟨.hbm, 150, rfl⟩
abbrev main_v115 : Ref sig .tc := ⟨.hbm, 151, rfl⟩
abbrev main_c_32 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_33 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_34 : Ref sig .tc := ⟨.hbm, 170, rfl⟩
abbrev main_v132 : Ref sig .tc := ⟨.hbm, 171, rfl⟩
abbrev main_v133 : Ref sig .tc := ⟨.hbm, 172, rfl⟩
abbrev main_c_35 : Ref sig .tc := ⟨.hbm, 173, rfl⟩
abbrev main_v134 : Ref sig .tc := ⟨.hbm, 174, rfl⟩
abbrev main_v135 : Ref sig .tc := ⟨.hbm, 175, rfl⟩
abbrev main_c_36 : Ref sig .tc := ⟨.hbm, 176, rfl⟩
abbrev main_v136 : Ref sig .tc := ⟨.hbm, 177, rfl⟩
abbrev main_v137 : Ref sig .tc := ⟨.hbm, 178, rfl⟩
abbrev main_c_37 : Ref sig .tc := ⟨.hbm, 179, rfl⟩
abbrev main_v138 : Ref sig .tc := ⟨.hbm, 180, rfl⟩
abbrev main_v139 : Ref sig .tc := ⟨.hbm, 181, rfl⟩
abbrev main_c_38 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_39 : Ref sig .tc := ⟨.hbm, 186, rfl⟩
abbrev main_v143 : Ref sig .tc := ⟨.hbm, 187, rfl⟩
abbrev main_v144 : Ref sig .tc := ⟨.hbm, 188, rfl⟩
abbrev main_c_40 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_c_41 : Ref sig .tc := ⟨.hbm, 193, rfl⟩
abbrev main_v148 : Ref sig .tc := ⟨.hbm, 194, rfl⟩
abbrev main_v149 : Ref sig .tc := ⟨.hbm, 195, rfl⟩
abbrev main_c_42 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_43 : Ref sig .tc := ⟨.hbm, 208, rfl⟩
abbrev main_v161 : Ref sig .tc := ⟨.hbm, 209, rfl⟩
abbrev main_v162 : Ref sig .tc := ⟨.hbm, 210, rfl⟩
abbrev main_cst_44 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_c_45 : Ref sig .tc := ⟨.hbm, 217, rfl⟩
abbrev main_v168 : Ref sig .tc := ⟨.hbm, 218, rfl⟩
abbrev main_v169 : Ref sig .tc := ⟨.hbm, 219, rfl⟩
abbrev main_c_46 : Ref sig .tc := ⟨.hbm, 220, rfl⟩
abbrev main_v170 : Ref sig .tc := ⟨.hbm, 221, rfl⟩
abbrev main_v171 : Ref sig .tc := ⟨.hbm, 222, rfl⟩
abbrev main_c_47 : Ref sig .tc := ⟨.hbm, 223, rfl⟩
abbrev main_v172 : Ref sig .tc := ⟨.hbm, 224, rfl⟩
abbrev main_v173 : Ref sig .tc := ⟨.hbm, 225, rfl⟩
abbrev main_c_48 : Ref sig .tc := ⟨.hbm, 226, rfl⟩
abbrev main_v174 : Ref sig .tc := ⟨.hbm, 227, rfl⟩
abbrev main_v175 : Ref sig .tc := ⟨.hbm, 228, rfl⟩
abbrev main_c_49 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_c_50 : Ref sig .tc := ⟨.hbm, 233, rfl⟩
abbrev main_v179 : Ref sig .tc := ⟨.hbm, 234, rfl⟩
abbrev main_v180 : Ref sig .tc := ⟨.hbm, 235, rfl⟩
abbrev main_c_51 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_c_52 : Ref sig .tc := ⟨.hbm, 240, rfl⟩
abbrev main_v184 : Ref sig .tc := ⟨.hbm, 241, rfl⟩
abbrev main_v185 : Ref sig .tc := ⟨.hbm, 242, rfl⟩
abbrev main_c_53 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_54 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_c_55 : Ref sig .tc := ⟨.hbm, 261, rfl⟩
abbrev main_v202 : Ref sig .tc := ⟨.hbm, 262, rfl⟩
abbrev main_v203 : Ref sig .tc := ⟨.hbm, 263, rfl⟩
abbrev main_c_56 : Ref sig .tc := ⟨.hbm, 264, rfl⟩
abbrev main_v204 : Ref sig .tc := ⟨.hbm, 265, rfl⟩
abbrev main_v205 : Ref sig .tc := ⟨.hbm, 266, rfl⟩
abbrev main_c_57 : Ref sig .tc := ⟨.hbm, 267, rfl⟩
abbrev main_v206 : Ref sig .tc := ⟨.hbm, 268, rfl⟩
abbrev main_v207 : Ref sig .tc := ⟨.hbm, 269, rfl⟩
abbrev main_c_58 : Ref sig .tc := ⟨.hbm, 270, rfl⟩
abbrev main_v208 : Ref sig .tc := ⟨.hbm, 271, rfl⟩
abbrev main_v209 : Ref sig .tc := ⟨.hbm, 272, rfl⟩
abbrev main_c_59 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_c_60 : Ref sig .tc := ⟨.hbm, 277, rfl⟩
abbrev main_v213 : Ref sig .tc := ⟨.hbm, 278, rfl⟩
abbrev main_v214 : Ref sig .tc := ⟨.hbm, 279, rfl⟩
abbrev main_c_61 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_c_62 : Ref sig .tc := ⟨.hbm, 284, rfl⟩
abbrev main_v218 : Ref sig .tc := ⟨.hbm, 285, rfl⟩
abbrev main_v219 : Ref sig .tc := ⟨.hbm, 286, rfl⟩
abbrev main_c_63 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_cst_64 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_c_65 : Ref sig .tc := ⟨.hbm, 305, rfl⟩
abbrev main_v236 : Ref sig .tc := ⟨.hbm, 306, rfl⟩
abbrev main_v237 : Ref sig .tc := ⟨.hbm, 307, rfl⟩
abbrev main_c_66 : Ref sig .tc := ⟨.hbm, 308, rfl⟩
abbrev main_v238 : Ref sig .tc := ⟨.hbm, 309, rfl⟩
abbrev main_v239 : Ref sig .tc := ⟨.hbm, 310, rfl⟩
abbrev main_c_67 : Ref sig .tc := ⟨.hbm, 311, rfl⟩
abbrev main_v240 : Ref sig .tc := ⟨.hbm, 312, rfl⟩
abbrev main_v241 : Ref sig .tc := ⟨.hbm, 313, rfl⟩
abbrev main_c_68 : Ref sig .tc := ⟨.hbm, 314, rfl⟩
abbrev main_v242 : Ref sig .tc := ⟨.hbm, 315, rfl⟩
abbrev main_v243 : Ref sig .tc := ⟨.hbm, 316, rfl⟩
abbrev main_c_69 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_c_70 : Ref sig .tc := ⟨.hbm, 321, rfl⟩
abbrev main_v247 : Ref sig .tc := ⟨.hbm, 322, rfl⟩
abbrev main_v248 : Ref sig .tc := ⟨.hbm, 323, rfl⟩
abbrev main_c_71 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_c_72 : Ref sig .tc := ⟨.hbm, 328, rfl⟩
abbrev main_v252 : Ref sig .tc := ⟨.hbm, 329, rfl⟩
abbrev main_v253 : Ref sig .tc := ⟨.hbm, 330, rfl⟩
abbrev main_c_73 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_c_74 : Ref sig .tc := ⟨.hbm, 346, rfl⟩
abbrev main_v268 : Ref sig .tc := ⟨.hbm, 347, rfl⟩
abbrev main_v269 : Ref sig .tc := ⟨.hbm, 348, rfl⟩
abbrev main_c_75 : Ref sig .tc := ⟨.hbm, 349, rfl⟩
abbrev main_v270 : Ref sig .tc := ⟨.hbm, 350, rfl⟩
abbrev main_v271 : Ref sig .tc := ⟨.hbm, 351, rfl⟩
abbrev main_c_76 : Ref sig .tc := ⟨.hbm, 352, rfl⟩
abbrev main_v272 : Ref sig .tc := ⟨.hbm, 353, rfl⟩
abbrev main_v273 : Ref sig .tc := ⟨.hbm, 354, rfl⟩
abbrev main_c_77 : Ref sig .tc := ⟨.hbm, 355, rfl⟩
abbrev main_v274 : Ref sig .tc := ⟨.hbm, 356, rfl⟩
abbrev main_v275 : Ref sig .tc := ⟨.hbm, 357, rfl⟩
abbrev main_c_78 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_c_79 : Ref sig .tc := ⟨.hbm, 362, rfl⟩
abbrev main_v279 : Ref sig .tc := ⟨.hbm, 363, rfl⟩
abbrev main_v280 : Ref sig .tc := ⟨.hbm, 364, rfl⟩
abbrev main_c_80 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_c_81 : Ref sig .tc := ⟨.hbm, 369, rfl⟩
abbrev main_v284 : Ref sig .tc := ⟨.hbm, 370, rfl⟩
abbrev main_v285 : Ref sig .tc := ⟨.hbm, 371, rfl⟩
abbrev main_c_82 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  bcast_S8x1024x1024_S1x8x1024x1024_1_2_3 : S8x1024x1024.BroadcastsInDim S1x8x1024x1024 (![1, 2, 3] : Fin 3 → Fin S1x8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x3_d3 : Shape.Concatenates [S8x1024x1024x1, S8x1024x1024x1, S8x1024x1024x1] S8x1024x1024x3 3
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x33x33x33_S8x1024x1024x3_S3x8x1024x1024_0_123_n_n_123_3_3111_wf : GatherDims.WF S3x33x33x33 S8x1024x1024x3 S3x8x1024x1024 [0] [1, 2, 3] [] [1, 2, 3] [] 3 ![3, 1, 1, 1]

variable [Facts₀]

def gather_S3x33x33x33_S8x1024x1024x3_S3x8x1024x1024_0_123_n_n_123_3_3111 : GatherDims S3x33x33x33 S8x1024x1024x3 S3x8x1024x1024 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S8x1024x1024x3_S3x8x1024x1024_0_123_n_n_123_3_3111_wf

class Facts : Prop extends Facts₀ where

variable [Facts]
-- ==== Proof.KernelAround.lean ====
/-
  The run of the kernel program around its one launch region, and what the region leaves.

  The program is a straight line of host operations, then one launch over a grid of 3 × 16 points, then two more host
  operations (a reshape and a transpose).  At a grid point the body reads its input block — eight slabs of shape
  [8, 64, 1024], one per corner of the interpolation cell — and writes the left-to-right sum of the eight slabs into
  its output block.  Here: the contents of the buffers when the region is entered (the host operations folded over
  the launch contents), the input block at a point, what the body leaves in the output block (the sum of the slabs),
  the body's triple, and from these the run of the whole program: it terminates, nothing faults, every array the
  region stages ends at what the blocks written back make of it, and every other buffer at what the two trailing
  host operations make of it.  In particular the two argument arrays, which no operation writes, end as launched.
-/
import proofs.«167662_j20830591385730_2_alg».proof.Proof.Gen.Kernel.Launch
import proofs.«167662_j20830591385730_2_alg».proof.Proof.Gen.Kernel.Skeleton
import proofs.«167662_j20830591385730_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffer contents on core `c` when the region is entered: the host operations before it, folded over the
    launch contents. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two trailing operations touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither of the two arrays the region stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point: the window is fetched at every point and
    the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- Slab `k` of the input block: the rectangle [k, 0, 0, 0] + [1, 8, 64, 1024]. -/
abbrev slab0 : Rect S8x8x64x1024 := Rect.unit (s := S8x8x64x1024) ![0, 0, 0, 0] S1x8x64x1024.size inb_S8x8x64x1024_S1x8x64x1024_0_0_0_0
abbrev slab1 : Rect S8x8x64x1024 := Rect.unit (s := S8x8x64x1024) ![1, 0, 0, 0] S1x8x64x1024.size inb_S8x8x64x1024_S1x8x64x1024_1_0_0_0
abbrev slab2 : Rect S8x8x64x1024 := Rect.unit (s := S8x8x64x1024) ![2, 0, 0, 0] S1x8x64x1024.size inb_S8x8x64x1024_S1x8x64x1024_2_0_0_0
abbrev slab3 : Rect S8x8x64x1024 := Rect.unit (s := S8x8x64x1024) ![3, 0, 0, 0] S1x8x64x1024.size inb_S8x8x64x1024_S1x8x64x1024_3_0_0_0
abbrev slab4 : Rect S8x8x64x1024 := Rect.unit (s := S8x8x64x1024) ![4, 0, 0, 0] S1x8x64x1024.size inb_S8x8x64x1024_S1x8x64x1024_4_0_0_0
abbrev slab5 : Rect S8x8x64x1024 := Rect.unit (s := S8x8x64x1024) ![5, 0, 0, 0] S1x8x64x1024.size inb_S8x8x64x1024_S1x8x64x1024_5_0_0_0
abbrev slab6 : Rect S8x8x64x1024 := Rect.unit (s := S8x8x64x1024) ![6, 0, 0, 0] S1x8x64x1024.size inb_S8x8x64x1024_S1x8x64x1024_6_0_0_0
abbrev slab7 : Rect S8x8x64x1024 := Rect.unit (s := S8x8x64x1024) ![7, 0, 0, 0] S1x8x64x1024.size inb_S8x8x64x1024_S1x8x64x1024_7_0_0_0
/-- The whole output block. -/
abbrev whole1 : Rect S8x64x1024 := Rect.unit (s := S8x64x1024) ![0, 0, 0] S8x64x1024.size inb_S8x64x1024_S8x64x1024_0_0_0

/-! ## What the body leaves in the output block -/

/-- The output block after the body, from the input block: one store of the whole block, the sum of the eight slabs. -/
def sumOut (x0 : Vec F S8x8x64x1024 .f32) : Vec F S8x64x1024 .f32 :=
  View.canon [⟨whole1, k0_pay1 (View.ld x0 slab0) (View.ld x0 slab1) (View.ld x0 slab2) (View.ld x0 slab3)
    (View.ld x0 slab4) (View.ld x0 slab5) (View.ld x0 slab6) (View.ld x0 slab7)⟩]

/-- The one store covers the block. -/
theorem cover1 (p0 : Vec F S8x64x1024 .f32) (y : S8x64x1024.Idx) :
    ∃ pc ∈ ([⟨whole1, p0⟩] : List (View.Piece (Elt F) S8x64x1024 .f32)), y ∈ pc.1.set :=
  View.cover_of_tiled [⟨whole1, p0⟩] S8x64x1024.size (by rfl) y

/-! ## The body's triple -/

set_option maxHeartbeats 1000000 in
/-- The body, given the input block's buffer whole at contents `x0` and the output block's whole at any contents,
    returns the input's as it was and the output's at the sum of the slabs of `x0`.  (The body also loads the output
    buffer before storing into it; the loaded value is not used.) -/
theorem sound_kernel (c : Dev nD) (E : Set ℕ) (i : grid0.Coords) (arg2 : Memref sig .tc .vmem S8x8x64x1024 .f32) (harg2 : arg2.IsWhole) (arg3 : Memref sig .tc .vmem S8x64x1024 .f32) (harg3 : arg3.IsWhole)
    (x0 : Vec F S8x8x64x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (sumOut x0)) -∗ K ⟨⟩))
      ⊢ wp frame (wpE (defs₀ (F := F)) Variants.none c none) E (cc0__sum8_kernel i arg2 harg2 arg3 harg3) K := by
  simp only [cc0__sum8_kernel_eq_skeleton]; unfold cc0__sum8_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1 _)

/-! ## The proof data of the launch -/

/-- On core `c`: the arrays as the region finds them; after the body at point `t` the input's buffer at its block and
    the output's at the sum of that block's slabs; nothing else of the kernel's own to describe. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => sumOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = sumOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; the two staged arrays end at what the
    blocks written back make of them, every other unscoped buffer at what the two trailing operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Around

end
-- ==== Proof.KernelArgs.lean ====
/-
  The two argument arrays — the lookup table and the image batch — are written by no operation of the program: not
  by a host operation before the region, not by the region (it stages a later buffer and writes another), not by the
  two operations after it.  So each ends the run as it was launched, which is the program's frame.
-/
import proofs.«167662_j20830591385730_2_alg».proof.Proof.KernelAround

set_option maxRecDepth 16384

noncomputable section

namespace Cert.Kernel.Around

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

set_option maxHeartbeats 4000000 in
/-- No host operation before the region writes the lookup table: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Nor the image batch. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither operation after the region writes the lookup table, and the region stages other buffers: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the image batch. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The run's final state, read at the two argument arrays: each is as launched. -/
theorem args_kept (dats : (p : Fin 1) → (c : Dev nD) → Dat τ (Elt F) Unit ℕ (UR sig nD τ) ℕ (cfgs p) c)
    (r : _) (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c)⟩

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_kept m (dats m) r h c) (run_main m ρ)

end Cert.Kernel.Around

end
-- ==== Proof.KernelIdealAround.lean ====
/-
  The run of the kernel program around its one launch region, and what the region leaves.

  The program is a straight line of host operations, then one launch over a grid of 3 × 16 points, then two more host
  operations (a reshape and a transpose).  At a grid point the body reads its input block — eight slabs of shape
  [8, 64, 1024], one per corner of the interpolation cell — and writes the left-to-right sum of the eight slabs into
  its output block.  Here: the contents of the buffers when the region is entered (the host operations folded over
  the launch contents), the input block at a point, what the body leaves in the output block (the sum of the slabs),
  the body's triple, and from these the run of the whole program: it terminates, nothing faults, every array the
  region stages ends at what the blocks written back make of it, and every other buffer at what the two trailing
  host operations make of it.  In particular the two argument arrays, which no operation writes, end as launched.
-/
import proofs.«167662_j20830591385730_2_alg».proof.Proof.Gen.KernelIdeal.Launch
import proofs.«167662_j20830591385730_2_alg».proof.Proof.Gen.KernelIdeal.Skeleton
import proofs.«167662_j20830591385730_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffer contents on core `c` when the region is entered: the host operations before it, folded over the
    launch contents. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two trailing operations touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither of the two arrays the region stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point: the window is fetched at every point and
    the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- Slab `k` of the input block: the rectangle [k, 0, 0, 0] + [1, 8, 64, 1024]. -/
abbrev slab0 : Rect S8x8x64x1024 := Rect.unit (s := S8x8x64x1024) ![0, 0, 0, 0] S1x8x64x1024.size inb_S8x8x64x1024_S1x8x64x1024_0_0_0_0
abbrev slab1 : Rect S8x8x64x1024 := Rect.unit (s := S8x8x64x1024) ![1, 0, 0, 0] S1x8x64x1024.size inb_S8x8x64x1024_S1x8x64x1024_1_0_0_0
abbrev slab2 : Rect S8x8x64x1024 := Rect.unit (s := S8x8x64x1024) ![2, 0, 0, 0] S1x8x64x1024.size inb_S8x8x64x1024_S1x8x64x1024_2_0_0_0
abbrev slab3 : Rect S8x8x64x1024 := Rect.unit (s := S8x8x64x1024) ![3, 0, 0, 0] S1x8x64x1024.size inb_S8x8x64x1024_S1x8x64x1024_3_0_0_0
abbrev slab4 : Rect S8x8x64x1024 := Rect.unit (s := S8x8x64x1024) ![4, 0, 0, 0] S1x8x64x1024.size inb_S8x8x64x1024_S1x8x64x1024_4_0_0_0
abbrev slab5 : Rect S8x8x64x1024 := Rect.unit (s := S8x8x64x1024) ![5, 0, 0, 0] S1x8x64x1024.size inb_S8x8x64x1024_S1x8x64x1024_5_0_0_0
abbrev slab6 : Rect S8x8x64x1024 := Rect.unit (s := S8x8x64x1024) ![6, 0, 0, 0] S1x8x64x1024.size inb_S8x8x64x1024_S1x8x64x1024_6_0_0_0
abbrev slab7 : Rect S8x8x64x1024 := Rect.unit (s := S8x8x64x1024) ![7, 0, 0, 0] S1x8x64x1024.size inb_S8x8x64x1024_S1x8x64x1024_7_0_0_0
/-- The whole output block. -/
abbrev whole1 : Rect S8x64x1024 := Rect.unit (s := S8x64x1024) ![0, 0, 0] S8x64x1024.size inb_S8x64x1024_S8x64x1024_0_0_0

/-! ## What the body leaves in the output block -/

/-- The output block after the body, from the input block: one store of the whole block, the sum of the eight slabs. -/
def sumOut (x0 : Vec F S8x8x64x1024 .f32) : Vec F S8x64x1024 .f32 :=
  View.canon [⟨whole1, k0_pay1 (View.ld x0 slab0) (View.ld x0 slab1) (View.ld x0 slab2) (View.ld x0 slab3)
    (View.ld x0 slab4) (View.ld x0 slab5) (View.ld x0 slab6) (View.ld x0 slab7)⟩]

/-- The one store covers the block. -/
theorem cover1 (p0 : Vec F S8x64x1024 .f32) (y : S8x64x1024.Idx) :
    ∃ pc ∈ ([⟨whole1, p0⟩] : List (View.Piece (Elt F) S8x64x1024 .f32)), y ∈ pc.1.set :=
  View.cover_of_tiled [⟨whole1, p0⟩] S8x64x1024.size (by rfl) y

/-! ## The body's triple -/

set_option maxHeartbeats 1000000 in
/-- The body, given the input block's buffer whole at contents `x0` and the output block's whole at any contents,
    returns the input's as it was and the output's at the sum of the slabs of `x0`.  (The body also loads the output
    buffer before storing into it; the loaded value is not used.) -/
theorem sound_kernel (c : Dev nD) (E : Set ℕ) (i : grid0.Coords) (arg2 : Memref sig .tc .vmem S8x8x64x1024 .f32) (harg2 : arg2.IsWhole) (arg3 : Memref sig .tc .vmem S8x64x1024 .f32) (harg3 : arg3.IsWhole)
    (x0 : Vec F S8x8x64x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (sumOut x0)) -∗ K ⟨⟩))
      ⊢ wp frame (wpE (defs₀ (F := F)) Variants.none c none) E (cc0__sum8_kernel i arg2 harg2 arg3 harg3) K := by
  simp only [cc0__sum8_kernel_eq_skeleton]; unfold cc0__sum8_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1 _)

/-! ## The proof data of the launch -/

/-- On core `c`: the arrays as the region finds them; after the body at point `t` the input's buffer at its block and
    the output's at the sum of that block's slabs; nothing else of the kernel's own to describe. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => sumOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = sumOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; the two staged arrays end at what the
    blocks written back make of them, every other unscoped buffer at what the two trailing operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Around

end
-- ==== Proof.KernelIdealArgs.lean ====
/-
  The two argument arrays — the lookup table and the image batch — are written by no operation of the program: not
  by a host operation before the region, not by the region (it stages a later buffer and writes another), not by the
  two operations after it.  So each ends the run as it was launched, which is the program's frame.
-/
import proofs.«167662_j20830591385730_2_alg».proof.Proof.KernelIdealAround

set_option maxRecDepth 16384

noncomputable section

namespace Cert.KernelIdeal.Around

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

set_option maxHeartbeats 4000000 in
/-- No host operation before the region writes the lookup table: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Nor the image batch. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither operation after the region writes the lookup table, and the region stages other buffers: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the image batch. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The run's final state, read at the two argument arrays: each is as launched. -/
theorem args_kept (dats : (p : Fin 1) → (c : Dev nD) → Dat τ (Elt F) Unit ℕ (UR sig nD τ) ℕ (cfgs p) c)
    (r : _) (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c)⟩

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_kept m (dats m) r h c) (run_main m ρ)

end Cert.KernelIdeal.Around

end
-- ==== Proof.Stack8.lean ====
/-
  Eight arrays stacked, flattened, summed slab by slab, and unflattened: the sum of the eight.

  Eight arrays `P₀ … P₇` of shape [3, 8, 1024, 1024] are each given a leading axis of extent one, concatenated along
  it into [8, 3, 8, 1024, 1024], and the two middle axes are merged: [8, 24, 1024, 1024].  Entry (q, 8·c + b, w, h) of
  the result is entry (c, b, w, h) of `P_q`: merging axes keeps the row-major position, and the q-th slab of a
  concatenation of unit-thick pieces is the q-th piece.  So adding the eight slabs entry by entry, left to right, and
  splitting the merged axis again gives, at (c, b, w, h), the left-to-right sum of the eight arrays' entries there.
  Nothing is assumed of the addition: the two sides are the same expression in it.
-/
import Idealize.ShloMosaic.Lib.Pipeline.Value
import Idealize.ShloMosaic.Lib.ValueIdx

noncomputable section

namespace Cert.Stack8

open Idealize.ShloMosaic Idealize.ShloMosaic.ValueIdx

/-- One corner's array; the same with a leading unit axis; the stack of eight; the stack with its middle axes merged;
    one slab of that. -/
abbrev T4 : Shape := ⟨4, ![3, 8, 1024, 1024]⟩
abbrev U5 : Shape := ⟨5, ![1, 3, 8, 1024, 1024]⟩
abbrev T5 : Shape := ⟨5, ![8, 3, 8, 1024, 1024]⟩
abbrev M4 : Shape := ⟨4, ![8, 24, 1024, 1024]⟩
abbrev M3 : Shape := ⟨3, ![24, 1024, 1024]⟩

variable {α : Type}

/-- The merged coordinate 8·c + b of a channel c < 3 and a batch entry b < 8. -/
abbrev merged (c : Fin 3) (b : Fin 8) : Fin 24 := ⟨c.val * 8 + b.val, by have := c.isLt; have := b.isLt; omega⟩

/-- An array given a leading unit axis reads, at (0, c, b, w, h), the array at (c, b, w, h). -/
theorem lift_apply (hb : T4.BroadcastsInDim U5 ![1, 2, 3, 4]) (p : T4.Idx → α) (z : Fin 1) (c : Fin 3) (b : Fin 8) (w h : Fin 1024) :
    broadcastInDim U5 ![1, 2, 3, 4] hb p (ix5 z c b w h) = p (ix4 c b w h) :=
  broadcastInDim_apply _ hb p _ _ (fun a => by
    match a with
    | ⟨0, _⟩ => rfl
    | ⟨1, _⟩ => rfl
    | ⟨2, _⟩ => rfl
    | ⟨3, _⟩ => rfl)

/-- The k-th slab of a concatenation of eight unit-thick pieces along the leading axis is the k-th piece. -/
theorem cat_apply (Q0 Q1 Q2 Q3 Q4 Q5 Q6 Q7 : U5.Idx → α)
    (hc : Shape.Concatenates [U5, U5, U5, U5, U5, U5, U5, U5] T5 0)
    (q : Fin 8) (k : Nat) (hk : k < 8) (hqk : q.val = k) (x₁ : U5.Idx → α)
    (hxk : ([⟨U5, Q0⟩, ⟨U5, Q1⟩, ⟨U5, Q2⟩, ⟨U5, Q3⟩, ⟨U5, Q4⟩, ⟨U5, Q5⟩, ⟨U5, Q6⟩, ⟨U5, Q7⟩] : List ((s : Shape) × (s.Idx → α)))[k]'hk = ⟨U5, x₁⟩)
    (c : Fin 3) (b : Fin 8) (w h : Fin 1024) :
    concatenate T5 0 [⟨U5, Q0⟩, ⟨U5, Q1⟩, ⟨U5, Q2⟩, ⟨U5, Q3⟩, ⟨U5, Q4⟩, ⟨U5, Q5⟩, ⟨U5, Q6⟩, ⟨U5, Q7⟩] hc (ix5 q c b w h)
      = x₁ (ix5 (0 : Fin 1) c b w h) :=
  concatenate_apply_piece (0 : Fin T5.rank)
    [⟨U5, Q0⟩, ⟨U5, Q1⟩, ⟨U5, Q2⟩, ⟨U5, Q3⟩, ⟨U5, Q4⟩, ⟨U5, Q5⟩, ⟨U5, Q6⟩, ⟨U5, Q7⟩] hc _ k hk U5 x₁ hxk rfl k
    (by interval_cases k <;> rfl)
    (ix5 (0 : Fin 1) c b w h)
    (fun a ha => by
      match a with
      | ⟨0, _⟩ => exact absurd rfl ha
      | ⟨1, _⟩ => rfl
      | ⟨2, _⟩ => rfl
      | ⟨3, _⟩ => rfl
      | ⟨4, _⟩ => rfl)
    (by show k + 0 = q.val; omega)

/-- Merging the two middle axes keeps the row-major position: (q, 8·c + b, w, h) of the merged array is
    (q, c, b, w, h) of the stack. -/
theorem merge_apply (X : T5.Idx → α) (hs : T5.ShapeCasts M4) (q : Fin 8) (c : Fin 3) (b : Fin 8) (w h : Fin 1024) :
    shapeCast M4 X hs (ix4 q (merged c b) w h) = X (ix5 q c b w h) :=
  shapeCast_apply X hs _ _ (by
    rw [Shape.rowMajor_val_five, Shape.rowMajor_val_four]
    show ((((q.val * 3 + c.val) * 8 + b.val) * 1024 + w.val) * 1024 + h.val) = (((q.val * 24 + (c.val * 8 + b.val)) * 1024 + w.val) * 1024 + h.val)
    omega)

/-- The eight slabs of a [8, 24, 1024, 1024] array added entry by entry, left to right. -/
def slabSum (add : α → α → α) (Y : M4.Idx → α) : M3.Idx → α := fun j =>
  add (add (add (add (add (add (add (Y (ix4 (0 : Fin 8) (j 0) (j 1) (j 2))) (Y (ix4 (1 : Fin 8) (j 0) (j 1) (j 2))))
    (Y (ix4 (2 : Fin 8) (j 0) (j 1) (j 2)))) (Y (ix4 (3 : Fin 8) (j 0) (j 1) (j 2)))) (Y (ix4 (4 : Fin 8) (j 0) (j 1) (j 2))))
    (Y (ix4 (5 : Fin 8) (j 0) (j 1) (j 2)))) (Y (ix4 (6 : Fin 8) (j 0) (j 1) (j 2)))) (Y (ix4 (7 : Fin 8) (j 0) (j 1) (j 2)))

/-- Splitting the merged axis of the slab sum of the flattened stack gives, entry by entry, the left-to-right sum of the
    eight arrays. -/
theorem unmerge_slabSum_stack (add : α → α → α) (P0 P1 P2 P3 P4 P5 P6 P7 : T4.Idx → α)
    (hb : T4.BroadcastsInDim U5 ![1, 2, 3, 4])
    (hc : Shape.Concatenates [U5, U5, U5, U5, U5, U5, U5, U5] T5 0)
    (hs : T5.ShapeCasts M4) (hs' : M3.ShapeCasts T4) :
    shapeCast T4 (slabSum add (shapeCast M4 (concatenate T5 0
        [⟨U5, broadcastInDim U5 ![1, 2, 3, 4] hb P0⟩, ⟨U5, broadcastInDim U5 ![1, 2, 3, 4] hb P1⟩,
         ⟨U5, broadcastInDim U5 ![1, 2, 3, 4] hb P2⟩, ⟨U5, broadcastInDim U5 ![1, 2, 3, 4] hb P3⟩,
         ⟨U5, broadcastInDim U5 ![1, 2, 3, 4] hb P4⟩, ⟨U5, broadcastInDim U5 ![1, 2, 3, 4] hb P5⟩,
         ⟨U5, broadcastInDim U5 ![1, 2, 3, 4] hb P6⟩, ⟨U5, broadcastInDim U5 ![1, 2, 3, 4] hb P7⟩] hc) hs)) hs'
      = fun i => add (add (add (add (add (add (add (P0 i) (P1 i)) (P2 i)) (P3 i)) (P4 i)) (P5 i)) (P6 i)) (P7 i) := by
  funext i
  obtain ⟨c, b, w, h, rfl⟩ : ∃ (c : Fin 3) (b : Fin 8) (w h : Fin 1024), i = ix4 c b w h := ⟨i 0, i 1, i 2, i 3, eq_ix4 i⟩
  rw [shapeCast_apply _ hs' (ix4 c b w h) (ix3 (merged c b) w h) (by
    rw [Shape.rowMajor_val_three, Shape.rowMajor_val_four]
    show ((c.val * 8 + b.val) * 1024 + w.val) * 1024 + h.val = (((c.val * 8 + b.val) * 1024 + w.val) * 1024 + h.val)
    rfl)]
  show add (add (add (add (add (add (add (shapeCast M4 _ hs (ix4 (0 : Fin 8) (merged c b) w h)) (shapeCast M4 _ hs (ix4 (1 : Fin 8) (merged c b) w h)))
    (shapeCast M4 _ hs (ix4 (2 : Fin 8) (merged c b) w h))) (shapeCast M4 _ hs (ix4 (3 : Fin 8) (merged c b) w h))) (shapeCast M4 _ hs (ix4 (4 : Fin 8) (merged c b) w h)))
    (shapeCast M4 _ hs (ix4 (5 : Fin 8) (merged c b) w h))) (shapeCast M4 _ hs (ix4 (6 : Fin 8) (merged c b) w h))) (shapeCast M4 _ hs (ix4 (7 : Fin 8) (merged c b) w h)) = _
  simp only [merge_apply]
  rw [cat_apply _ _ _ _ _ _ _ _ hc (0 : Fin 8) 0 (by decide) rfl _ rfl c b w h, cat_apply _ _ _ _ _ _ _ _ hc (1 : Fin 8) 1 (by decide) rfl _ rfl c b w h,
    cat_apply _ _ _ _ _ _ _ _ hc (2 : Fin 8) 2 (by decide) rfl _ rfl c b w h, cat_apply _ _ _ _ _ _ _ _ hc (3 : Fin 8) 3 (by decide) rfl _ rfl c b w h,
    cat_apply _ _ _ _ _ _ _ _ hc (4 : Fin 8) 4 (by decide) rfl _ rfl c b w h, cat_apply _ _ _ _ _ _ _ _ hc (5 : Fin 8) 5 (by decide) rfl _ rfl c b w h,
    cat_apply _ _ _ _ _ _ _ _ hc (6 : Fin 8) 6 (by decide) rfl _ rfl c b w h, cat_apply _ _ _ _ _ _ _ _ hc (7 : Fin 8) 7 (by decide) rfl _ rfl c b w h]
  rw [lift_apply hb P0, lift_apply hb P1, lift_apply hb P2, lift_apply hb P3, lift_apply hb P4, lift_apply hb P5,
    lift_apply hb P6, lift_apply hb P7]

end Cert.Stack8

end
-- ==== Proof.KernelIdealValue.lean ====
/-
  What the region leaves in the array it writes: the slab sum of the array it reads.

  The region reads the stacked array `X : [8, 24, 1024, 1024]` in blocks [8, 8, 64, 1024] — at grid point (i, j) the
  block at block index (0, i, j, 0) — and writes an array `[24, 1024, 1024]` in blocks [8, 64, 1024], at (i, j) the
  block at block index (i, j, 0).  The body's result at an entry of the output block is the left-to-right sum of the
  eight slabs of the input block at that entry, and the input block's entry (q, y) is the array's entry
  (q, block origin + y), the origin the output block's.  So the block written back at a point is that block of the
  whole-array function "sum of the eight slabs of X"; the 3 × 16 blocks tile the array, every point writes its block
  back, hence after the run the array is that function of X everywhere.
-/
import proofs.«167662_j20830591385730_2_alg».proof.Proof.KernelIdealAround
import proofs.«167662_j20830591385730_2_alg».proof.Proof.Stack8
import Idealize.ShloMosaic.Lib.Pipeline.Value
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- The sum of the eight slabs of the stacked array, entry by entry. -/
abbrev summed (X : S8x24x1024x1024.Idx → Elt F .f32) : S24x1024x1024.Idx → Elt F .f32 :=
  Stack8.slabSum FloatOps.addf X

/-- Slab `q` of a block, its leading unit axis dropped, reads the block at (q, y). -/
theorem slab_at (x0 : Vec F S8x8x64x1024 .f32) (q : Nat) (hq : q < 8) (inb : ∀ a, (![q, 0, 0, 0] : Fin 4 → Nat) a + S1x8x64x1024.size a ≤ S8x8x64x1024.size a)
    (h : S1x8x64x1024.ShapeCasts S8x64x1024) (y : S8x64x1024.Idx) :
    shapeCast S8x64x1024 (View.ld x0 (Rect.unit (s := S8x8x64x1024) ![q, 0, 0, 0] S1x8x64x1024.size inb)) h y
      = x0 (ix4 (⟨q, hq⟩ : Fin 8) (y 0) (y 1) (y 2)) := by
  rw [shapeCast_dropUnit_apply]
  show x0 ((Rect.unit (s := S8x8x64x1024) ![q, 0, 0, 0] S1x8x64x1024.size inb).emb _) = _
  refine congrArg x0 (funext fun a => Fin.ext ?_)
  rw [Rect.emb_apply]
  match a with
  | ⟨0, _⟩ => show q + 1 * 0 = q; omega
  | ⟨1, _⟩ => show 0 + 1 * (y 0).val = (y 0).val; omega
  | ⟨2, _⟩ => show 0 + 1 * (y 1).val = (y 1).val; omega
  | ⟨3, _⟩ => show 0 + 1 * (y 2).val = (y 2).val; omega

/-- The body's result at an entry of the output block: the left-to-right sum of the input block's eight slabs there. -/
theorem pay_at (x0 : Vec F S8x8x64x1024 .f32) (y : S8x64x1024.Idx) :
    k0_pay1 (View.ld x0 slab0) (View.ld x0 slab1) (View.ld x0 slab2) (View.ld x0 slab3)
        (View.ld x0 slab4) (View.ld x0 slab5) (View.ld x0 slab6) (View.ld x0 slab7) y
      = FloatOps.addf (FloatOps.addf (FloatOps.addf (FloatOps.addf (FloatOps.addf (FloatOps.addf (FloatOps.addf
          (x0 (ix4 (0 : Fin 8) (y 0) (y 1) (y 2))) (x0 (ix4 (1 : Fin 8) (y 0) (y 1) (y 2))))
          (x0 (ix4 (2 : Fin 8) (y 0) (y 1) (y 2)))) (x0 (ix4 (3 : Fin 8) (y 0) (y 1) (y 2))))
          (x0 (ix4 (4 : Fin 8) (y 0) (y 1) (y 2)))) (x0 (ix4 (5 : Fin 8) (y 0) (y 1) (y 2))))
          (x0 (ix4 (6 : Fin 8) (y 0) (y 1) (y 2)))) (x0 (ix4 (7 : Fin 8) (y 0) (y 1) (y 2))) := by
  unfold k0_pay1
  show FloatOps.addf (FloatOps.addf (FloatOps.addf (FloatOps.addf (FloatOps.addf (FloatOps.addf (FloatOps.addf
      (shapeCast S8x64x1024 (View.ld x0 slab0) _ y) (shapeCast S8x64x1024 (View.ld x0 slab1) _ y))
      (shapeCast S8x64x1024 (View.ld x0 slab2) _ y)) (shapeCast S8x64x1024 (View.ld x0 slab3) _ y))
      (shapeCast S8x64x1024 (View.ld x0 slab4) _ y)) (shapeCast S8x64x1024 (View.ld x0 slab5) _ y))
      (shapeCast S8x64x1024 (View.ld x0 slab6) _ y)) (shapeCast S8x64x1024 (View.ld x0 slab7) _ y) = _
  rw [slab_at x0 0 (by decide), slab_at x0 1 (by decide), slab_at x0 2 (by decide), slab_at x0 3 (by decide),
    slab_at x0 4 (by decide), slab_at x0 5 (by decide), slab_at x0 6 (by decide), slab_at x0 7 (by decide)]
  rfl

/-- The two windows' block indices, decided over the grid: the input block sits at the output block's origin on the
    three trailing axes and at 0 on the stacking axis; the output's block indices stay in their ranges. -/
theorem idx_facts : ∀ t : Fin cfg0.N, win0_0.index t (0 : Fin 4) = 0
    ∧ win0_0.index t (1 : Fin 4) = win0_1.index t (0 : Fin 3)
    ∧ win0_0.index t (2 : Fin 4) = win0_1.index t (1 : Fin 3)
    ∧ win0_0.index t (3 : Fin 4) = 0
    ∧ win0_1.index t (2 : Fin 3) = 0
    ∧ win0_1.index t (0 : Fin 3) ≤ 2 ∧ win0_1.index t (1 : Fin 3) ≤ 15 :=
  (by decide +kernel : ∀ t : Fin grid0.N, _)

/-- Every block of the output array is some point's. -/
theorem idx_onto : ∀ (q0 : Fin 3) (q1 : Fin 16), ∃ t : Fin cfg0.N, win0_1.index t = ![q0.val, q1.val, 0] :=
  (by decide +kernel : ∀ (q0 : Fin 3) (q1 : Fin 16), ∃ t : Fin grid0.N, win0_1.index t = ![q0.val, q1.val, 0])

/-- Entry (q, y) of the input block at point `t` is the stacked array's entry (q, i), `i` the output block's entry `y` in
    the output array: the two blocks share their origin on the three trailing axes, and the input block starts at 0 on
    the stacking axis. -/
theorem blk0_emb (t : Fin cfg0.N) (q : Fin 8) (y : S8x64x1024.Idx) :
    ((cfg0.win 0).blk t).view.emb (ix4 q (y 0) (y 1) (y 2))
      = ix4 q ((((cfg0.win 1).blk t).view.emb y) 0) ((((cfg0.win 1).blk t).view.emb y) 1) ((((cfg0.win 1).blk t).view.emb y) 2) := by
  obtain ⟨e0, e1, e2, e3, e4, e5, e6⟩ := idx_facts t
  funext a; apply Fin.ext
  match a with
  | ⟨0, _⟩ => show win0_0.index t (0 : Fin 4) * 8 + 1 * q.val = q.val; omega
  | ⟨1, _⟩ => show win0_0.index t (1 : Fin 4) * 8 + 1 * (y 0).val = win0_1.index t (0 : Fin 3) * 8 + 1 * (y 0).val; omega
  | ⟨2, _⟩ => show win0_0.index t (2 : Fin 4) * 64 + 1 * (y 1).val = win0_1.index t (1 : Fin 3) * 64 + 1 * (y 1).val; omega
  | ⟨3, _⟩ => show win0_0.index t (3 : Fin 4) * 1024 + 1 * (y 2).val = win0_1.index t (2 : Fin 3) * 1024 + 1 * (y 2).val; omega

/-- For any stacked array `X`: the left-to-right sum of the eight slabs of point `t`'s input block of `X`, at an entry of
    the output block, is the slab sum of `X` at that entry's place in the output array. -/
theorem sum_blk (X : S8x24x1024x1024.Idx → Elt F .f32) (t : Fin cfg0.N) (y : S8x64x1024.Idx) :
    FloatOps.addf (FloatOps.addf (FloatOps.addf (FloatOps.addf (FloatOps.addf (FloatOps.addf (FloatOps.addf (View.read (Elt F) ((cfg0.win 0).blk t).view X (ix4 (0 : Fin 8) (y 0) (y 1) (y 2))) (View.read (Elt F) ((cfg0.win 0).blk t).view X (ix4 (1 : Fin 8) (y 0) (y 1) (y 2)))) (View.read (Elt F) ((cfg0.win 0).blk t).view X (ix4 (2 : Fin 8) (y 0) (y 1) (y 2)))) (View.read (Elt F) ((cfg0.win 0).blk t).view X (ix4 (3 : Fin 8) (y 0) (y 1) (y 2)))) (View.read (Elt F) ((cfg0.win 0).blk t).view X (ix4 (4 : Fin 8) (y 0) (y 1) (y 2)))) (View.read (Elt F) ((cfg0.win 0).blk t).view X (ix4 (5 : Fin 8) (y 0) (y 1) (y 2)))) (View.read (Elt F) ((cfg0.win 0).blk t).view X (ix4 (6 : Fin 8) (y 0) (y 1) (y 2)))) (View.read (Elt F) ((cfg0.win 0).blk t).view X (ix4 (7 : Fin 8) (y 0) (y 1) (y 2)))
      = View.read (Elt F) ((cfg0.win 1).blk t).view (summed X) y := by
  show FloatOps.addf (FloatOps.addf (FloatOps.addf (FloatOps.addf (FloatOps.addf (FloatOps.addf (FloatOps.addf (X (((cfg0.win 0).blk t).view.emb (ix4 (0 : Fin 8) (y 0) (y 1) (y 2)))) (X (((cfg0.win 0).blk t).view.emb (ix4 (1 : Fin 8) (y 0) (y 1) (y 2))))) (X (((cfg0.win 0).blk t).view.emb (ix4 (2 : Fin 8) (y 0) (y 1) (y 2))))) (X (((cfg0.win 0).blk t).view.emb (ix4 (3 : Fin 8) (y 0) (y 1) (y 2))))) (X (((cfg0.win 0).blk t).view.emb (ix4 (4 : Fin 8) (y 0) (y 1) (y 2))))) (X (((cfg0.win 0).blk t).view.emb (ix4 (5 : Fin 8) (y 0) (y 1) (y 2))))) (X (((cfg0.win 0).blk t).view.emb (ix4 (6 : Fin 8) (y 0) (y 1) (y 2))))) (X (((cfg0.win 0).blk t).view.emb (ix4 (7 : Fin 8) (y 0) (y 1) (y 2))))
      = Stack8.slabSum FloatOps.addf X (((cfg0.win 1).blk t).view.emb y)
  rw [blk0_emb t 0 y, blk0_emb t 1 y, blk0_emb t 2 y, blk0_emb t 3 y, blk0_emb t 4 y, blk0_emb t 5 y, blk0_emb t 6 y, blk0_emb t 7 y]
  rfl

/-- What point `t` writes back is block `t` of the slab sum of the stacked array as the region finds it. -/
theorem flushed1_eq (c : Dev nD) (t : Fin cfg0.N) :
    (dats m 0 c).flushed 1 t = ((cfg0.win 1).blk t).view.read (Elt F) (summed (V m c main_v299)) := by
  show (cfg0.win 1).cut (grid0.coords t) ((dats m 0 c).after 1 t) = _
  rw [after0_1]
  unfold sumOut
  rw [View.canon_unit_zero hz3]
  funext y
  refine (pay_at (iblk m c 0 t) y).trans ?_
  unfold iblk
  exact sum_blk (V m c (Pipeline.arrRef spec0 0)) t y

/-- An index of the output array is in point `t`'s block iff each coordinate is in the block's range on its axis. -/
theorem mem_blk1 (t : Fin cfg0.N) (i : S24x1024x1024.Idx) :
    i ∈ ((cfg0.win 1).blk t).view.set ↔ ∀ a : Fin 3, win0_1.index t a * S8x64x1024.size a ≤ (i a).val ∧ (i a).val < win0_1.index t a * S8x64x1024.size a + S8x64x1024.size a := by
  show i ∈ ((View.whole main_v300).slice (win0_1.rect t)).set ↔ _
  rw [View.set_slice_whole, Rect.mem_set_unit]
  exact Iff.rfl

/-- Every index of the output array is in some point's block: the point whose block indices are the index's first
    coordinate over 8 and second over 64. -/
theorem covered1 (i : S24x1024x1024.Idx) :
    ∃ t : Fin cfg0.N, (cfg0.win 1).flush t = true ∧ i ∈ ((cfg0.win 1).blk t).view.set := by
  have hi0 : (i 0).val < 24 := (i 0).isLt
  have hi1 : (i 1).val < 1024 := (i 1).isLt
  have hi2 : (i 2).val < 1024 := (i 2).isLt
  obtain ⟨t, ht⟩ := idx_onto ⟨(i 0).val / 8, by omega⟩ ⟨(i 1).val / 64, by omega⟩
  have q0 : win0_1.index t (0 : Fin 3) = (i 0).val / 8 := congrFun ht 0
  have q1 : win0_1.index t (1 : Fin 3) = (i 1).val / 64 := congrFun ht 1
  have q2 : win0_1.index t (2 : Fin 3) = 0 := congrFun ht 2
  refine ⟨t, flush0_1 t, ?_⟩
  rw [mem_blk1]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 64 ≤ (i 1).val ∧ (i 1).val < win0_1.index t (1 : Fin 3) * 64 + 64; omega
  | ⟨2, _⟩ => show win0_1.index t (2 : Fin 3) * 1024 ≤ (i 2).val ∧ (i 2).val < win0_1.index t (2 : Fin 3) * 1024 + 1024; omega

/-- After the run the output array is the slab sum of the stacked array, everywhere. -/
theorem final1 (c : Dev nD) : (dats m 0 c).arrAt 1 cfg0.N = summed (V m c main_v299) :=
  (dats m 0 c).arrAt_eq_of_cover 1 (summed (V m c main_v299)) (fun t _ => flushed1_eq m c t) covered1

end Cert.KernelIdeal.Around

end
-- ==== Proof.KernelIdealLut.lean ====
/-
  The trilinear lookup, as pure array functions of the lookup table `lut : [3, 33, 33, 33]` and the image batch
  `x : [8, 3, 1024, 1024]`.

  Every pixel's three channel values are divided by the bin size (the f32 literal 0x3D000347), the floor is the
  cell's corner index and the remainder the position inside the cell.  A corner's table entry is gathered at the
  cell index shifted by 0 or 1 on each colour axis (a negative index wraps by 33, as array indexing does), and is
  weighted by the product of the three one-dimensional weights — the fraction on an axis where the shift is 1, one
  minus it where the shift is 0.  The result is the sum of the eight weighted corners.
  Each function below is one stage of that computation; the host operations of the program compose to them.
-/
import proofs.«167662_j20830591385730_2_alg».proof.Proof.Gen.KernelIdeal

noncomputable section

namespace Cert.KernelIdeal.Lut

open Cert.KernelIdeal Cert.KernelIdeal.Gen Idealize.ShloMosaic

variable {F : FTy → Type} [FloatOps F]

/-- The image divided by the bin size. -/
def scaled (x : (⟨S8x3x1024x1024, .f32⟩ : BufTy).Contents (Elt F)) : (⟨S8x3x1024x1024, .f32⟩ : BufTy).Contents (Elt F) :=
  Host.divf x (broadcastInDim S8x3x1024x1024 ![] bcast_S_S8x3x1024x1024 (constant S_ .f32 0x3D000347#32))

/-- The cell index of every channel value: the floor, as an integer. -/
def cell (x : (⟨S8x3x1024x1024, .f32⟩ : BufTy).Contents (Elt F)) : (⟨S8x3x1024x1024, .i32⟩ : BufTy).Contents (Elt F) :=
  fptosi 32 (Host.floor (scaled x))

/-- The position inside the cell: the scaled value less its cell index. -/
def frac (x : (⟨S8x3x1024x1024, .f32⟩ : BufTy).Contents (Elt F)) : (⟨S8x3x1024x1024, .f32⟩ : BufTy).Contents (Elt F) :=
  subf (scaled x) (sitofp .f32 (cell x))

/-- The cell index on the red, green and blue axes: channels 0, 1, 2, each as an [8, 1024, 1024] array. -/
def cellR (x : (⟨S8x3x1024x1024, .f32⟩ : BufTy).Contents (Elt F)) : (⟨S8x1024x1024, .i32⟩ : BufTy).Contents (Elt F) :=
  shapeCast _ (extractStridedSlice S8x1x1024x1024 ![0, 0, 0, 0] (cell x) slices_S8x3x1024x1024_S8x1x1024x1024_0_0_0_0) shapeCasts_S8x1x1024x1024_S8x1024x1024
def cellG (x : (⟨S8x3x1024x1024, .f32⟩ : BufTy).Contents (Elt F)) : (⟨S8x1024x1024, .i32⟩ : BufTy).Contents (Elt F) :=
  shapeCast _ (extractStridedSlice S8x1x1024x1024 ![0, 1, 0, 0] (cell x) slices_S8x3x1024x1024_S8x1x1024x1024_0_1_0_0) shapeCasts_S8x1x1024x1024_S8x1024x1024
def cellB (x : (⟨S8x3x1024x1024, .f32⟩ : BufTy).Contents (Elt F)) : (⟨S8x1024x1024, .i32⟩ : BufTy).Contents (Elt F) :=
  shapeCast _ (extractStridedSlice S8x1x1024x1024 ![0, 2, 0, 0] (cell x) slices_S8x3x1024x1024_S8x1x1024x1024_0_2_0_0) shapeCasts_S8x1x1024x1024_S8x1024x1024

/-- The position inside the cell on the red, green and blue axes. -/
def fracR (x : (⟨S8x3x1024x1024, .f32⟩ : BufTy).Contents (Elt F)) : (⟨S8x1024x1024, .f32⟩ : BufTy).Contents (Elt F) :=
  shapeCast _ (extractStridedSlice S8x1x1024x1024 ![0, 0, 0, 0] (frac x) slices_S8x3x1024x1024_S8x1x1024x1024_0_0_0_0) shapeCasts_S8x1x1024x1024_S8x1024x1024
def fracG (x : (⟨S8x3x1024x1024, .f32⟩ : BufTy).Contents (Elt F)) : (⟨S8x1024x1024, .f32⟩ : BufTy).Contents (Elt F) :=
  shapeCast _ (extractStridedSlice S8x1x1024x1024 ![0, 1, 0, 0] (frac x) slices_S8x3x1024x1024_S8x1x1024x1024_0_1_0_0) shapeCasts_S8x1x1024x1024_S8x1024x1024
def fracB (x : (⟨S8x3x1024x1024, .f32⟩ : BufTy).Contents (Elt F)) : (⟨S8x1024x1024, .f32⟩ : BufTy).Contents (Elt F) :=
  shapeCast _ (extractStridedSlice S8x1x1024x1024 ![0, 2, 0, 0] (frac x) slices_S8x3x1024x1024_S8x1x1024x1024_0_2_0_0) shapeCasts_S8x1x1024x1024_S8x1024x1024

/-- One minus a fraction: the weight of the near corner on an axis. -/
def near (f : (⟨S8x1024x1024, .f32⟩ : BufTy).Contents (Elt F)) : (⟨S8x1024x1024, .f32⟩ : BufTy).Contents (Elt F) :=
  subf (broadcastInDim S8x1024x1024 ![] bcast_S_S8x1024x1024 (constant S_ .f32 0x3F800000#32)) f

/-- A cell index shifted by `d`, a negative result wrapped by the table's extent 33. -/
def wrap (d : BitVec 32) (i : (⟨S8x1024x1024, .i32⟩ : BufTy).Contents (Elt F)) : (⟨S8x1024x1024, .i32⟩ : BufTy).Contents (Elt F) :=
  select (cmpi .slt (addi i (broadcastInDim S8x1024x1024 ![] bcast_S_S8x1024x1024 (constantI S_ 32 d)))
      (broadcastInDim S8x1024x1024 ![] bcast_S_S8x1024x1024 (constantI S_ 32 0#32)))
    (addi (addi i (broadcastInDim S8x1024x1024 ![] bcast_S_S8x1024x1024 (constantI S_ 32 d)))
      (broadcastInDim S8x1024x1024 ![] bcast_S_S8x1024x1024 (constantI S_ 32 33#32)))
    (addi i (broadcastInDim S8x1024x1024 ![] bcast_S_S8x1024x1024 (constantI S_ 32 d)))

/-- The table entries at the corner whose red, green and blue cell indices are `iR`, `iG`, `iB` shifted by
    (dr, dg, db): all three output channels of the entry [blue index, green index, red index], for every pixel. -/
def cornerAt (dr dg db : BitVec 32) (lut : (⟨S3x33x33x33, .f32⟩ : BufTy).Contents (Elt F))
    (iR iG iB : (⟨S8x1024x1024, .i32⟩ : BufTy).Contents (Elt F)) : (⟨S3x8x1024x1024, .f32⟩ : BufTy).Contents (Elt F) :=
  Host.gather gather_S3x33x33x33_S8x1024x1024x3_S3x8x1024x1024_0_123_n_n_123_3_3111 lut
    (concatenate S8x1024x1024x3 3
      [⟨S8x1024x1024x1, broadcastInDim S8x1024x1024x1 ![0, 1, 2] bcast_S8x1024x1024_S8x1024x1024x1_0_1_2 (wrap db iB)⟩,
       ⟨S8x1024x1024x1, broadcastInDim S8x1024x1024x1 ![0, 1, 2] bcast_S8x1024x1024_S8x1024x1024x1_0_1_2 (wrap dg iG)⟩,
       ⟨S8x1024x1024x1, broadcastInDim S8x1024x1024x1 ![0, 1, 2] bcast_S8x1024x1024_S8x1024x1024x1_0_1_2 (wrap dr iR)⟩]
      concatenates_S8x1024x1024x1_S8x1024x1024x1_S8x1024x1024x1_S8x1024x1024x3_d3)

/-- The same at the cell indices of an image batch. -/
def corner (dr dg db : BitVec 32) (lut : (⟨S3x33x33x33, .f32⟩ : BufTy).Contents (Elt F)) (x : (⟨S8x3x1024x1024, .f32⟩ : BufTy).Contents (Elt F)) :
    (⟨S3x8x1024x1024, .f32⟩ : BufTy).Contents (Elt F) :=
  cornerAt dr dg db lut (cellR x) (cellG x) (cellB x)

/-- A corner's entries times its weight, the weight the same on the three output channels. -/
def weighted (w : (⟨S8x1024x1024, .f32⟩ : BufTy).Contents (Elt F)) (cn : (⟨S3x8x1024x1024, .f32⟩ : BufTy).Contents (Elt F)) : (⟨S3x8x1024x1024, .f32⟩ : BufTy).Contents (Elt F) :=
  mulf (broadcastInDim S3x8x1024x1024 ![0, 1, 2, 3] bcast_S1x8x1024x1024_S3x8x1024x1024_0_1_2_3
    (broadcastInDim S1x8x1024x1024 ![1, 2, 3] bcast_S8x1024x1024_S1x8x1024x1024_1_2_3 w)) cn

/-- The eight weights: on each axis the fraction where the corner is the far one, one minus it where it is the near one. -/
def w000 (x : (⟨S8x3x1024x1024, .f32⟩ : BufTy).Contents (Elt F)) : (⟨S8x1024x1024, .f32⟩ : BufTy).Contents (Elt F) := mulf (mulf (near (fracR x)) (near (fracG x))) (near (fracB x))
def w100 (x : (⟨S8x3x1024x1024, .f32⟩ : BufTy).Contents (Elt F)) : (⟨S8x1024x1024, .f32⟩ : BufTy).Contents (Elt F) := mulf (mulf (fracR x) (near (fracG x))) (near (fracB x))
def w010 (x : (⟨S8x3x1024x1024, .f32⟩ : BufTy).Contents (Elt F)) : (⟨S8x1024x1024, .f32⟩ : BufTy).Contents (Elt F) := mulf (mulf (near (fracR x)) (fracG x)) (near (fracB x))
def w110 (x : (⟨S8x3x1024x1024, .f32⟩ : BufTy).Contents (Elt F)) : (⟨S8x1024x1024, .f32⟩ : BufTy).Contents (Elt F) := mulf (mulf (fracR x) (fracG x)) (near (fracB x))
def w001 (x : (⟨S8x3x1024x1024, .f32⟩ : BufTy).Contents (Elt F)) : (⟨S8x1024x1024, .f32⟩ : BufTy).Contents (Elt F) := mulf (mulf (near (fracR x)) (near (fracG x))) (fracB x)
def w101 (x : (⟨S8x3x1024x1024, .f32⟩ : BufTy).Contents (Elt F)) : (⟨S8x1024x1024, .f32⟩ : BufTy).Contents (Elt F) := mulf (mulf (fracR x) (near (fracG x))) (fracB x)
def w011 (x : (⟨S8x3x1024x1024, .f32⟩ : BufTy).Contents (Elt F)) : (⟨S8x1024x1024, .f32⟩ : BufTy).Contents (Elt F) := mulf (mulf (near (fracR x)) (fracG x)) (fracB x)
def w111 (x : (⟨S8x3x1024x1024, .f32⟩ : BufTy).Contents (Elt F)) : (⟨S8x1024x1024, .f32⟩ : BufTy).Contents (Elt F) := mulf (mulf (fracR x) (fracG x)) (fracB x)

/-- The eight weighted corners, in the order the sum takes them: the red shift varies fastest. -/
def term0 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w000 x) (corner 0#32 0#32 0#32 lut x)
def term1 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w100 x) (corner 1#32 0#32 0#32 lut x)
def term2 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w010 x) (corner 0#32 1#32 0#32 lut x)
def term3 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w110 x) (corner 1#32 1#32 0#32 lut x)
def term4 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w001 x) (corner 0#32 0#32 1#32 lut x)
def term5 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w101 x) (corner 1#32 0#32 1#32 lut x)
def term6 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w011 x) (corner 0#32 1#32 1#32 lut x)
def term7 (lut : (⟨S3x33x33x33, .f32⟩ : BufTy).Contents (Elt F)) (x : (⟨S8x3x1024x1024, .f32⟩ : BufTy).Contents (Elt F)) : (⟨S3x8x1024x1024, .f32⟩ : BufTy).Contents (Elt F) :=
  weighted (w111 x) (corner 1#32 1#32 1#32 lut x)

/-- The lookup: the left-to-right sum of the eight weighted corners, the channel and batch axes swapped to the
    image's layout [8, 3, 1024, 1024]. -/
def lookup (lut : (⟨S3x33x33x33, .f32⟩ : BufTy).Contents (Elt F)) (x : (⟨S8x3x1024x1024, .f32⟩ : BufTy).Contents (Elt F)) :
    (⟨S8x3x1024x1024, .f32⟩ : BufTy).Contents (Elt F) :=
  transpose S8x3x1024x1024 [1, 0, 2, 3]
    (addf (addf (addf (addf (addf (addf (addf (term0 lut x) (term1 lut x)) (term2 lut x)) (term3 lut x)) (term4 lut x))
      (term5 lut x)) (term6 lut x)) (term7 lut x))
    transposes_S3x8x1024x1024_S8x3x1024x1024_1_0_2_3

end Cert.KernelIdeal.Lut

end
-- ==== Proof.KernelIdealSeg.lean ====
/-
  The host operations before the region, cut into stretches.

  The 385 operations fall into a prelude of 71 — the scaled image, the cell indices and fractions per colour axis, the
  eight weights —, eight stretches of 38, one per corner — the three shifted and wrapped cell indices, the gather, the
  weight broadcast over the channels, the product —, and a last stretch of 10 that stacks the eight products.  Here:
  the stretches by name, that the whole line run from a state is the stretches run one after the other, and the
  prelude read against an arbitrary state of the buffers before it.
-/
import proofs.«167662_j20830591385730_2_alg».proof.Proof.KernelIdealAround
import proofs.«167662_j20830591385730_2_alg».proof.Proof.KernelIdealLut
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

/-- The prelude; what is left of the line after it and after each corner's stretch; the corners' stretches. -/
def pre71 : List (HloOp τ sig (Elt F)) := (hostOps0 (F := F)).take 71
def d0 : List (HloOp τ sig (Elt F)) := (hostOps0 (F := F)).drop 71
def d1 : List (HloOp τ sig (Elt F)) := (d0 (F := F)).drop 38
def d2 : List (HloOp τ sig (Elt F)) := (d1 (F := F)).drop 38
def d3 : List (HloOp τ sig (Elt F)) := (d2 (F := F)).drop 38
def d4 : List (HloOp τ sig (Elt F)) := (d3 (F := F)).drop 38
def d5 : List (HloOp τ sig (Elt F)) := (d4 (F := F)).drop 38
def d6 : List (HloOp τ sig (Elt F)) := (d5 (F := F)).drop 38
def d7 : List (HloOp τ sig (Elt F)) := (d6 (F := F)).drop 38
def d8 : List (HloOp τ sig (Elt F)) := (d7 (F := F)).drop 38
def s0 : List (HloOp τ sig (Elt F)) := (d0 (F := F)).take 38
def s1 : List (HloOp τ sig (Elt F)) := (d1 (F := F)).take 38
def s2 : List (HloOp τ sig (Elt F)) := (d2 (F := F)).take 38
def s3 : List (HloOp τ sig (Elt F)) := (d3 (F := F)).take 38
def s4 : List (HloOp τ sig (Elt F)) := (d4 (F := F)).take 38
def s5 : List (HloOp τ sig (Elt F)) := (d5 (F := F)).take 38
def s6 : List (HloOp τ sig (Elt F)) := (d6 (F := F)).take 38
def s7 : List (HloOp τ sig (Elt F)) := (d7 (F := F)).take 38

/-- A line of operations run from `V` is its first `n` run from `V`, then the rest. -/
theorem after_split (l : List (HloOp τ sig (Elt F))) (n : Nat) (V : Valuation τ sig (Elt F)) :
    StableHlo.after l V = StableHlo.after (l.drop n) (StableHlo.after (l.take n) V) := by
  rw [← StableHlo.after_append, List.take_append_drop]

/-- The whole line run from `V`: the prelude, the eight corners' stretches, the stacking stretch, in order. -/
theorem hostOps0_stretches (V : Valuation τ sig (Elt F)) :
    StableHlo.after (hostOps0 (F := F)) V
      = StableHlo.after (d8 (F := F)) ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V)))))))))) :=
  (after_split (hostOps0 (F := F)) 71 V).trans ((after_split (d0 (F := F)) 38 _).trans ((after_split (d1 (F := F)) 38 _).trans ((after_split (d2 (F := F)) 38 _).trans ((after_split (d3 (F := F)) 38 _).trans ((after_split (d4 (F := F)) 38 _).trans ((after_split (d5 (F := F)) 38 _).trans ((after_split (d6 (F := F)) 38 _).trans (after_split (d7 (F := F)) 38 _))))))))

set_option maxHeartbeats 4000000 in
/-- After the prelude: the three cell-index arrays, the eight weights, and the table untouched. -/
theorem prelude (W : Valuation τ sig (Elt F)) :
    StableHlo.after (pre71 (F := F)) W (Proc.devRef .tc main_v7) = Lut.cellR (W (Proc.devRef .tc main_arg1))
    ∧ StableHlo.after (pre71 (F := F)) W (Proc.devRef .tc main_v9) = Lut.cellG (W (Proc.devRef .tc main_arg1))
    ∧ StableHlo.after (pre71 (F := F)) W (Proc.devRef .tc main_v11) = Lut.cellB (W (Proc.devRef .tc main_arg1))
    ∧ StableHlo.after (pre71 (F := F)) W (Proc.devRef .tc main_v25) = Lut.w000 (W (Proc.devRef .tc main_arg1))
    ∧ StableHlo.after (pre71 (F := F)) W (Proc.devRef .tc main_v31) = Lut.w100 (W (Proc.devRef .tc main_arg1))
    ∧ StableHlo.after (pre71 (F := F)) W (Proc.devRef .tc main_v37) = Lut.w010 (W (Proc.devRef .tc main_arg1))
    ∧ StableHlo.after (pre71 (F := F)) W (Proc.devRef .tc main_v41) = Lut.w110 (W (Proc.devRef .tc main_arg1))
    ∧ StableHlo.after (pre71 (F := F)) W (Proc.devRef .tc main_v47) = Lut.w001 (W (Proc.devRef .tc main_arg1))
    ∧ StableHlo.after (pre71 (F := F)) W (Proc.devRef .tc main_v51) = Lut.w101 (W (Proc.devRef .tc main_arg1))
    ∧ StableHlo.after (pre71 (F := F)) W (Proc.devRef .tc main_v55) = Lut.w011 (W (Proc.devRef .tc main_arg1))
    ∧ StableHlo.after (pre71 (F := F)) W (Proc.devRef .tc main_v57) = Lut.w111 (W (Proc.devRef .tc main_arg1))
    ∧ StableHlo.after (pre71 (F := F)) W (Proc.devRef .tc main_arg0) = (W (Proc.devRef .tc main_arg0)) := by
  simp only [pre71, hostOps0, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner0.lean ====
/-
  Corner 0 of the eight: its stretch of 38 host operations, read against an arbitrary state of the buffers before it.
  The stretch shifts the blue, green and red cell indices by (0, 0, 0), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner0 (W : Valuation τ sig (Elt F)) :
    StableHlo.after (s0 (F := F)) W (Proc.devRef .tc main_v86)
      = Lut.weighted (W (Proc.devRef .tc main_v25)) (Lut.cornerAt 0#32 0#32 0#32 (W (Proc.devRef .tc main_arg0)) (W (Proc.devRef .tc main_v7)) (W (Proc.devRef .tc main_v9)) (W (Proc.devRef .tc main_v11)))
    ∧ StableHlo.after (s0 (F := F)) W (Proc.devRef .tc main_arg0) = (W (Proc.devRef .tc main_arg0))
    ∧ StableHlo.after (s0 (F := F)) W (Proc.devRef .tc main_v7) = (W (Proc.devRef .tc main_v7))
    ∧ StableHlo.after (s0 (F := F)) W (Proc.devRef .tc main_v9) = (W (Proc.devRef .tc main_v9))
    ∧ StableHlo.after (s0 (F := F)) W (Proc.devRef .tc main_v11) = (W (Proc.devRef .tc main_v11))
    ∧ StableHlo.after (s0 (F := F)) W (Proc.devRef .tc main_v31) = (W (Proc.devRef .tc main_v31))
    ∧ StableHlo.after (s0 (F := F)) W (Proc.devRef .tc main_v37) = (W (Proc.devRef .tc main_v37))
    ∧ StableHlo.after (s0 (F := F)) W (Proc.devRef .tc main_v41) = (W (Proc.devRef .tc main_v41))
    ∧ StableHlo.after (s0 (F := F)) W (Proc.devRef .tc main_v47) = (W (Proc.devRef .tc main_v47))
    ∧ StableHlo.after (s0 (F := F)) W (Proc.devRef .tc main_v51) = (W (Proc.devRef .tc main_v51))
    ∧ StableHlo.after (s0 (F := F)) W (Proc.devRef .tc main_v55) = (W (Proc.devRef .tc main_v55))
    ∧ StableHlo.after (s0 (F := F)) W (Proc.devRef .tc main_v57) = (W (Proc.devRef .tc main_v57)) := by
  simp only [s0, d0, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner1.lean ====
/-
  Corner 1 of the eight: its stretch of 38 host operations, read against an arbitrary state of the buffers before it.
  The stretch shifts the blue, green and red cell indices by (0, 0, 1), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner1 (W : Valuation τ sig (Elt F)) :
    StableHlo.after (s1 (F := F)) W (Proc.devRef .tc main_v115)
      = Lut.weighted (W (Proc.devRef .tc main_v31)) (Lut.cornerAt 1#32 0#32 0#32 (W (Proc.devRef .tc main_arg0)) (W (Proc.devRef .tc main_v7)) (W (Proc.devRef .tc main_v9)) (W (Proc.devRef .tc main_v11)))
    ∧ StableHlo.after (s1 (F := F)) W (Proc.devRef .tc main_arg0) = (W (Proc.devRef .tc main_arg0))
    ∧ StableHlo.after (s1 (F := F)) W (Proc.devRef .tc main_v7) = (W (Proc.devRef .tc main_v7))
    ∧ StableHlo.after (s1 (F := F)) W (Proc.devRef .tc main_v9) = (W (Proc.devRef .tc main_v9))
    ∧ StableHlo.after (s1 (F := F)) W (Proc.devRef .tc main_v11) = (W (Proc.devRef .tc main_v11))
    ∧ StableHlo.after (s1 (F := F)) W (Proc.devRef .tc main_v37) = (W (Proc.devRef .tc main_v37))
    ∧ StableHlo.after (s1 (F := F)) W (Proc.devRef .tc main_v41) = (W (Proc.devRef .tc main_v41))
    ∧ StableHlo.after (s1 (F := F)) W (Proc.devRef .tc main_v47) = (W (Proc.devRef .tc main_v47))
    ∧ StableHlo.after (s1 (F := F)) W (Proc.devRef .tc main_v51) = (W (Proc.devRef .tc main_v51))
    ∧ StableHlo.after (s1 (F := F)) W (Proc.devRef .tc main_v55) = (W (Proc.devRef .tc main_v55))
    ∧ StableHlo.after (s1 (F := F)) W (Proc.devRef .tc main_v57) = (W (Proc.devRef .tc main_v57))
    ∧ StableHlo.after (s1 (F := F)) W (Proc.devRef .tc main_v86) = (W (Proc.devRef .tc main_v86)) := by
  simp only [s1, d0, d1, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner2.lean ====
/-
  Corner 2 of the eight: its stretch of 38 host operations, read against an arbitrary state of the buffers before it.
  The stretch shifts the blue, green and red cell indices by (0, 1, 0), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner2 (W : Valuation τ sig (Elt F)) :
    StableHlo.after (s2 (F := F)) W (Proc.devRef .tc main_v144)
      = Lut.weighted (W (Proc.devRef .tc main_v37)) (Lut.cornerAt 0#32 1#32 0#32 (W (Proc.devRef .tc main_arg0)) (W (Proc.devRef .tc main_v7)) (W (Proc.devRef .tc main_v9)) (W (Proc.devRef .tc main_v11)))
    ∧ StableHlo.after (s2 (F := F)) W (Proc.devRef .tc main_arg0) = (W (Proc.devRef .tc main_arg0))
    ∧ StableHlo.after (s2 (F := F)) W (Proc.devRef .tc main_v7) = (W (Proc.devRef .tc main_v7))
    ∧ StableHlo.after (s2 (F := F)) W (Proc.devRef .tc main_v9) = (W (Proc.devRef .tc main_v9))
    ∧ StableHlo.after (s2 (F := F)) W (Proc.devRef .tc main_v11) = (W (Proc.devRef .tc main_v11))
    ∧ StableHlo.after (s2 (F := F)) W (Proc.devRef .tc main_v41) = (W (Proc.devRef .tc main_v41))
    ∧ StableHlo.after (s2 (F := F)) W (Proc.devRef .tc main_v47) = (W (Proc.devRef .tc main_v47))
    ∧ StableHlo.after (s2 (F := F)) W (Proc.devRef .tc main_v51) = (W (Proc.devRef .tc main_v51))
    ∧ StableHlo.after (s2 (F := F)) W (Proc.devRef .tc main_v55) = (W (Proc.devRef .tc main_v55))
    ∧ StableHlo.after (s2 (F := F)) W (Proc.devRef .tc main_v57) = (W (Proc.devRef .tc main_v57))
    ∧ StableHlo.after (s2 (F := F)) W (Proc.devRef .tc main_v86) = (W (Proc.devRef .tc main_v86))
    ∧ StableHlo.after (s2 (F := F)) W (Proc.devRef .tc main_v115) = (W (Proc.devRef .tc main_v115)) := by
  simp only [s2, d0, d1, d2, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner3.lean ====
/-
  Corner 3 of the eight: its stretch of 38 host operations, read against an arbitrary state of the buffers before it.
  The stretch shifts the blue, green and red cell indices by (0, 1, 1), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner3 (W : Valuation τ sig (Elt F)) :
    StableHlo.after (s3 (F := F)) W (Proc.devRef .tc main_v173)
      = Lut.weighted (W (Proc.devRef .tc main_v41)) (Lut.cornerAt 1#32 1#32 0#32 (W (Proc.devRef .tc main_arg0)) (W (Proc.devRef .tc main_v7)) (W (Proc.devRef .tc main_v9)) (W (Proc.devRef .tc main_v11)))
    ∧ StableHlo.after (s3 (F := F)) W (Proc.devRef .tc main_arg0) = (W (Proc.devRef .tc main_arg0))
    ∧ StableHlo.after (s3 (F := F)) W (Proc.devRef .tc main_v7) = (W (Proc.devRef .tc main_v7))
    ∧ StableHlo.after (s3 (F := F)) W (Proc.devRef .tc main_v9) = (W (Proc.devRef .tc main_v9))
    ∧ StableHlo.after (s3 (F := F)) W (Proc.devRef .tc main_v11) = (W (Proc.devRef .tc main_v11))
    ∧ StableHlo.after (s3 (F := F)) W (Proc.devRef .tc main_v47) = (W (Proc.devRef .tc main_v47))
    ∧ StableHlo.after (s3 (F := F)) W (Proc.devRef .tc main_v51) = (W (Proc.devRef .tc main_v51))
    ∧ StableHlo.after (s3 (F := F)) W (Proc.devRef .tc main_v55) = (W (Proc.devRef .tc main_v55))
    ∧ StableHlo.after (s3 (F := F)) W (Proc.devRef .tc main_v57) = (W (Proc.devRef .tc main_v57))
    ∧ StableHlo.after (s3 (F := F)) W (Proc.devRef .tc main_v86) = (W (Proc.devRef .tc main_v86))
    ∧ StableHlo.after (s3 (F := F)) W (Proc.devRef .tc main_v115) = (W (Proc.devRef .tc main_v115))
    ∧ StableHlo.after (s3 (F := F)) W (Proc.devRef .tc main_v144) = (W (Proc.devRef .tc main_v144)) := by
  simp only [s3, d0, d1, d2, d3, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner4.lean ====
/-
  Corner 4 of the eight: its stretch of 38 host operations, read against an arbitrary state of the buffers before it.
  The stretch shifts the blue, green and red cell indices by (1, 0, 0), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner4 (W : Valuation τ sig (Elt F)) :
    StableHlo.after (s4 (F := F)) W (Proc.devRef .tc main_v202)
      = Lut.weighted (W (Proc.devRef .tc main_v47)) (Lut.cornerAt 0#32 0#32 1#32 (W (Proc.devRef .tc main_arg0)) (W (Proc.devRef .tc main_v7)) (W (Proc.devRef .tc main_v9)) (W (Proc.devRef .tc main_v11)))
    ∧ StableHlo.after (s4 (F := F)) W (Proc.devRef .tc main_arg0) = (W (Proc.devRef .tc main_arg0))
    ∧ StableHlo.after (s4 (F := F)) W (Proc.devRef .tc main_v7) = (W (Proc.devRef .tc main_v7))
    ∧ StableHlo.after (s4 (F := F)) W (Proc.devRef .tc main_v9) = (W (Proc.devRef .tc main_v9))
    ∧ StableHlo.after (s4 (F := F)) W (Proc.devRef .tc main_v11) = (W (Proc.devRef .tc main_v11))
    ∧ StableHlo.after (s4 (F := F)) W (Proc.devRef .tc main_v51) = (W (Proc.devRef .tc main_v51))
    ∧ StableHlo.after (s4 (F := F)) W (Proc.devRef .tc main_v55) = (W (Proc.devRef .tc main_v55))
    ∧ StableHlo.after (s4 (F := F)) W (Proc.devRef .tc main_v57) = (W (Proc.devRef .tc main_v57))
    ∧ StableHlo.after (s4 (F := F)) W (Proc.devRef .tc main_v86) = (W (Proc.devRef .tc main_v86))
    ∧ StableHlo.after (s4 (F := F)) W (Proc.devRef .tc main_v115) = (W (Proc.devRef .tc main_v115))
    ∧ StableHlo.after (s4 (F := F)) W (Proc.devRef .tc main_v144) = (W (Proc.devRef .tc main_v144))
    ∧ StableHlo.after (s4 (F := F)) W (Proc.devRef .tc main_v173) = (W (Proc.devRef .tc main_v173)) := by
  simp only [s4, d0, d1, d2, d3, d4, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner5.lean ====
/-
  Corner 5 of the eight: its stretch of 38 host operations, read against an arbitrary state of the buffers before it.
  The stretch shifts the blue, green and red cell indices by (1, 0, 1), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner5 (W : Valuation τ sig (Elt F)) :
    StableHlo.after (s5 (F := F)) W (Proc.devRef .tc main_v231)
      = Lut.weighted (W (Proc.devRef .tc main_v51)) (Lut.cornerAt 1#32 0#32 1#32 (W (Proc.devRef .tc main_arg0)) (W (Proc.devRef .tc main_v7)) (W (Proc.devRef .tc main_v9)) (W (Proc.devRef .tc main_v11)))
    ∧ StableHlo.after (s5 (F := F)) W (Proc.devRef .tc main_arg0) = (W (Proc.devRef .tc main_arg0))
    ∧ StableHlo.after (s5 (F := F)) W (Proc.devRef .tc main_v7) = (W (Proc.devRef .tc main_v7))
    ∧ StableHlo.after (s5 (F := F)) W (Proc.devRef .tc main_v9) = (W (Proc.devRef .tc main_v9))
    ∧ StableHlo.after (s5 (F := F)) W (Proc.devRef .tc main_v11) = (W (Proc.devRef .tc main_v11))
    ∧ StableHlo.after (s5 (F := F)) W (Proc.devRef .tc main_v55) = (W (Proc.devRef .tc main_v55))
    ∧ StableHlo.after (s5 (F := F)) W (Proc.devRef .tc main_v57) = (W (Proc.devRef .tc main_v57))
    ∧ StableHlo.after (s5 (F := F)) W (Proc.devRef .tc main_v86) = (W (Proc.devRef .tc main_v86))
    ∧ StableHlo.after (s5 (F := F)) W (Proc.devRef .tc main_v115) = (W (Proc.devRef .tc main_v115))
    ∧ StableHlo.after (s5 (F := F)) W (Proc.devRef .tc main_v144) = (W (Proc.devRef .tc main_v144))
    ∧ StableHlo.after (s5 (F := F)) W (Proc.devRef .tc main_v173) = (W (Proc.devRef .tc main_v173))
    ∧ StableHlo.after (s5 (F := F)) W (Proc.devRef .tc main_v202) = (W (Proc.devRef .tc main_v202)) := by
  simp only [s5, d0, d1, d2, d3, d4, d5, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner6.lean ====
/-
  Corner 6 of the eight: its stretch of 38 host operations, read against an arbitrary state of the buffers before it.
  The stretch shifts the blue, green and red cell indices by (1, 1, 0), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner6 (W : Valuation τ sig (Elt F)) :
    StableHlo.after (s6 (F := F)) W (Proc.devRef .tc main_v260)
      = Lut.weighted (W (Proc.devRef .tc main_v55)) (Lut.cornerAt 0#32 1#32 1#32 (W (Proc.devRef .tc main_arg0)) (W (Proc.devRef .tc main_v7)) (W (Proc.devRef .tc main_v9)) (W (Proc.devRef .tc main_v11)))
    ∧ StableHlo.after (s6 (F := F)) W (Proc.devRef .tc main_arg0) = (W (Proc.devRef .tc main_arg0))
    ∧ StableHlo.after (s6 (F := F)) W (Proc.devRef .tc main_v7) = (W (Proc.devRef .tc main_v7))
    ∧ StableHlo.after (s6 (F := F)) W (Proc.devRef .tc main_v9) = (W (Proc.devRef .tc main_v9))
    ∧ StableHlo.after (s6 (F := F)) W (Proc.devRef .tc main_v11) = (W (Proc.devRef .tc main_v11))
    ∧ StableHlo.after (s6 (F := F)) W (Proc.devRef .tc main_v57) = (W (Proc.devRef .tc main_v57))
    ∧ StableHlo.after (s6 (F := F)) W (Proc.devRef .tc main_v86) = (W (Proc.devRef .tc main_v86))
    ∧ StableHlo.after (s6 (F := F)) W (Proc.devRef .tc main_v115) = (W (Proc.devRef .tc main_v115))
    ∧ StableHlo.after (s6 (F := F)) W (Proc.devRef .tc main_v144) = (W (Proc.devRef .tc main_v144))
    ∧ StableHlo.after (s6 (F := F)) W (Proc.devRef .tc main_v173) = (W (Proc.devRef .tc main_v173))
    ∧ StableHlo.after (s6 (F := F)) W (Proc.devRef .tc main_v202) = (W (Proc.devRef .tc main_v202))
    ∧ StableHlo.after (s6 (F := F)) W (Proc.devRef .tc main_v231) = (W (Proc.devRef .tc main_v231)) := by
  simp only [s6, d0, d1, d2, d3, d4, d5, d6, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealCorner7.lean ====
/-
  Corner 7 of the eight: its stretch of 38 host operations, read against an arbitrary state of the buffers before it.
  The stretch shifts the blue, green and red cell indices by (1, 1, 1), wraps a negative index by 33, gathers the table
  entries there, and multiplies them by the corner's weight broadcast over the three output channels.  It writes only
  its own 38 buffers: the table, the cell indices, the weights of later corners and the products of earlier ones are
  as before.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem corner7 (W : Valuation τ sig (Elt F)) :
    StableHlo.after (s7 (F := F)) W (Proc.devRef .tc main_v289)
      = Lut.weighted (W (Proc.devRef .tc main_v57)) (Lut.cornerAt 1#32 1#32 1#32 (W (Proc.devRef .tc main_arg0)) (W (Proc.devRef .tc main_v7)) (W (Proc.devRef .tc main_v9)) (W (Proc.devRef .tc main_v11)))
    ∧ StableHlo.after (s7 (F := F)) W (Proc.devRef .tc main_arg0) = (W (Proc.devRef .tc main_arg0))
    ∧ StableHlo.after (s7 (F := F)) W (Proc.devRef .tc main_v7) = (W (Proc.devRef .tc main_v7))
    ∧ StableHlo.after (s7 (F := F)) W (Proc.devRef .tc main_v9) = (W (Proc.devRef .tc main_v9))
    ∧ StableHlo.after (s7 (F := F)) W (Proc.devRef .tc main_v11) = (W (Proc.devRef .tc main_v11))
    ∧ StableHlo.after (s7 (F := F)) W (Proc.devRef .tc main_v86) = (W (Proc.devRef .tc main_v86))
    ∧ StableHlo.after (s7 (F := F)) W (Proc.devRef .tc main_v115) = (W (Proc.devRef .tc main_v115))
    ∧ StableHlo.after (s7 (F := F)) W (Proc.devRef .tc main_v144) = (W (Proc.devRef .tc main_v144))
    ∧ StableHlo.after (s7 (F := F)) W (Proc.devRef .tc main_v173) = (W (Proc.devRef .tc main_v173))
    ∧ StableHlo.after (s7 (F := F)) W (Proc.devRef .tc main_v202) = (W (Proc.devRef .tc main_v202))
    ∧ StableHlo.after (s7 (F := F)) W (Proc.devRef .tc main_v231) = (W (Proc.devRef .tc main_v231))
    ∧ StableHlo.after (s7 (F := F)) W (Proc.devRef .tc main_v260) = (W (Proc.devRef .tc main_v260)) := by
  simp only [s7, d0, d1, d2, d3, d4, d5, d6, d7, hostOps0, List.drop_succ_cons, List.drop_zero, List.take_succ_cons, List.take_zero]
  refine ⟨?_, ?_, ?_, ?_, ?_, ?_, ?_, ?_, ?_, ?_, ?_, ?_⟩ <;> (after_results_simp; try rfl)

end Cert.KernelIdeal.Around

end
-- ==== Proof.KernelIdealStack.lean ====
/-
  The last stretch of host operations before the region, read against an arbitrary state of the buffers before it:
  the eight products are each given a leading unit axis and concatenated along it, and the channel and batch axes are
  merged.  The result is the array the region stages.
-/
import proofs.«167662_j20830591385730_2_alg».proof.Proof.KernelIdealSeg
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
theorem stacked (W : Valuation τ sig (Elt F)) :
    StableHlo.after (d8 (F := F)) W (Proc.devRef .tc main_v299)
      = shapeCast S8x24x1024x1024 (concatenate S8x3x8x1024x1024 0
          [⟨S1x3x8x1024x1024, broadcastInDim S1x3x8x1024x1024 ![1, 2, 3, 4] bcast_S3x8x1024x1024_S1x3x8x1024x1024_1_2_3_4 (W (Proc.devRef .tc main_v86))⟩,
           ⟨S1x3x8x1024x1024, broadcastInDim S1x3x8x1024x1024 ![1, 2, 3, 4] bcast_S3x8x1024x1024_S1x3x8x1024x1024_1_2_3_4 (W (Proc.devRef .tc main_v115))⟩,
           ⟨S1x3x8x1024x1024, broadcastInDim S1x3x8x1024x1024 ![1, 2, 3, 4] bcast_S3x8x1024x1024_S1x3x8x1024x1024_1_2_3_4 (W (Proc.devRef .tc main_v144))⟩,
           ⟨S1x3x8x1024x1024, broadcastInDim S1x3x8x1024x1024 ![1, 2, 3, 4] bcast_S3x8x1024x1024_S1x3x8x1024x1024_1_2_3_4 (W (Proc.devRef .tc main_v173))⟩,
           ⟨S1x3x8x1024x1024, broadcastInDim S1x3x8x1024x1024 ![1, 2, 3, 4] bcast_S3x8x1024x1024_S1x3x8x1024x1024_1_2_3_4 (W (Proc.devRef .tc main_v202))⟩,
           ⟨S1x3x8x1024x1024, broadcastInDim S1x3x8x1024x1024 ![1, 2, 3, 4] bcast_S3x8x1024x1024_S1x3x8x1024x1024_1_2_3_4 (W (Proc.devRef .tc main_v231))⟩,
           ⟨S1x3x8x1024x1024, broadcastInDim S1x3x8x1024x1024 ![1, 2, 3, 4] bcast_S3x8x1024x1024_S1x3x8x1024x1024_1_2_3_4 (W (Proc.devRef .tc main_v260))⟩,
           ⟨S1x3x8x1024x1024, broadcastInDim S1x3x8x1024x1024 ![1, 2, 3, 4] bcast_S3x8x1024x1024_S1x3x8x1024x1024_1_2_3_4 (W (Proc.devRef .tc main_v289))⟩]
          concatenates_S1x3x8x1024x1024_S1x3x8x1024x1024_S1x3x8x1024x1024_S1x3x8x1024x1024_S1x3x8x1024x1024_S1x3x8x1024x1024_S1x3x8x1024x1024_S1x3x8x1024x1024_S8x3x8x1024x1024_d0)
        shapeCasts_S8x3x8x1024x1024_S8x24x1024x1024 := by
  simp only [d0, d1, d2, d3, d4, d5, d6, d7, d8, hostOps0, List.drop_succ_cons, List.drop_zero]
  after_results_simp
  try rfl

end Cert.KernelIdeal.Around

end
-- ==== Proof.KernelIdealRead.lean ====
/-
  The host operations before the region, composed: the array the region stages holds the stack of the eight weighted
  corners of the two argument arrays as launched.

  The line of operations is the prelude, the eight corners' stretches and the stacking stretch, run one after the
  other.  The stacking stretch stacks the eight product buffers.  Product k is written by stretch k and untouched by
  the later ones; stretch k computes it from its weight, the table and the three cell-index arrays, which the earlier
  stretches leave as the prelude made them; and the prelude makes them the weights and cell indices of the launched
  image batch, leaving the table as launched.  Each product is therefore the weighted corner of the launched arguments.
-/
import proofs.«167662_j20830591385730_2_alg».proof.Proof.KernelIdealSeg
import proofs.«167662_j20830591385730_2_alg».proof.Proof.KernelIdealCorner0
import proofs.«167662_j20830591385730_2_alg».proof.Proof.KernelIdealCorner1
import proofs.«167662_j20830591385730_2_alg».proof.Proof.KernelIdealCorner2
import proofs.«167662_j20830591385730_2_alg».proof.Proof.KernelIdealCorner3
import proofs.«167662_j20830591385730_2_alg».proof.Proof.KernelIdealCorner4
import proofs.«167662_j20830591385730_2_alg».proof.Proof.KernelIdealCorner5
import proofs.«167662_j20830591385730_2_alg».proof.Proof.KernelIdealCorner6
import proofs.«167662_j20830591385730_2_alg».proof.Proof.KernelIdealCorner7
import proofs.«167662_j20830591385730_2_alg».proof.Proof.KernelIdealStack
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 4000000 in
/-- The staged array after the whole line: the stack of the eight product buffers as the stretches leave them. -/
theorem staged_split (V : Valuation τ sig (Elt F)) :
    StableHlo.after (hostOps0 (F := F)) V (Proc.devRef .tc main_v299)
      = shapeCast S8x24x1024x1024 (concatenate S8x3x8x1024x1024 0
          [⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v86))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v115))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v144))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v173))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v202))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v231))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v260))⟩,
           ⟨S1x3x8x1024x1024, broadcastInDim S1x3x8x1024x1024 ![1, 2, 3, 4] bcast_S3x8x1024x1024_S1x3x8x1024x1024_1_2_3_4 ((StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v289))⟩]
          concatenates_S1x3x8x1024x1024_S1x3x8x1024x1024_S1x3x8x1024x1024_S1x3x8x1024x1024_S1x3x8x1024x1024_S1x3x8x1024x1024_S1x3x8x1024x1024_S1x3x8x1024x1024_S8x3x8x1024x1024_d0)
        shapeCasts_S8x3x8x1024x1024_S8x24x1024x1024 := by
  rw [hostOps0_stretches, stacked]

set_option maxHeartbeats 4000000 in
/-- Product 0 after all the stretches, from any state before the prelude: weighted corner 0 of that state's arguments. -/
theorem product0 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v86)
      = Lut.term0 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v25 : ∀ W : Valuation τ sig (Elt F), StableHlo.after (pre71 (F := F)) W (no_index (Proc.devRef .tc main_v25)) = Lut.w000 (W (Proc.devRef .tc main_arg1)) := fun W => (prelude W).2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have c0 : ∀ W : Valuation τ sig (Elt F), StableHlo.after (s0 (F := F)) W (no_index (Proc.devRef .tc main_v86)) = Lut.weighted (W (Proc.devRef .tc main_v25)) (Lut.cornerAt 0#32 0#32 0#32 (W (Proc.devRef .tc main_arg0)) (W (Proc.devRef .tc main_v7)) (W (Proc.devRef .tc main_v9)) (W (Proc.devRef .tc main_v11))) := fun W => (corner0 W).1
  have k1_main_v86 : ∀ W : Valuation τ sig (Elt F), StableHlo.after (s1 (F := F)) W (no_index (Proc.devRef .tc main_v86)) = W (Proc.devRef .tc main_v86) := fun W => (corner1 W).2.2.2.2.2.2.2.2.2.2.2
  have k2_main_v86 : ∀ W : Valuation τ sig (Elt F), StableHlo.after (s2 (F := F)) W (no_index (Proc.devRef .tc main_v86)) = W (Proc.devRef .tc main_v86) := fun W => (corner2 W).2.2.2.2.2.2.2.2.2.2.1
  have k3_main_v86 : ∀ W : Valuation τ sig (Elt F), StableHlo.after (s3 (F := F)) W (no_index (Proc.devRef .tc main_v86)) = W (Proc.devRef .tc main_v86) := fun W => (corner3 W).2.2.2.2.2.2.2.2.2.1
  have k4_main_v86 : ∀ W : Valuation τ sig (Elt F), StableHlo.after (s4 (F := F)) W (no_index (Proc.devRef .tc main_v86)) = W (Proc.devRef .tc main_v86) := fun W => (corner4 W).2.2.2.2.2.2.2.2.1
  have k5_main_v86 : ∀ W : Valuation τ sig (Elt F), StableHlo.after (s5 (F := F)) W (no_index (Proc.devRef .tc main_v86)) = W (Proc.devRef .tc main_v86) := fun W => (corner5 W).2.2.2.2.2.2.2.1
  have k6_main_v86 : ∀ W : Valuation τ sig (Elt F), StableHlo.after (s6 (F := F)) W (no_index (Proc.devRef .tc main_v86)) = W (Proc.devRef .tc main_v86) := fun W => (corner6 W).2.2.2.2.2.2.1
  have k7_main_v86 : ∀ W : Valuation τ sig (Elt F), StableHlo.after (s7 (F := F)) W (no_index (Proc.devRef .tc main_v86)) = W (Proc.devRef .tc main_v86) := fun W => (corner7 W).2.2.2.2.2.1
  simp only [p_main_v7, p_main_v9, p_main_v11, p_main_v25, p_main_arg0, c0, k1_main_v86, k2_main_v86, k3_main_v86, k4_main_v86, k5_main_v86, k6_main_v86, k7_main_v86]
  rfl

set_option maxHeartbeats 4000000 in
/-- Product 1 after all the stretches, from any state before the prelude: weighted corner 1 of that state's arguments. -/
theorem product1 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v115)
      = Lut.term1 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v31 : ∀ W : Valuation τ sig (Elt F), StableHlo.after (pre71 (F := F)) W (no_index (Proc.devRef .tc main_v31)) = Lut.w100 (W (Proc.devRef .tc main_arg1)) := fun W => (prelude W).2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v31 : ∀ W : Valuation τ sig (Elt F), StableHlo.after (s0 (F := F)) W (no_index (Proc.devRef .tc main_v31)) = W (Proc.devRef .tc main_v31) := fun W => (corner0 W).2.2.2.2.2.1
  have c1 : ∀ W : Valuation τ sig (Elt F), StableHlo.after (s1 (F := F)) W (no_index (Proc.devRef .tc main_v115)) = Lut.weighted (W (Proc.devRef .tc main_v31)) (Lut.cornerAt 1#32 0#32 0#32 (W (Proc.devRef .tc main_arg0)) (W (Proc.devRef .tc main_v7)) (W (Proc.devRef .tc main_v9)) (W (Proc.devRef .tc main_v11))) := fun W => (corner1 W).1
  have k2_main_v115 : ∀ W : Valuation τ sig (Elt F), StableHlo.after (s2 (F := F)) W (no_index (Proc.devRef .tc main_v115)) = W (Proc.devRef .tc main_v115) := fun W => (corner2 W).2.2.2.2.2.2.2.2.2.2.2
  have k3_main_v115 : ∀ W : Valuation τ sig (Elt F), StableHlo.after (s3 (F := F)) W (no_index (Proc.devRef .tc main_v115)) = W (Proc.devRef .tc main_v115) := fun W => (corner3 W).2.2.2.2.2.2.2.2.2.2.1
  have k4_main_v115 : ∀ W : Valuation τ sig (Elt F), StableHlo.after (s4 (F := F)) W (no_index (Proc.devRef .tc main_v115)) = W (Proc.devRef .tc main_v115) := fun W => (corner4 W).2.2.2.2.2.2.2.2.2.1
  have k5_main_v115 : ∀ W : Valuation τ sig (Elt F), StableHlo.after (s5 (F := F)) W (no_index (Proc.devRef .tc main_v115)) = W (Proc.devRef .tc main_v115) := fun W => (corner5 W).2.2.2.2.2.2.2.2.1
  have k6_main_v115 : ∀ W : Valuation τ sig (Elt F), StableHlo.after (s6 (F := F)) W (no_index (Proc.devRef .tc main_v115)) = W (Proc.devRef .tc main_v115) := fun W => (corner6 W).2.2.2.2.2.2.2.1
  have k7_main_v115 : ∀ W : Valuation τ sig (Elt F), StableHlo.after (s7 (F := F)) W (no_index (Proc.devRef .tc main_v115)) = W (Proc.devRef .tc main_v115) := fun W => (corner7 W).2.2.2.2.2.2.1
  simp only [p_main_v7, p_main_v9, p_main_v11, p_main_v31, p_main_arg0, k0_main_arg0, k0_main_v7, k0_main_v9, k0_main_v11, k0_main_v31, c1, k2_main_v115, k3_main_v115, k4_main_v115, k5_main_v115, k6_main_v115, k7_main_v115]
  rfl

set_option maxHeartbeats 4000000 in
/-- Product 2 after all the stretches, from any state before the prelude: weighted corner 2 of that state's arguments. -/
theorem product2 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v144)
      = Lut.term2 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v37 : ∀ W : Valuation τ sig (Elt F), StableHlo.after (pre71 (F := F)) W (no_index (Proc.devRef .tc main_v37)) = Lut.w010 (W (Proc.devRef .tc main_arg1)) := fun W => (prelude W).2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v37 : ∀ W : Valuation τ sig (Elt F), StableHlo.after (s0 (F := F)) W (no_index (Proc.devRef .tc main_v37)) = W (Proc.devRef .tc main_v37) := fun W => (corner0 W).2.2.2.2.2.2.1
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v37 : ∀ W : Valuation τ sig (Elt F), StableHlo.after (s1 (F := F)) W (no_index (Proc.devRef .tc main_v37)) = W (Proc.devRef .tc main_v37) := fun W => (corner1 W).2.2.2.2.2.1
  have c2 : ∀ W : Valuation τ sig (Elt F), StableHlo.after (s2 (F := F)) W (no_index (Proc.devRef .tc main_v144)) = Lut.weighted (W (Proc.devRef .tc main_v37)) (Lut.cornerAt 0#32 1#32 0#32 (W (Proc.devRef .tc main_arg0)) (W (Proc.devRef .tc main_v7)) (W (Proc.devRef .tc main_v9)) (W (Proc.devRef .tc main_v11))) := fun W => (corner2 W).1
  have k3_main_v144 : ∀ W : Valuation τ sig (Elt F), StableHlo.after (s3 (F := F)) W (no_index (Proc.devRef .tc main_v144)) = W (Proc.devRef .tc main_v144) := fun W => (corner3 W).2.2.2.2.2.2.2.2.2.2.2
  have k4_main_v144 : ∀ W : Valuation τ sig (Elt F), StableHlo.after (s4 (F := F)) W (no_index (Proc.devRef .tc main_v144)) = W (Proc.devRef .tc main_v144) := fun W => (corner4 W).2.2.2.2.2.2.2.2.2.2.1
  have k5_main_v144 : ∀ W : Valuation τ sig (Elt F), StableHlo.after (s5 (F := F)) W (no_index (Proc.devRef .tc main_v144)) = W (Proc.devRef .tc main_v144) := fun W => (corner5 W).2.2.2.2.2.2.2.2.2.1
  have k6_main_v144 : ∀ W : Valuation τ sig (Elt F), StableHlo.after (s6 (F := F)) W (no_index (Proc.devRef .tc main_v144)) = W (Proc.devRef .tc main_v144) := fun W => (corner6 W).2.2.2.2.2.2.2.2.1
  have k7_main_v144 : ∀ W : Valuation τ sig (Elt F), StableHlo.after (s7 (F := F)) W (no_index (Proc.devRef .tc main_v144)) = W (Proc.devRef .tc main_v144) := fun W => (corner7 W).2.2.2.2.2.2.2.1
  simp only [p_main_v7, p_main_v9, p_main_v11, p_main_v37, p_main_arg0, k0_main_arg0, k0_main_v7, k0_main_v9, k0_main_v11, k0_main_v37, k1_main_arg0, k1_main_v7, k1_main_v9, k1_main_v11, k1_main_v37, c2, k3_main_v144, k4_main_v144, k5_main_v144, k6_main_v144, k7_main_v144]
  rfl

set_option maxHeartbeats 4000000 in
/-- Product 3 after all the stretches, from any state before the prelude: weighted corner 3 of that state's arguments. -/
theorem product3 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v173)
      = Lut.term3 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v41 : ∀ W : Valuation τ sig (Elt F), StableHlo.after (pre71 (F := F)) W (no_index (Proc.devRef .tc main_v41)) = Lut.w110 (W (Proc.devRef .tc main_arg1)) := fun W => (prelude W).2.2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v41 : ∀ W : Valuation τ sig (Elt F), StableHlo.after (s0 (F := F)) W (no_index (Proc.devRef .tc main_v41)) = W (Proc.devRef .tc main_v41) := fun W => (corner0 W).2.2.2.2.2.2.2.1
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v41 : ∀ W : Valuation τ sig (Elt F), StableHlo.after (s1 (F := F)) W (no_index (Proc.devRef .tc main_v41)) = W (Proc.devRef .tc main_v41) := fun W => (corner1 W).2.2.2.2.2.2.1
  have k2_main_arg0 : ∀ W : Valuation τ sig (Elt F), StableHlo.after (s2 (F := F)) W (no_index (Proc.devRef .tc main_arg0)) = W (Proc.devRef .tc main_arg0) := fun W => (corner2 W).2.1
  have k2_main_v7 : ∀ W : Valuation τ sig (Elt F), StableHlo.after (s2 (F := F)) W (no_index (Proc.devRef .tc main_v7)) = W (Proc.devRef .tc main_v7) := fun W => (corner2 W).2.2.1
  have k2_main_v9 : ∀ W : Valuation τ sig (Elt F), StableHlo.after (s2 (F := F)) W (no_index (Proc.devRef .tc main_v9)) = W (Proc.devRef .tc main_v9) := fun W => (corner2 W).2.2.2.1
  have k2_main_v11 : ∀ W : Valuation τ sig (Elt F), StableHlo.after (s2 (F := F)) W (no_index (Proc.devRef .tc main_v11)) = W (Proc.devRef .tc main_v11) := fun W => (corner2 W).2.2.2.2.1
  have k2_main_v41 : ∀ W : Valuation τ sig (Elt F), StableHlo.after (s2 (F := F)) W (no_index (Proc.devRef .tc main_v41)) = W (Proc.devRef .tc main_v41) := fun W => (corner2 W).2.2.2.2.2.1
  have c3 : ∀ W : Valuation τ sig (Elt F), StableHlo.after (s3 (F := F)) W (no_index (Proc.devRef .tc main_v173)) = Lut.weighted (W (Proc.devRef .tc main_v41)) (Lut.cornerAt 1#32 1#32 0#32 (W (Proc.devRef .tc main_arg0)) (W (Proc.devRef .tc main_v7)) (W (Proc.devRef .tc main_v9)) (W (Proc.devRef .tc main_v11))) := fun W => (corner3 W).1
  have k4_main_v173 : ∀ W : Valuation τ sig (Elt F), StableHlo.after (s4 (F := F)) W (no_index (Proc.devRef .tc main_v173)) = W (Proc.devRef .tc main_v173) := fun W => (corner4 W).2.2.2.2.2.2.2.2.2.2.2
  have k5_main_v173 : ∀ W : Valuation τ sig (Elt F), StableHlo.after (s5 (F := F)) W (no_index (Proc.devRef .tc main_v173)) = W (Proc.devRef .tc main_v173) := fun W => (corner5 W).2.2.2.2.2.2.2.2.2.2.1
  have k6_main_v173 : ∀ W : Valuation τ sig (Elt F), StableHlo.after (s6 (F := F)) W (no_index (Proc.devRef .tc main_v173)) = W (Proc.devRef .tc main_v173) := fun W => (corner6 W).2.2.2.2.2.2.2.2.2.1
  have k7_main_v173 : ∀ W : Valuation τ sig (Elt F), StableHlo.after (s7 (F := F)) W (no_index (Proc.devRef .tc main_v173)) = W (Proc.devRef .tc main_v173) := fun W => (corner7 W).2.2.2.2.2.2.2.2.1
  simp only [p_main_v7, p_main_v9, p_main_v11, p_main_v41, p_main_arg0, k0_main_arg0, k0_main_v7, k0_main_v9, k0_main_v11, k0_main_v41, k1_main_arg0, k1_main_v7, k1_main_v9, k1_main_v11, k1_main_v41, k2_main_arg0, k2_main_v7, k2_main_v9, k2_main_v11, k2_main_v41, c3, k4_main_v173, k5_main_v173, k6_main_v173, k7_main_v173]
  rfl

set_option maxHeartbeats 4000000 in
/-- Product 4 after all the stretches, from any state before the prelude: weighted corner 4 of that state's arguments. -/
theorem product4 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v202)
      = Lut.term4 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v47 : ∀ W : Valuation τ sig (Elt F), StableHlo.after (pre71 (F := F)) W (no_index (Proc.devRef .tc main_v47)) = Lut.w001 (W (Proc.devRef .tc main_arg1)) := fun W => (prelude W).2.2.2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v47 : ∀ W : Valuation τ sig (Elt F), StableHlo.after (s0 (F := F)) W (no_index (Proc.devRef .tc main_v47)) = W (Proc.devRef .tc main_v47) := fun W => (corner0 W).2.2.2.2.2.2.2.2.1
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v47 : ∀ W : Valuation τ sig (Elt F), StableHlo.after (s1 (F := F)) W (no_index (Proc.devRef .tc main_v47)) = W (Proc.devRef .tc main_v47) := fun W => (corner1 W).2.2.2.2.2.2.2.1
  have k2_main_arg0 : ∀ W : Valuation τ sig (Elt F), StableHlo.after (s2 (F := F)) W (no_index (Proc.devRef .tc main_arg0)) = W (Proc.devRef .tc main_arg0) := fun W => (corner2 W).2.1
  have k2_main_v7 : ∀ W : Valuation τ sig (Elt F), StableHlo.after (s2 (F := F)) W (no_index (Proc.devRef .tc main_v7)) = W (Proc.devRef .tc main_v7) := fun W => (corner2 W).2.2.1
  have k2_main_v9 : ∀ W : Valuation τ sig (Elt F), StableHlo.after (s2 (F := F)) W (no_index (Proc.devRef .tc main_v9)) = W (Proc.devRef .tc main_v9) := fun W => (corner2 W).2.2.2.1
  have k2_main_v11 : ∀ W : Valuation τ sig (Elt F), StableHlo.after (s2 (F := F)) W (no_index (Proc.devRef .tc main_v11)) = W (Proc.devRef .tc main_v11) := fun W => (corner2 W).2.2.2.2.1
  have k2_main_v47 : ∀ W : Valuation τ sig (Elt F), StableHlo.after (s2 (F := F)) W (no_index (Proc.devRef .tc main_v47)) = W (Proc.devRef .tc main_v47) := fun W => (corner2 W).2.2.2.2.2.2.1
  have k3_main_arg0 : ∀ W : Valuation τ sig (Elt F), StableHlo.after (s3 (F := F)) W (no_index (Proc.devRef .tc main_arg0)) = W (Proc.devRef .tc main_arg0) := fun W => (corner3 W).2.1
  have k3_main_v7 : ∀ W : Valuation τ sig (Elt F), StableHlo.after (s3 (F := F)) W (no_index (Proc.devRef .tc main_v7)) = W (Proc.devRef .tc main_v7) := fun W => (corner3 W).2.2.1
  have k3_main_v9 : ∀ W : Valuation τ sig (Elt F), StableHlo.after (s3 (F := F)) W (no_index (Proc.devRef .tc main_v9)) = W (Proc.devRef .tc main_v9) := fun W => (corner3 W).2.2.2.1
  have k3_main_v11 : ∀ W : Valuation τ sig (Elt F), StableHlo.after (s3 (F := F)) W (no_index (Proc.devRef .tc main_v11)) = W (Proc.devRef .tc main_v11) := fun W => (corner3 W).2.2.2.2.1
  have k3_main_v47 : ∀ W : Valuation τ sig (Elt F), StableHlo.after (s3 (F := F)) W (no_index (Proc.devRef .tc main_v47)) = W (Proc.devRef .tc main_v47) := fun W => (corner3 W).2.2.2.2.2.1
  have c4 : ∀ W : Valuation τ sig (Elt F), StableHlo.after (s4 (F := F)) W (no_index (Proc.devRef .tc main_v202)) = Lut.weighted (W (Proc.devRef .tc main_v47)) (Lut.cornerAt 0#32 0#32 1#32 (W (Proc.devRef .tc main_arg0)) (W (Proc.devRef .tc main_v7)) (W (Proc.devRef .tc main_v9)) (W (Proc.devRef .tc main_v11))) := fun W => (corner4 W).1
  have k5_main_v202 : ∀ W : Valuation τ sig (Elt F), StableHlo.after (s5 (F := F)) W (no_index (Proc.devRef .tc main_v202)) = W (Proc.devRef .tc main_v202) := fun W => (corner5 W).2.2.2.2.2.2.2.2.2.2.2
  have k6_main_v202 : ∀ W : Valuation τ sig (Elt F), StableHlo.after (s6 (F := F)) W (no_index (Proc.devRef .tc main_v202)) = W (Proc.devRef .tc main_v202) := fun W => (corner6 W).2.2.2.2.2.2.2.2.2.2.1
  have k7_main_v202 : ∀ W : Valuation τ sig (Elt F), StableHlo.after (s7 (F := F)) W (no_index (Proc.devRef .tc main_v202)) = W (Proc.devRef .tc main_v202) := fun W => (corner7 W).2.2.2.2.2.2.2.2.2.1
  simp only [p_main_v7, p_main_v9, p_main_v11, p_main_v47, p_main_arg0, k0_main_arg0, k0_main_v7, k0_main_v9, k0_main_v11, k0_main_v47, k1_main_arg0, k1_main_v7, k1_main_v9, k1_main_v11, k1_main_v47, k2_main_arg0, k2_main_v7, k2_main_v9, k2_main_v11, k2_main_v47, k3_main_arg0, k3_main_v7, k3_main_v9, k3_main_v11, k3_main_v47, c4, k5_main_v202, k6_main_v202, k7_main_v202]
  rfl

set_option maxHeartbeats 4000000 in
/-- Product 5 after all the stretches, from any state before the prelude: weighted corner 5 of that state's arguments. -/
theorem product5 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v231)
      = Lut.term5 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v51 : ∀ W : Valuation τ sig (Elt F), StableHlo.after (pre71 (F := F)) W (no_index (Proc.devRef .tc main_v51)) = Lut.w101 (W (Proc.devRef .tc main_arg1)) := fun W => (prelude W).2.2.2.2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v51 : ∀ W : Valuation τ sig (Elt F), StableHlo.after (s0 (F := F)) W (no_index (Proc.devRef .tc main_v51)) = W (Proc.devRef .tc main_v51) := fun W => (corner0 W).2.2.2.2.2.2.2.2.2.1
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v51 : ∀ W : Valuation τ sig (Elt F), StableHlo.after (s1 (F := F)) W (no_index (Proc.devRef .tc main_v51)) = W (Proc.devRef .tc main_v51) := fun W => (corner1 W).2.2.2.2.2.2.2.2.1
  have k2_main_arg0 : ∀ W : Valuation τ sig (Elt F), StableHlo.after (s2 (F := F)) W (no_index (Proc.devRef .tc main_arg0)) = W (Proc.devRef .tc main_arg0) := fun W => (corner2 W).2.1
  have k2_main_v7 : ∀ W : Valuation τ sig (Elt F), StableHlo.after (s2 (F := F)) W (no_index (Proc.devRef .tc main_v7)) = W (Proc.devRef .tc main_v7) := fun W => (corner2 W).2.2.1
  have k2_main_v9 : ∀ W : Valuation τ sig (Elt F), StableHlo.after (s2 (F := F)) W (no_index (Proc.devRef .tc main_v9)) = W (Proc.devRef .tc main_v9) := fun W => (corner2 W).2.2.2.1
  have k2_main_v11 : ∀ W : Valuation τ sig (Elt F), StableHlo.after (s2 (F := F)) W (no_index (Proc.devRef .tc main_v11)) = W (Proc.devRef .tc main_v11) := fun W => (corner2 W).2.2.2.2.1
  have k2_main_v51 : ∀ W : Valuation τ sig (Elt F), StableHlo.after (s2 (F := F)) W (no_index (Proc.devRef .tc main_v51)) = W (Proc.devRef .tc main_v51) := fun W => (corner2 W).2.2.2.2.2.2.2.1
  have k3_main_arg0 : ∀ W : Valuation τ sig (Elt F), StableHlo.after (s3 (F := F)) W (no_index (Proc.devRef .tc main_arg0)) = W (Proc.devRef .tc main_arg0) := fun W => (corner3 W).2.1
  have k3_main_v7 : ∀ W : Valuation τ sig (Elt F), StableHlo.after (s3 (F := F)) W (no_index (Proc.devRef .tc main_v7)) = W (Proc.devRef .tc main_v7) := fun W => (corner3 W).2.2.1
  have k3_main_v9 : ∀ W : Valuation τ sig (Elt F), StableHlo.after (s3 (F := F)) W (no_index (Proc.devRef .tc main_v9)) = W (Proc.devRef .tc main_v9) := fun W => (corner3 W).2.2.2.1
  have k3_main_v11 : ∀ W : Valuation τ sig (Elt F), StableHlo.after (s3 (F := F)) W (no_index (Proc.devRef .tc main_v11)) = W (Proc.devRef .tc main_v11) := fun W => (corner3 W).2.2.2.2.1
  have k3_main_v51 : ∀ W : Valuation τ sig (Elt F), StableHlo.after (s3 (F := F)) W (no_index (Proc.devRef .tc main_v51)) = W (Proc.devRef .tc main_v51) := fun W => (corner3 W).2.2.2.2.2.2.1
  have k4_main_arg0 : ∀ W : Valuation τ sig (Elt F), StableHlo.after (s4 (F := F)) W (no_index (Proc.devRef .tc main_arg0)) = W (Proc.devRef .tc main_arg0) := fun W => (corner4 W).2.1
  have k4_main_v7 : ∀ W : Valuation τ sig (Elt F), StableHlo.after (s4 (F := F)) W (no_index (Proc.devRef .tc main_v7)) = W (Proc.devRef .tc main_v7) := fun W => (corner4 W).2.2.1
  have k4_main_v9 : ∀ W : Valuation τ sig (Elt F), StableHlo.after (s4 (F := F)) W (no_index (Proc.devRef .tc main_v9)) = W (Proc.devRef .tc main_v9) := fun W => (corner4 W).2.2.2.1
  have k4_main_v11 : ∀ W : Valuation τ sig (Elt F), StableHlo.after (s4 (F := F)) W (no_index (Proc.devRef .tc main_v11)) = W (Proc.devRef .tc main_v11) := fun W => (corner4 W).2.2.2.2.1
  have k4_main_v51 : ∀ W : Valuation τ sig (Elt F), StableHlo.after (s4 (F := F)) W (no_index (Proc.devRef .tc main_v51)) = W (Proc.devRef .tc main_v51) := fun W => (corner4 W).2.2.2.2.2.1
  have c5 : ∀ W : Valuation τ sig (Elt F), StableHlo.after (s5 (F := F)) W (no_index (Proc.devRef .tc main_v231)) = Lut.weighted (W (Proc.devRef .tc main_v51)) (Lut.cornerAt 1#32 0#32 1#32 (W (Proc.devRef .tc main_arg0)) (W (Proc.devRef .tc main_v7)) (W (Proc.devRef .tc main_v9)) (W (Proc.devRef .tc main_v11))) := fun W => (corner5 W).1
  have k6_main_v231 : ∀ W : Valuation τ sig (Elt F), StableHlo.after (s6 (F := F)) W (no_index (Proc.devRef .tc main_v231)) = W (Proc.devRef .tc main_v231) := fun W => (corner6 W).2.2.2.2.2.2.2.2.2.2.2
  have k7_main_v231 : ∀ W : Valuation τ sig (Elt F), StableHlo.after (s7 (F := F)) W (no_index (Proc.devRef .tc main_v231)) = W (Proc.devRef .tc main_v231) := fun W => (corner7 W).2.2.2.2.2.2.2.2.2.2.1
  simp only [p_main_v7, p_main_v9, p_main_v11, p_main_v51, p_main_arg0, k0_main_arg0, k0_main_v7, k0_main_v9, k0_main_v11, k0_main_v51, k1_main_arg0, k1_main_v7, k1_main_v9, k1_main_v11, k1_main_v51, k2_main_arg0, k2_main_v7, k2_main_v9, k2_main_v11, k2_main_v51, k3_main_arg0, k3_main_v7, k3_main_v9, k3_main_v11, k3_main_v51, k4_main_arg0, k4_main_v7, k4_main_v9, k4_main_v11, k4_main_v51, c5, k6_main_v231, k7_main_v231]
  rfl

set_option maxHeartbeats 4000000 in
/-- Product 6 after all the stretches, from any state before the prelude: weighted corner 6 of that state's arguments. -/
theorem product6 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v260)
      = Lut.term6 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v55 : ∀ W : Valuation τ sig (Elt F), StableHlo.after (pre71 (F := F)) W (no_index (Proc.devRef .tc main_v55)) = Lut.w011 (W (Proc.devRef .tc main_arg1)) := fun W => (prelude W).2.2.2.2.2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v55 : ∀ W : Valuation τ sig (Elt F), StableHlo.after (s0 (F := F)) W (no_index (Proc.devRef .tc main_v55)) = W (Proc.devRef .tc main_v55) := fun W => (corner0 W).2.2.2.2.2.2.2.2.2.2.1
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v55 : ∀ W : Valuation τ sig (Elt F), StableHlo.after (s1 (F := F)) W (no_index (Proc.devRef .tc main_v55)) = W (Proc.devRef .tc main_v55) := fun W => (corner1 W).2.2.2.2.2.2.2.2.2.1
  have k2_main_arg0 : ∀ W : Valuation τ sig (Elt F), StableHlo.after (s2 (F := F)) W (no_index (Proc.devRef .tc main_arg0)) = W (Proc.devRef .tc main_arg0) := fun W => (corner2 W).2.1
  have k2_main_v7 : ∀ W : Valuation τ sig (Elt F), StableHlo.after (s2 (F := F)) W (no_index (Proc.devRef .tc main_v7)) = W (Proc.devRef .tc main_v7) := fun W => (corner2 W).2.2.1
  have k2_main_v9 : ∀ W : Valuation τ sig (Elt F), StableHlo.after (s2 (F := F)) W (no_index (Proc.devRef .tc main_v9)) = W (Proc.devRef .tc main_v9) := fun W => (corner2 W).2.2.2.1
  have k2_main_v11 : ∀ W : Valuation τ sig (Elt F), StableHlo.after (s2 (F := F)) W (no_index (Proc.devRef .tc main_v11)) = W (Proc.devRef .tc main_v11) := fun W => (corner2 W).2.2.2.2.1
  have k2_main_v55 : ∀ W : Valuation τ sig (Elt F), StableHlo.after (s2 (F := F)) W (no_index (Proc.devRef .tc main_v55)) = W (Proc.devRef .tc main_v55) := fun W => (corner2 W).2.2.2.2.2.2.2.2.1
  have k3_main_arg0 : ∀ W : Valuation τ sig (Elt F), StableHlo.after (s3 (F := F)) W (no_index (Proc.devRef .tc main_arg0)) = W (Proc.devRef .tc main_arg0) := fun W => (corner3 W).2.1
  have k3_main_v7 : ∀ W : Valuation τ sig (Elt F), StableHlo.after (s3 (F := F)) W (no_index (Proc.devRef .tc main_v7)) = W (Proc.devRef .tc main_v7) := fun W => (corner3 W).2.2.1
  have k3_main_v9 : ∀ W : Valuation τ sig (Elt F), StableHlo.after (s3 (F := F)) W (no_index (Proc.devRef .tc main_v9)) = W (Proc.devRef .tc main_v9) := fun W => (corner3 W).2.2.2.1
  have k3_main_v11 : ∀ W : Valuation τ sig (Elt F), StableHlo.after (s3 (F := F)) W (no_index (Proc.devRef .tc main_v11)) = W (Proc.devRef .tc main_v11) := fun W => (corner3 W).2.2.2.2.1
  have k3_main_v55 : ∀ W : Valuation τ sig (Elt F), StableHlo.after (s3 (F := F)) W (no_index (Proc.devRef .tc main_v55)) = W (Proc.devRef .tc main_v55) := fun W => (corner3 W).2.2.2.2.2.2.2.1
  have k4_main_arg0 : ∀ W : Valuation τ sig (Elt F), StableHlo.after (s4 (F := F)) W (no_index (Proc.devRef .tc main_arg0)) = W (Proc.devRef .tc main_arg0) := fun W => (corner4 W).2.1
  have k4_main_v7 : ∀ W : Valuation τ sig (Elt F), StableHlo.after (s4 (F := F)) W (no_index (Proc.devRef .tc main_v7)) = W (Proc.devRef .tc main_v7) := fun W => (corner4 W).2.2.1
  have k4_main_v9 : ∀ W : Valuation τ sig (Elt F), StableHlo.after (s4 (F := F)) W (no_index (Proc.devRef .tc main_v9)) = W (Proc.devRef .tc main_v9) := fun W => (corner4 W).2.2.2.1
  have k4_main_v11 : ∀ W : Valuation τ sig (Elt F), StableHlo.after (s4 (F := F)) W (no_index (Proc.devRef .tc main_v11)) = W (Proc.devRef .tc main_v11) := fun W => (corner4 W).2.2.2.2.1
  have k4_main_v55 : ∀ W : Valuation τ sig (Elt F), StableHlo.after (s4 (F := F)) W (no_index (Proc.devRef .tc main_v55)) = W (Proc.devRef .tc main_v55) := fun W => (corner4 W).2.2.2.2.2.2.1
  have k5_main_arg0 : ∀ W : Valuation τ sig (Elt F), StableHlo.after (s5 (F := F)) W (no_index (Proc.devRef .tc main_arg0)) = W (Proc.devRef .tc main_arg0) := fun W => (corner5 W).2.1
  have k5_main_v7 : ∀ W : Valuation τ sig (Elt F), StableHlo.after (s5 (F := F)) W (no_index (Proc.devRef .tc main_v7)) = W (Proc.devRef .tc main_v7) := fun W => (corner5 W).2.2.1
  have k5_main_v9 : ∀ W : Valuation τ sig (Elt F), StableHlo.after (s5 (F := F)) W (no_index (Proc.devRef .tc main_v9)) = W (Proc.devRef .tc main_v9) := fun W => (corner5 W).2.2.2.1
  have k5_main_v11 : ∀ W : Valuation τ sig (Elt F), StableHlo.after (s5 (F := F)) W (no_index (Proc.devRef .tc main_v11)) = W (Proc.devRef .tc main_v11) := fun W => (corner5 W).2.2.2.2.1
  have k5_main_v55 : ∀ W : Valuation τ sig (Elt F), StableHlo.after (s5 (F := F)) W (no_index (Proc.devRef .tc main_v55)) = W (Proc.devRef .tc main_v55) := fun W => (corner5 W).2.2.2.2.2.1
  have c6 : ∀ W : Valuation τ sig (Elt F), StableHlo.after (s6 (F := F)) W (no_index (Proc.devRef .tc main_v260)) = Lut.weighted (W (Proc.devRef .tc main_v55)) (Lut.cornerAt 0#32 1#32 1#32 (W (Proc.devRef .tc main_arg0)) (W (Proc.devRef .tc main_v7)) (W (Proc.devRef .tc main_v9)) (W (Proc.devRef .tc main_v11))) := fun W => (corner6 W).1
  have k7_main_v260 : ∀ W : Valuation τ sig (Elt F), StableHlo.after (s7 (F := F)) W (no_index (Proc.devRef .tc main_v260)) = W (Proc.devRef .tc main_v260) := fun W => (corner7 W).2.2.2.2.2.2.2.2.2.2.2
  simp only [p_main_v7, p_main_v9, p_main_v11, p_main_v55, p_main_arg0, k0_main_arg0, k0_main_v7, k0_main_v9, k0_main_v11, k0_main_v55, k1_main_arg0, k1_main_v7, k1_main_v9, k1_main_v11, k1_main_v55, k2_main_arg0, k2_main_v7, k2_main_v9, k2_main_v11, k2_main_v55, k3_main_arg0, k3_main_v7, k3_main_v9, k3_main_v11, k3_main_v55, k4_main_arg0, k4_main_v7, k4_main_v9, k4_main_v11, k4_main_v55, k5_main_arg0, k5_main_v7, k5_main_v9, k5_main_v11, k5_main_v55, c6, k7_main_v260]
  rfl

set_option maxHeartbeats 4000000 in
/-- Product 7 after all the stretches, from any state before the prelude: weighted corner 7 of that state's arguments. -/
theorem product7 (V : Valuation τ sig (Elt F)) :
    (StableHlo.after (s7 (F := F)) (StableHlo.after (s6 (F := F)) (StableHlo.after (s5 (F := F)) (StableHlo.after (s4 (F := F)) (StableHlo.after (s3 (F := F)) (StableHlo.after (s2 (F := F)) (StableHlo.after (s1 (F := F)) (StableHlo.after (s0 (F := F)) (StableHlo.after (pre71 (F := F)) V))))))))) (Proc.devRef .tc main_v289)
      = Lut.term7 (V (Proc.devRef .tc main_arg0)) (V (Proc.devRef .tc main_arg1)) := by
  have p_main_v7 : ∀ W : Valuation τ sig (Elt F), StableHlo.after (pre71 (F := F)) W (no_index (Proc.devRef .tc main_v7)) = Lut.cellR (W (Proc.devRef .tc main_arg1)) := fun W => (prelude W).1
  have p_main_v9 : ∀ W : Valuation τ sig (Elt F), StableHlo.after (pre71 (F := F)) W (no_index (Proc.devRef .tc main_v9)) = Lut.cellG (W (Proc.devRef .tc main_arg1)) := fun W => (prelude W).2.1
  have p_main_v11 : ∀ W : Valuation τ sig (Elt F), StableHlo.after (pre71 (F := F)) W (no_index (Proc.devRef .tc main_v11)) = Lut.cellB (W (Proc.devRef .tc main_arg1)) := fun W => (prelude W).2.2.1
  have p_main_v57 : ∀ W : Valuation τ sig (Elt F), StableHlo.after (pre71 (F := F)) W (no_index (Proc.devRef .tc main_v57)) = Lut.w111 (W (Proc.devRef .tc main_arg1)) := fun W => (prelude W).2.2.2.2.2.2.2.2.2.2.1
  have p_main_arg0 : ∀ W : Valuation τ sig (Elt F), StableHlo.after (pre71 (F := F)) W (no_index (Proc.devRef .tc main_arg0)) = W (Proc.devRef .tc main_arg0) := fun W => (prelude W).2.2.2.2.2.2.2.2.2.2.2
  have k0_main_arg0 : ∀ W : Valuation τ sig (Elt F), StableHlo.after (s0 (F := F)) W (no_index (Proc.devRef .tc main_arg0)) = W (Proc.devRef .tc main_arg0) := fun W => (corner0 W).2.1
  have k0_main_v7 : ∀ W : Valuation τ sig (Elt F), StableHlo.after (s0 (F := F)) W (no_index (Proc.devRef .tc main_v7)) = W (Proc.devRef .tc main_v7) := fun W => (corner0 W).2.2.1
  have k0_main_v9 : ∀ W : Valuation τ sig (Elt F), StableHlo.after (s0 (F := F)) W (no_index (Proc.devRef .tc main_v9)) = W (Proc.devRef .tc main_v9) := fun W => (corner0 W).2.2.2.1
  have k0_main_v11 : ∀ W : Valuation τ sig (Elt F), StableHlo.after (s0 (F := F)) W (no_index (Proc.devRef .tc main_v11)) = W (Proc.devRef .tc main_v11) := fun W => (corner0 W).2.2.2.2.1
  have k0_main_v57 : ∀ W : Valuation τ sig (Elt F), StableHlo.after (s0 (F := F)) W (no_index (Proc.devRef .tc main_v57)) = W (Proc.devRef .tc main_v57) := fun W => (corner0 W).2.2.2.2.2.2.2.2.2.2.2
  have k1_main_arg0 : ∀ W : Valuation τ sig (Elt F), StableHlo.after (s1 (F := F)) W (no_index (Proc.devRef .tc main_arg0)) = W (Proc.devRef .tc main_arg0) := fun W => (corner1 W).2.1
  have k1_main_v7 : ∀ W : Valuation τ sig (Elt F), StableHlo.after (s1 (F := F)) W (no_index (Proc.devRef .tc main_v7)) = W (Proc.devRef .tc main_v7) := fun W => (corner1 W).2.2.1
  have k1_main_v9 : ∀ W : Valuation τ sig (Elt F), StableHlo.after (s1 (F := F)) W (no_index (Proc.devRef .tc main_v9)) = W (Proc.devRef .tc main_v9) := fun W => (corner1 W).2.2.2.1
  have k1_main_v11 : ∀ W : Valuation τ sig (Elt F), StableHlo.after (s1 (F := F)) W (no_index (Proc.devRef .tc main_v11)) = W (Proc.devRef .tc main_v11) := fun W => (corner1 W).2.2.2.2.1
  have k1_main_v57 : ∀ W : Valuation τ sig (Elt F), StableHlo.after (s1 (F := F)) W (no_index (Proc.devRef .tc main_v57)) = W (Proc.devRef .tc main_v57) := fun W => (corner1 W).2.2.2.2.2.2.2.2.2.2.1
  have k2_main_arg0 : ∀ W : Valuation τ sig (Elt F), StableHlo.after (s2 (F := F)) W (no_index (Proc.devRef .tc main_arg0)) = W (Proc.devRef .tc main_arg0) := fun W => (corner2 W).2.1
  have k2_main_v7 : ∀ W : Valuation τ sig (Elt F), StableHlo.after (s2 (F := F)) W (no_index (Proc.devRef .tc main_v7)) = W (Proc.devRef .tc main_v7) := fun W => (corner2 W).2.2.1
  have k2_main_v9 : ∀ W : Valuation τ sig (Elt F), StableHlo.after (s2 (F := F)) W (no_index (Proc.devRef .tc main_v9)) = W (Proc.devRef .tc main_v9) := fun W => (corner2 W).2.2.2.1
  have k2_main_v11 : ∀ W : Valuation τ sig (Elt F), StableHlo.after (s2 (F := F)) W (no_index (Proc.devRef .tc main_v11)) = W (Proc.devRef .tc main_v11) := fun W => (corner2 W).2.2.2.2.1
  have k2_main_v57 : ∀ W : Valuation τ sig (Elt F), StableHlo.after (s2 (F := F)) W (no_index (Proc.devRef .tc main_v57)) = W (Proc.devRef .tc main_v57) := fun W => (corner2 W).2.2.2.2.2.2.2.2.2.1
  have k3_main_arg0 : ∀ W : Valuation τ sig (Elt F), StableHlo.after (s3 (F := F)) W (no_index (Proc.devRef .tc main_arg0)) = W (Proc.devRef .tc main_arg0) := fun W => (corner3 W).2.1
  have k3_main_v7 : ∀ W : Valuation τ sig (Elt F), StableHlo.after (s3 (F := F)) W (no_index (Proc.devRef .tc main_v7)) = W (Proc.devRef .tc main_v7) := fun W => (corner3 W).2.2.1
  have k3_main_v9 : ∀ W : Valuation τ sig (Elt F), StableHlo.after (s3 (F := F)) W (no_index (Proc.devRef .tc main_v9)) = W (Proc.devRef .tc main_v9) := fun W => (corner3 W).2.2.2.1
  have k3_main_v11 : ∀ W : Valuation τ sig (Elt F), StableHlo.after (s3 (F := F)) W (no_index (Proc.devRef .tc main_v11)) = W (Proc.devRef .tc main_v11) := fun W => (corner3 W).2.2.2.2.1
  have k3_main_v57 : ∀ W : Valuation τ sig (Elt F), StableHlo.after (s3 (F := F)) W (no_index (Proc.devRef .tc main_v57)) = W (Proc.devRef .tc main_v57) := fun W => (corner3 W).2.2.2.2.2.2.2.2.1
  have k4_main_arg0 : ∀ W : Valuation τ sig (Elt F), StableHlo.after (s4 (F := F)) W (no_index (Proc.devRef .tc main_arg0)) = W (Proc.devRef .tc main_arg0) := fun W => (corner4 W).2.1
  have k4_main_v7 : ∀ W : Valuation τ sig (Elt F), StableHlo.after (s4 (F := F)) W (no_index (Proc.devRef .tc main_v7)) = W (Proc.devRef .tc main_v7) := fun W => (corner4 W).2.2.1
  have k4_main_v9 : ∀ W : Valuation τ sig (Elt F), StableHlo.after (s4 (F := F)) W (no_index (Proc.devRef .tc main_v9)) = W (Proc.devRef .tc main_v9) := fun W => (corner4 W).2.2.2.1
  have k4_main_v11 : ∀ W : Valuation τ sig (Elt F), StableHlo.after (s4 (F := F)) W (no_index (Proc.devRef .tc main_v11)) = W (Proc.devRef .tc main_v11) := fun W => (corner4 W).2.2.2.2.1
  have k4_main_v57 : ∀ W : Valuation τ sig (Elt F), StableHlo.after (s4 (F := F)) W (no_index (Proc.devRef .tc main_v57)) = W (Proc.devRef .tc main_v57) := fun W => (corner4 W).2.2.2.2.2.2.2.1
  have k5_main_arg0 : ∀ W : Valuation τ sig (Elt F), StableHlo.after (s5 (F := F)) W (no_index (Proc.devRef .tc main_arg0)) = W (Proc.devRef .tc main_arg0) := fun W => (corner5 W).2.1
  have k5_main_v7 : ∀ W : Valuation τ sig (Elt F), StableHlo.after (s5 (F := F)) W (no_index (Proc.devRef .tc main_v7)) = W (Proc.devRef .tc main_v7) := fun W => (corner5 W).2.2.1
  have k5_main_v9 : ∀ W : Valuation τ sig (Elt F), StableHlo.after (s5 (F := F)) W (no_index (Proc.devRef .tc main_v9)) = W (Proc.devRef .tc main_v9) := fun W => (corner5 W).2.2.2.1
  have k5_main_v11 : ∀ W : Valuation τ sig (Elt F), StableHlo.after (s5 (F := F)) W (no_index (Proc.devRef .tc main_v11)) = W (Proc.devRef .tc main_v11) := fun W => (corner5 W).2.2.2.2.1
  have k5_main_v57 : ∀ W : Valuation τ sig (Elt F), StableHlo.after (s5 (F := F)) W (no_index (Proc.devRef .tc main_v57)) = W (Proc.devRef .tc main_v57) := fun W => (corner5 W).2.2.2.2.2.2.1
  have k6_main_arg0 : ∀ W : Valuation τ sig (Elt F), StableHlo.after (s6 (F := F)) W (no_index (Proc.devRef .tc main_arg0)) = W (Proc.devRef .tc main_arg0) := fun W => (corner6 W).2.1
  have k6_main_v7 : ∀ W : Valuation τ sig (Elt F), StableHlo.after (s6 (F := F)) W (no_index (Proc.devRef .tc main_v7)) = W (Proc.devRef .tc main_v7) := fun W => (corner6 W).2.2.1
  have k6_main_v9 : ∀ W : Valuation τ sig (Elt F), StableHlo.after (s6 (F := F)) W (no_index (Proc.devRef .tc main_v9)) = W (Proc.devRef .tc main_v9) := fun W => (corner6 W).2.2.2.1
  have k6_main_v11 : ∀ W : Valuation τ sig (Elt F), StableHlo.after (s6 (F := F)) W (no_index (Proc.devRef .tc main_v11)) = W (Proc.devRef .tc main_v11) := fun W => (corner6 W).2.2.2.2.1
  have k6_main_v57 : ∀ W : Valuation τ sig (Elt F), StableHlo.after (s6 (F := F)) W (no_index (Proc.devRef .tc main_v57)) = W (Proc.devRef .tc main_v57) := fun W => (corner6 W).2.2.2.2.2.1
  have c7 : ∀ W : Valuation τ sig (Elt F), StableHlo.after (s7 (F := F)) W (no_index (Proc.devRef .tc main_v289)) = Lut.weighted (W (Proc.devRef .tc main_v57)) (Lut.cornerAt 1#32 1#32 1#32 (W (Proc.devRef .tc main_arg0)) (W (Proc.devRef .tc main_v7)) (W (Proc.devRef .tc main_v9)) (W (Proc.devRef .tc main_v11))) := fun W => (corner7 W).1
  simp only [p_main_v7, p_main_v9, p_main_v11, p_main_v57, p_main_arg0, k0_main_arg0, k0_main_v7, k0_main_v9, k0_main_v11, k0_main_v57, k1_main_arg0, k1_main_v7, k1_main_v9, k1_main_v11, k1_main_v57, k2_main_arg0, k2_main_v7, k2_main_v9, k2_main_v11, k2_main_v57, k3_main_arg0, k3_main_v7, k3_main_v9, k3_main_v11, k3_main_v57, k4_main_arg0, k4_main_v7, k4_main_v9, k4_main_v11, k4_main_v57, k5_main_arg0, k5_main_v7, k5_main_v9, k5_main_v11, k5_main_v57, k6_main_arg0, k6_main_v7, k6_main_v9, k6_main_v11, k6_main_v57, c7]
  rfl

variable (m : (ℓ : Loc nD τ sig) → Buf (Elt F) ℓ)

set_option maxHeartbeats 4000000 in
/-- The array the region stages, as the host operations leave it: the eight weighted corners of the launched table and
    image batch, each given a leading unit axis, concatenated along it, the channel and batch axes merged. -/
theorem V_stack (c : Dev nD) :
    V m c main_v299
      = shapeCast S8x24x1024x1024 (concatenate S8x3x8x1024x1024 0
          [⟨S1x3x8x1024x1024, broadcastInDim S1x3x8x1024x1024 ![1, 2, 3, 4] bcast_S3x8x1024x1024_S1x3x8x1024x1024_1_2_3_4 (Lut.term0 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term1 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term2 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term3 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term4 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term5 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term6 (m ((c : Thread nD τ).loc main_arg0)) (m ((c : Thread nD τ).loc main_arg1)))⟩,
           ⟨S1x3x8x1024x1024, broadcastInDim S1x3x8x1024x1024 ![1, 2, 3, 4] bcast_S3x8x1024x1024_S1x3x8x1024x1024_1_2_3_4 (Lut.term7 (m ((c : Thread nD τ).loc main_arg0)) (m ((c : Thread nD τ).loc main_arg1)))⟩]
          concatenates_S1x3x8x1024x1024_S1x3x8x1024x1024_S1x3x8x1024x1024_S1x3x8x1024x1024_S1x3x8x1024x1024_S1x3x8x1024x1024_S1x3x8x1024x1024_S1x3x8x1024x1024_S8x3x8x1024x1024_d0)
        shapeCasts_S8x3x8x1024x1024_S8x24x1024x1024 := by
  show StableHlo.after hostOps0 (fun b => m (c, b)) (Proc.devRef .tc main_v299) = _
  rw [staged_split, product0, product1, product2, product3, product4, product5, product6, product7]

end Cert.KernelIdeal.Around

end
-- ==== Proof.KernelIdealOut.lean ====
/-
  The kernel program's result.

  After the region the program reshapes the array the region wrote, [24, 1024, 1024], to [3, 8, 1024, 1024] and swaps
  the channel and batch axes.  The region's array is the slab sum of the stacked array, the stacked array is the stack
  of the eight weighted corners, and the slab sum of a stack is the sum of what was stacked: so the result buffer holds
  the transposed left-to-right sum of the eight weighted corners — the lookup — of the arguments as launched.
-/
import proofs.«167662_j20830591385730_2_alg».proof.Proof.KernelIdealArgs
import proofs.«167662_j20830591385730_2_alg».proof.Proof.KernelIdealValue
import proofs.«167662_j20830591385730_2_alg».proof.Proof.KernelIdealRead
import proofs.«167662_j20830591385730_2_alg».proof.Proof.KernelIdealLut
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The program's result buffer after the two trailing operations: the lookup of the launched arguments. -/
theorem out_lookup (c : Dev nD) :
    Pipeline.afterTail₀ cfgs (dats m) 0 (V0 m) [hostOps1] c main_v302
      = Lut.lookup (m ((c : Thread nD τ).loc main_arg0)) (m ((c : Thread nD τ).loc main_arg1)) := by
  have hstack := V_stack m c
  unfold Pipeline.afterTail₀
  show StableHlo.after hostOps1 _ (Proc.devRef .tc main_v302) = _
  dsimp only [hostOps1]
  after_results
  have e : Pipeline.withArrays (cfgs 0).spec c (V0 m c) (fun w => (dats m 0 c).arrAt w (cfgs 0).N) (Proc.devRef .tc main_v300)
      = summed (V m c main_v299) :=
    (Pipeline.withArrays_arr spec0 launch0.win.arr_inj c (V0 m c) (fun w => (dats m 0 c).arrAt w cfg0.N) 1).trans (final1 m c)
  unfold Lut.lookup
  refine congrArg (fun X => transpose S8x3x1024x1024 [1, 0, 2, 3] X transposes_S3x8x1024x1024_S8x3x1024x1024_1_0_2_3) ?_
  funext i
  show shapeCast S3x8x1024x1024 (Pipeline.withArrays (cfgs 0).spec c (V0 m c) (fun w => (dats m 0 c).arrAt w (cfgs 0).N) (Proc.devRef .tc main_v300)) shapeCasts_S24x1024x1024_S3x8x1024x1024 i = _
  rw [e, hstack]
  exact congrFun (Stack8.unmerge_slabSum_stack FloatOps.addf _ _ _ _ _ _ _ _ _ _ _ _) i

/-- The kernel program's run: it terminates without a fault, its result at the lookup of its arguments, the arguments
    unchanged. -/
theorem run_lookup : θ_run defs (onTc (τ := τ) (main (F := F))) ⟨m, fun _ => 0, ρ⟩ (fun r => ∀ c : Dev nD,
      r.2.mem ((c.tc : Thread nD τ).loc main_v302) = Lut.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v302 (Pipeline.mem_restRefs_of main_v302 (by decide) (by decide))).trans (out_lookup m c),
        args_kept m (dats m) r h c⟩)
    (run_main m ρ)

end Cert.KernelIdeal.Around

end
-- ==== Proof.RefLookup.lean ====
/-
  The reference program's result, in the same words as the kernel's.

  The reference computes, on the host, the eight weighted corners and adds them left to right, then swaps the channel
  and batch axes.  Its operations compose to exactly the stages of the lookup — the scaled image, the cell index and the
  position inside the cell per colour axis, the wrapped corner index, the gathered corner, its weight — so its
  result is the transposed left-to-right sum of the eight weighted-corner terms of the two argument arrays.
-/
import proofs.«167662_j20830591385730_2_alg».proof.Proof.Gen.ReferenceIdeal.Run
import proofs.«167662_j20830591385730_2_alg».proof.Proof.KernelIdealLut

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxHeartbeats 4000000 in
/-- The reference's result buffer after its operations holds the lookup of the launch contents of its arguments: the
    operations' composed term, its named stages unfolded, is the lookup's, stage for stage. -/
theorem result_eq (V0 : Valuation τ sig (Elt F)) :
    val7 V0 (Proc.devRef .tc main_v297) = Cert.KernelIdeal.Lut.lookup (V0 (Proc.devRef .tc main_arg0)) (V0 (Proc.devRef .tc main_arg1)) :=
  (val7_main_v297 V0).trans rfl

/-- The reference's run: it terminates without a fault, its result at the lookup of its arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v297) = Cert.KernelIdeal.Lut.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v297).trans (by simp only [after_ops]; exact result_eq (launchContents m c)),
      (h c main_arg0).trans (by simp only [after_ops]; exact val7_main_arg0 (launchContents m c)),
      (h c main_arg1).trans (by simp only [after_ops]; exact val7_main_arg1 (launchContents m c))⟩)
    (run_seq scopedRefs_eq scopedSems_eq defs main (fun _ => ops) main_eq (fun _ => ops_sub) m ρ)

end Cert.ReferenceIdeal.RefValue

end
-- ==== Proof.lean ====
/-
  A colour lookup through a 33 × 33 × 33 table with trilinear interpolation, for a batch of eight 1024 × 1024 images:
  the kernel program against the reference program, as extended reals.

  Both programs compute, per pixel and output channel, the sum of the eight corners of the pixel's cell in the table,
  each weighted by the product of the three one-dimensional interpolation weights.  Both do the gathers and the
  weights with the same host operations; they differ only in how the eight weighted corners are added.  The reference
  adds them on the host, left to right.  The kernel stacks them into one array and adds the eight slabs of every
  [8, 64, 1024] block inside a launch over a 3 × 16 grid, also left to right, then undoes the stacking's layout.  The
  two results are therefore the same expression in the same additions, and no property of the extended reals'
  addition — nor the finiteness of the inputs — is used.

  The frames: each program runs to the end without a fault and writes neither argument array (the kernel programs by
  the launch's run around its region, the reference by its straight line of host operations).  The idealization
  rewrote nothing, so it preserves the kernel trivially.
-/
import proofs.«167662_j20830591385730_2_alg».proof.Defs
import proofs.«167662_j20830591385730_2_alg».proof.Proof.Gen.Kernel
import proofs.«167662_j20830591385730_2_alg».proof.Proof.Gen.Kernel.Skeleton
import proofs.«167662_j20830591385730_2_alg».proof.Proof.Gen.Kernel.Launch
import proofs.«167662_j20830591385730_2_alg».proof.Proof.Gen.Kernel.Points
import proofs.«167662_j20830591385730_2_alg».proof.Proof.Gen.KernelIdeal
import proofs.«167662_j20830591385730_2_alg».proof.Proof.Gen.KernelIdeal.Skeleton
import proofs.«167662_j20830591385730_2_alg».proof.Proof.Gen.KernelIdeal.Launch
import proofs.«167662_j20830591385730_2_alg».proof.Proof.Gen.KernelIdeal.Points
import proofs.«167662_j20830591385730_2_alg».proof.Proof.Gen.ReferenceIdeal
import proofs.«167662_j20830591385730_2_alg».proof.Proof.Gen.Pre_finite_inputs
import proofs.«167662_j20830591385730_2_alg».proof.Proof.Gen.ReferenceIdeal.Run
import proofs.«167662_j20830591385730_2_alg».proof.Proof.KernelArgs
import proofs.«167662_j20830591385730_2_alg».proof.Proof.KernelIdealArgs
import proofs.«167662_j20830591385730_2_alg».proof.Proof.KernelIdealOut
import proofs.«167662_j20830591385730_2_alg».proof.Proof.RefLookup
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Around.frame m ρ

/-- So does the idealized kernel program. -/
theorem frame_ki : Cert.frame_KernelIdeal := fun m ρ _ => Cert.KernelIdeal.Around.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- From memories agreeing on the table and the image batch, both idealized programs end with the lookup of those
    arguments in their result buffers. -/
theorem algebraic : Cert.algebraic_KernelIdeal_ReferenceIdeal := by
  intro m ρ m' ρ' _ hagree
  refine ⟨_, Cert.KernelIdeal.Around.run_lookup (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
